-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024 : Shape := ⟨1, ![1024]⟩
abbrev S1024x4224 : Shape := ⟨2, ![1024, 4224]⟩
abbrev S4224 : Shape := ⟨1, ![4224]⟩
abbrev S2048x1024 : Shape := ⟨2, ![2048, 1024]⟩
abbrev S128 : Shape := ⟨1, ![128]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4224 : S_.BroadcastsInDim S1024x4224 (![] : Fin 0 → Fin S1024x4224.rank)
  reducesTo_S1024x4224_S_d0_1 : S1024x4224.ReducesTo [0, 1] S_
  bcast_S_S4224 : S_.BroadcastsInDim S4224 (![] : Fin 0 → Fin S4224.rank)
  reducesTo_S4224_S_d0 : S4224.ReducesTo [0] S_
  bcast_S_S2048x1024 : S_.BroadcastsInDim S2048x1024 (![] : Fin 0 → Fin S2048x1024.rank)
  reducesTo_S2048x1024_S_d0_1 : S2048x1024.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S4224 .f32) (main_arg5 : FVec F S2048x1024 .f32) (main_arg6 : FVec F S1024 .f32) (main_arg7 : FVec F S128 .f32) (main_arg8 : FVec F S128 .f32) (main_arg9 : FVec F S128 .f32) (main_arg10 : FVec F S128 .f32) (main_v13 : IVec S_ 1) (main_v16 : IVec S1024x4224 1) : IVec S_ 1 :=
  let main_c_5 : IVec S_ 1 := constantI S_ 1 1#1
  let main_v17 : IVec S_ 1 := (fun x v => Host.reduce IntOp.andi x v reducesTo_S1024x4224_S_d0_1 h_S_) main_v16 main_c_5
  let main_v18 : IVec S_ 1 := andi main_v13 main_v17
  let main_v19 : FVec F S4224 .f32 := Host.absf main_arg4
  let main_cst_6 : FVec F S_ .f32 := constant S_ .f32 0x7F800000#32
  let main_v20 : FVec F S4224 .f32 := broadcastInDim S4224 ![] bcast_S_S4224 main_cst_6
  let main_v21 : IVec S4224 1 := cmpf .olt main_v19 main_v20
  let main_c_7 : IVec S_ 1 := constantI S_ 1 1#1
  let main_v22 : IVec S_ 1 := (fun x v => Host.reduce IntOp.andi x v reducesTo_S4224_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S1024 .f32) (main_arg2 : FVec F S1024 .f32) (main_arg3 : FVec F S1024x4224 .f32) (main_arg4 : FVec F S4224 .f32) (main_arg5 : FVec F S2048x1024 .f32) (main_arg6 : FVec F S1024 .f32) (main_arg7 : FVec F S128 .f32) (main_arg8 : FVec F S128 .f32) (main_arg9 : FVec F S128 .f32) (main_arg10 : FVec F S128 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4224 .f32 := Host.absf main_arg3
  let main_cst_4 : FVec F S_ .f32 := constant S_ .f32 0x7F800000#32
  let main_v15 : FVec F S1024x4224 .f32 := broadcastInDim S1024x4224 ![] bcast_S_S1024x4224 main_cst_4
  let main_v16 : IVec S1024x4224 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024 : Shape := ⟨1, ![1024]⟩
abbrev S1024x4224 : Shape := ⟨2, ![1024, 4224]⟩
abbrev S4224 : Shape := ⟨1, ![4224]⟩
abbrev S2048x1024 : Shape := ⟨2, ![2048, 1024]⟩
abbrev S128 : Shape := ⟨1, ![128]⟩
abbrev S4x2048x2048 : Shape := ⟨3, ![4, 2048, 2048]⟩
abbrev S4x2048x128 : Shape := ⟨3, ![4, 2048, 128]⟩
abbrev S1x256x1024 : Shape := ⟨3, ![1, 256, 1024]⟩
abbrev S1x256x2048 : Shape := ⟨3, ![1, 256, 2048]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x4224 : Shape := ⟨2, ![256, 4224]⟩
abbrev S1x4224 : Shape := ⟨2, ![1, 4224]⟩
abbrev S256x2048 : Shape := ⟨2, ![256, 2048]⟩
abbrev S256x128 : Shape := ⟨2, ![256, 128]⟩
abbrev S1x128 : Shape := ⟨2, ![1, 128]⟩
abbrev S1x512x128 : Shape := ⟨3, ![1, 512, 128]⟩
abbrev S1x2048x128 : Shape := ⟨3, ![1, 2048, 128]⟩
abbrev S1x2048x2048 : Shape := ⟨3, ![1, 2048, 2048]⟩
abbrev S1x512x2048 : Shape := ⟨3, ![1, 512, 2048]⟩
abbrev S1x512x1024 : Shape := ⟨3, ![1, 512, 1024]⟩
abbrev S512x2048 : Shape := ⟨2, ![512, 2048]⟩
abbrev S512x128 : Shape := ⟨2, ![512, 128]⟩
abbrev S512x512 : Shape := ⟨2, ![512, 512]⟩
abbrev S512x1024 : Shape := ⟨2, ![512, 1024]⟩
abbrev S1024x1024 : Shape := ⟨2, ![1024, 1024]⟩

abbrev nBuf : Space → Nat
  | .hbm => 18
  | .vmem => 31
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4224, .f32⟩
  | .hbm, ⟨4, _⟩ => ⟨S4224, .f32⟩
  | .hbm, ⟨5, _⟩ => ⟨S2048x1024, .f32⟩
  | .hbm, ⟨6, _⟩ => ⟨S1024, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1024x4224, .bf16⟩
  | .hbm, ⟨12, _⟩ => ⟨S2048x1024, .bf16⟩
  | .hbm, ⟨13, _⟩ => ⟨S4x2048x2048, .bf16⟩
  | .hbm, ⟨14, _⟩ => ⟨S4x2048x2048, .bf16⟩
  | .hbm, ⟨15, _⟩ => ⟨S4x2048x128, .bf16⟩
  | .hbm, ⟨16, _⟩ => ⟨S4x2048x128, .bf16⟩
  | .hbm, ⟨17, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024, .f32⟩
  | .local _ .vmem, ⟨3, _⟩ => ⟨S1024, .f32⟩
  | .local _ .vmem, ⟨4, _⟩ => ⟨S1024x4224, .bf16⟩
  | .local _ .vmem, ⟨5, _⟩ => ⟨S4224, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x2048x128, .bf16⟩
  | .local _ .vmem, ⟨21, _⟩ => ⟨S1x2048x2048, .bf16⟩
  | .local _ .vmem, ⟨22, _⟩ => ⟨S1x512x2048, .bf16⟩
  | .local _ .vmem, ⟨23, _⟩ => ⟨S1x512x2048, .bf16⟩
  | .local _ .vmem, ⟨24, _⟩ => ⟨S1x512x1024, .f32⟩
  | .local _ .vmem, ⟨25, _⟩ => ⟨S1x512x1024, .f32⟩
  | .local _ .vmem, ⟨26, _⟩ => ⟨S2048x1024, .bf16⟩
  | .local _ .vmem, ⟨27, _⟩ => ⟨S1024, .f32⟩
  | .local _ .vmem, ⟨28, _⟩ => ⟨S1x512x1024, .f32⟩
  | .local _ .vmem, ⟨29, _⟩ => ⟨S1x512x1024, .f32⟩
  | .local _ .vmem, ⟨30, _⟩ => ⟨S512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨3, ![4, 4, 4], ![false, false, false]⟩

def k1_mult1 (i : grid1.Coords) : BitVec 32 :=
  let arg2 : BitVec 32 := BitVec.ofNat 32 (i 2).val
  let c512_i32 : BitVec 32 := 512#32
  let v3 : BitVec 32 := Scalar.muli arg2 c512_i32
  v3
def k1_off1 (i : grid1.Coords) : Fin 3 → Nat :=
  let c0 : Index := 0#32
  let arg2 : BitVec 32 := BitVec.ofNat 32 (i 2).val
  let c512_i32 : BitVec 32 := 512#32
  let v3 : BitVec 32 := Scalar.muli arg2 c512_i32
  let v4 : BitVec 32 := v3
  let v5 : Index := Scalar.indexCast v4
  let c0_1 : Index := 0#32
  ![0, v5.toNat, 0]
def k1_off2 (i : grid1.Coords) : Fin 3 → Nat :=
  let c0_2 : Index := 0#32
  let arg2 : BitVec 32 := BitVec.ofNat 32 (i 2).val
  let c512_i32 : BitVec 32 := 512#32
  let v3 : BitVec 32 := Scalar.muli arg2 c512_i32
  let v4 : BitVec 32 := v3
  let v8 : Index := Scalar.indexCast v4
  let c0_3 : Index := 0#32
  ![0, v8.toNat, 0]
def k1_cond2 (i : grid1.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_14 : BitVec 32 := 0#32
  let v28 : BitVec 1 := Scalar.cmpi .ne v27 c0_i32_14
  v28

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1x2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, false]

abbrev stage1_2 : Fin 1 → Memref sig .tc .vmem S1x2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false, false]

abbrev stage1_3 : Fin 2 → Memref sig .tc .vmem S1x512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x4224_S1024x4224_0_0 : ∀ a, (![0, 0] : Fin 2 → Nat) a + S1024x4224.size a ≤ S1024x4224.size a
  h_S1024x4224 : 0 < S1024x4224.numel
  shapeCasts_S1024x4224_S1024x4224 : S1024x4224.ShapeCasts S1024x4224
  inb_S4224_S4224_0 : ∀ a, (![0] : Fin 1 → Nat) a + S4224.size a ≤ S4224.size a
  h_S4224 : 0 < S4224.numel
  shapeCasts_S4224_S1x4224 : S4224.ShapeCasts S1x4224
  broadcasts_S1x4224_S256x4224 : S1x4224.Broadcasts S256x4224
  slices_S256x4224_o0_0_S256x2048 : S256x4224.Slices ![0, 0] S256x2048
  slices_S256x4224_o0_2048_S256x2048 : S256x4224.Slices ![0, 2048] S256x2048
  slices_S256x4224_o0_4096_S256x128 : S256x4224.Slices ![0, 4096] S256x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  packedbf16_S1x256x128_S1x256x128_0_0_0 : (Rect.unit (s := S1x256x128) ![0, 0, 0] S1x256x128.size inb_S1x256x128_S1x256x128_0_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  h_S1x512x128 : 0 < S1x512x128.numel
  shapeCasts_S1x512x128_S512x128 : S1x512x128.ShapeCasts S512x128
  h_S1x512x2048 : 0 < S1x512x2048.numel
  shapeCasts_S1x512x2048_S512x2048 : S1x512x2048.ShapeCasts S512x2048
  inb_S1x512x128_S1x512x128_0_0_0 : ∀ a, (![0, 0, 0] : Fin 3 → Nat) a + S1x512x128.size a ≤ S1x512x128.size a
  inb_S1x512x2048_S1x512x1024_0_0_0 : ∀ a, (![0, 0, 0] : Fin 3 → Nat) a + S1x512x1024.size a ≤ S1x512x2048.size a
  h_S1x512x1024 : 0 < S1x512x1024.numel
  shapeCasts_S1x512x1024_S512x1024 : S1x512x1024.ShapeCasts S512x1024
  inb_S512x2048_S512x1024_0_0 : ∀ a, (![0, 0] : Fin 2 → Nat) a + S512x1024.size a ≤ S512x2048.size a
  h_S512x1024 : 0 < S512x1024.numel
  inb_S2048x1024_S1024x1024_0_0 : ∀ a, (![0, 0] : Fin 2 → Nat) a + S1024x1024.size a ≤ S2048x1024.size a
  h_S1024x1024 : 0 < S1024x1024.numel
  shapeCasts_S1024x1024_S1024x1024 : S1024x1024.ShapeCasts S1024x1024
  inb_S1x512x2048_S1x512x1024_0_0_1024 : ∀ a, (![0, 0, 1024] : Fin 3 → Nat) a + S1x512x1024.size a ≤ S1x512x2048.size a
  inb_S512x2048_S512x1024_0_1024 : ∀ a, (![0, 1024] : Fin 2 → Nat) a + S512x1024.size a ≤ S512x2048.size a
  inb_S2048x1024_S1024x1024_1024_0 : ∀ a, (![1024, 0] : Fin 2 → Nat) a + S1024x1024.size a ≤ S2048x1024.size a
  inb_S1x512x1024_S1x512x1024_0_0_0 : ∀ a, (![0, 0, 0] : Fin 3 → Nat) a + S1x512x1024.size a ≤ S1x512x1024.size a
  broadcasts_S1x1024_S512x1024 : S1x1024.Broadcasts S512x1024
  shapeCasts_S512x1024_S1x512x1024 : S512x1024.ShapeCasts S1x512x1024
  dot_S256x1024_S1024x4224_S256x4224_1_0_0_1_n_n_wf : DotDims.WF S256x1024 S1024x4224 S256x4224 [1] [0] [0] [1] [] []
  dot_S512x128_S512x128_S512x512_1_1_0_0_n_n_wf : DotDims.WF S512x128 S512x128 S512x512 [1] [1] [0] [0] [] []
  dot_S512x512_S512x2048_S512x2048_1_0_0_1_n_n_wf : DotDims.WF S512x512 S512x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4224.size a ≤ S1024x4224.size a
  hwx0_3 : ∀ i : grid0.Coords, EltTy.bits .bf16 = 32 ∨ (Rect.block (s := S1024x4224) S1024x4224.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4224.size a ≤ S4224.size a
  hwx0_4 : ∀ i : grid0.Coords, EltTy.bits .f32 = 32 ∨ (Rect.block (s := S4224) S4224.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x2048.size a ≤ S4x2048x2048.size a
  hwx0_9 : ∀ i : grid0.Coords, EltTy.bits .bf16 = 32 ∨ (Rect.block (s := S4x2048x2048) S1x256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x2048.size a ≤ S4x2048x2048.size a
  hwx0_10 : ∀ i : grid0.Coords, EltTy.bits .bf16 = 32 ∨ (Rect.block (s := S4x2048x2048) S1x256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x128.size a ≤ S4x2048x128.size a
  hwx0_11 : ∀ i : grid0.Coords, EltTy.bits .bf16 = 32 ∨ (Rect.block (s := S4x2048x128) S1x256x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x128.size a ≤ S4x2048x128.size a
  hwx0_12 : ∀ i : grid0.Coords, EltTy.bits .bf16 = 32 ∨ (Rect.block (s := S4x2048x128) S1x256x128.size (cc0_transform_12 i) (hinb0_12 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S1x512x128.size a ≤ S1x2048x128.size a
  k1_off2_inb : ∀ i : grid1.Coords, ∀ a, (k1_off2 i) a + S1x512x2048.size a ≤ S1x2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x128.size a
  hwx1_0 : ∀ i : grid1.Coords, EltTy.bits .bf16 = 32 ∨ (Rect.block (s := S4x2048x128) S1x512x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x128.size a
  hwx1_1 : ∀ i : grid1.Coords, EltTy.bits .bf16 = 32 ∨ (Rect.block (s := S4x2048x128) S1x2048x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x2048.size a ≤ S4x2048x2048.size a
  hwx1_2 : ∀ i : grid1.Coords, EltTy.bits .bf16 = 32 ∨ (Rect.block (s := S4x2048x2048) S1x2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S4x2048x2048.size a
  hwx1_3 : ∀ i : grid1.Coords, EltTy.bits .bf16 = 32 ∨ (Rect.block (s := S4x2048x2048) S1x512x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .f32 = 32 ∨ (Rect.block (s := S4x2048x1024) S1x512x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S2048x1024.size a
  hwx1_5 : ∀ i : grid1.Coords, EltTy.bits .bf16 = 32 ∨ (Rect.block (s := S2048x1024) S2048x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x1024.size a ≤ S4x2048x1024.size a
  hwx1_7 : ∀ i : grid1.Coords, EltTy.bits .f32 = 32 ∨ (Rect.block (s := S4x2048x1024) S1x512x1024.size (cc1_transform_7 i) (hinb1_7 i)).WholeWords (EltTy.packing .f32)

variable [Facts₀]

def dot_S256x1024_S1024x4224_S256x4224_1_0_0_1_n_n : DotDims S256x1024 S1024x4224 S256x4224 where
  lhsContracting := [1]
  rhsContracting := [0]
  lhsNonContracting := [0]
  rhsNonContracting := [1]
  lhsBatch := []
  rhsBatch := []
  wf := dot_S256x1024_S1024x4224_S256x4224_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4224.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4224.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S1x256x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S1x256x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_2) S1x256x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_3) S1x256x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v2_2) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_3) S1x2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S2048x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024 : Shape := ⟨1, ![1024]⟩
abbrev S1024x4224 : Shape := ⟨2, ![1024, 4224]⟩
abbrev S4224 : Shape := ⟨1, ![4224]⟩
abbrev S2048x1024 : Shape := ⟨2, ![2048, 1024]⟩
abbrev S128 : Shape := ⟨1, ![128]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4224 : Shape := ⟨3, ![4, 2048, 4224]⟩
abbrev S1x1x4224 : Shape := ⟨3, ![1, 1, 4224]⟩
abbrev S4x2048x2048 : Shape := ⟨3, ![4, 2048, 2048]⟩
abbrev S4x2048x128 : Shape := ⟨3, ![4, 2048, 128]⟩
abbrev S1x1x128 : Shape := ⟨3, ![1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4224, .f32⟩
  | .hbm, ⟨4, _⟩ => ⟨S4224, .f32⟩
  | .hbm, ⟨5, _⟩ => ⟨S2048x1024, .f32⟩
  | .hbm, ⟨6, _⟩ => ⟨S1024, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S4x2048x4224, .f32⟩
  | .hbm, ⟨41, _⟩ => ⟨S1x1x4224, .f32⟩
  | .hbm, ⟨42, _⟩ => ⟨S4x2048x4224, .f32⟩
  | .hbm, ⟨43, _⟩ => ⟨S4x2048x4224, .f32⟩
  | .hbm, ⟨44, _⟩ => ⟨S4x2048x4224, .f32⟩
  | .hbm, ⟨45, _⟩ => ⟨S4x2048x4224, .f32⟩
  | .hbm, ⟨46, _⟩ => ⟨S_, .f32⟩
  | .hbm, ⟨47, _⟩ => ⟨S4x2048x4224, .f32⟩
  | .hbm, ⟨48, _⟩ => ⟨S4x2048x4224, .f32⟩
  | .hbm, ⟨49, _⟩ => ⟨S_, .f32⟩
  | .hbm, ⟨50, _⟩ => ⟨S4x2048x4224, .f32⟩
  | .hbm, ⟨51, _⟩ => ⟨S4x2048x4224, .f32⟩
  | .hbm, ⟨52, _⟩ => ⟨S4x2048x4224, .f32⟩
  | .hbm, ⟨53, _⟩ => ⟨S4x2048x2048, .f32⟩
  | .hbm, ⟨54, _⟩ => ⟨S4x2048x2048, .f32⟩
  | .hbm, ⟨55, _⟩ => ⟨S4x2048x128, .f32⟩
  | .hbm, ⟨56, _⟩ => ⟨S1x1x128, .f32⟩
  | .hbm, ⟨57, _⟩ => ⟨S4x2048x128, .f32⟩
  | .hbm, ⟨58, _⟩ => ⟨S4x2048x128, .f32⟩
  | .hbm, ⟨59, _⟩ => ⟨S1x1x128, .f32⟩
  | .hbm, ⟨60, _⟩ => ⟨S4x2048x128, .f32⟩
  | .hbm, ⟨61, _⟩ => ⟨S4x2048x128, .f32⟩
  | .hbm, ⟨62, _⟩ => ⟨S1x1x128, .f32⟩
  | .hbm, ⟨63, _⟩ => ⟨S4x2048x128, .f32⟩
  | .hbm, ⟨64, _⟩ => ⟨S4x2048x128, .f32⟩
  | .hbm, ⟨65, _⟩ => ⟨S1x1x128, .f32⟩
  | .hbm, ⟨66, _⟩ => ⟨S4x2048x128, .f32⟩
  | .hbm, ⟨67, _⟩ => ⟨S4x2048x128, .f32⟩
  | .hbm, ⟨68, _⟩ => ⟨S4x2048x2048, .f32⟩
  | .hbm, ⟨69, _⟩ => ⟨S_, .f32⟩
  | .hbm, ⟨70, _⟩ => ⟨S4x2048x2048, .f32⟩
  | .hbm, ⟨71, _⟩ => ⟨S4x2048x2048, .f32⟩
  | .hbm, ⟨72, _⟩ => ⟨S_, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S4x2048x1024, .f32⟩
  | .hbm, ⟨79, _⟩ => ⟨S4x2048x1024, .f32⟩
  | .hbm, ⟨80, _⟩ => ⟨S1x1x1024, .f32⟩
  | .hbm, ⟨81, _⟩ => ⟨S4x2048x1024, .f32⟩
  | .hbm, ⟨82, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4224_S1x1x4224_2 : S4224.BroadcastsInDim S1x1x4224 (![2] : Fin 1 → Fin S1x1x4224.rank)
  bcast_S1x1x4224_S4x2048x4224_0_1_2 : S1x1x4224.BroadcastsInDim S4x2048x4224 (![0, 1, 2] : Fin 3 → Fin S4x2048x4224.rank)
  bcast_S_S4x2048x4224 : S_.BroadcastsInDim S4x2048x4224 (![] : Fin 0 → Fin S4x2048x4224.rank)
  slices_S4x2048x4224_S4x2048x2048_0_0_0 : S4x2048x4224.Slices ![0, 0, 0] S4x2048x2048
  slices_S4x2048x4224_S4x2048x2048_0_0_2048 : S4x2048x4224.Slices ![0, 0, 2048] S4x2048x2048
  slices_S4x2048x4224_S4x2048x128_0_0_4096 : S4x2048x4224.Slices ![0, 0, 4096] S4x2048x128
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  bcast_S_S4x2048x2048 : S_.BroadcastsInDim S4x2048x2048 (![] : Fin 0 → Fin S4x2048x2048.rank)
  dot_S4x2048x1024_S1024x4224_S4x2048x4224_2_0_01_1_n_n_wf : DotDims.WF S4x2048x1024 S1024x4224 S4x2048x4224 [2] [0] [0, 1] [1] [] []
  dot_S4x2048x128_S4x2048x128_S4x2048x2048_2_2_1_1_0_0_wf : DotDims.WF S4x2048x128 S4x2048x128 S4x2048x2048 [2] [2] [1] [1] [0] [0]
  dot_S4x2048x2048_S4x2048x2048_S4x2048x2048_2_1_1_2_0_0_wf : DotDims.WF S4x2048x2048 S4x2048x2048 S4x2048x2048 [2] [1] [1] [2] [0] [0]
  dot_S4x2048x2048_S2048x1024_S4x2048x1024_2_0_01_1_n_n_wf : DotDims.WF S4x2048x2048 S2048x1024 S4x2048x1024 [2] [0] [0, 1] [1] [] []

variable [Facts₀]

def dot_S4x2048x1024_S1024x4224_S4x2048x4224_2_0_01_1_n_n : DotDims S4x2048x1024 S1024x4224 S4x2048x4224 where
  lhsContracting := [2]
  rhsContracting := [0]
  lhsNonContracting := [0, 1]
  rhsNonContracting := [1]
  lhsBatch := []
  rhsBatch := []
  wf := dot_S4x2048x1024_S1024x4224_S4x2048x4224_2_0_01_1_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x2048_S4x2048x2048_2_1_1_2_0_0 : DotDims S4x2048x2048 S4x2048x2048 S4x2048x2048 where
  lhsContracting := [2]
  rhsContracting := [1]
  lhsNonContracting := [1]
  rhsNonContracting := [2]
  lhsBatch := [0]
  rhsBatch := [0]
  wf := dot_S4x2048x2048_S4x2048x2048_S4x2048x2048_2_1_1_2_0_0_wf
def dot_S4x2048x2048_S2048x1024_S4x2048x1024_2_0_01_1_n_n : DotDims S4x2048x2048 S2048x1024 S4x2048x1024 where
  lhsContracting := [2]
  rhsContracting := [0]
  lhsNonContracting := [0, 1]
  rhsNonContracting := [1]
  lhsBatch := []
  rhsBatch := []
  wf := dot_S4x2048x2048_S2048x1024_S4x2048x1024_2_0_01_1_n_n_wf

class Facts : Prop extends Facts₀ where

variable [Facts]
-- ==== Proof.KI.Reg0.lean ====
import proofs.«152703_j41326175322889_2_alg».proof.Proof.Gen.KernelIdeal.Launch
import proofs.«152703_j41326175322889_2_alg».proof.Proof.Gen.KernelIdeal.Skeleton
import proofs.«152703_j41326175322889_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

/-!
# The projection kernel (the first of the program's two kernel calls): its proof data and body obligation

At each of its 32 grid points the body reads one tile of the activations (256 rows of 1024 features) together with
the layer-norm gain and bias, the input projection's weight matrix and bias, and the two pairs of per-lane scale and
shift vectors. It layer-normalises the tile, multiplies by the weight matrix, adds the bias, applies x * logistic x,
and cuts the 4224 resulting columns into three bands: the first two (2048 columns each) are written out as they are,
the third (128 columns) is written out twice, once scaled and shifted by each pair of per-lane vectors.

Every input is loaded whole and every output block is written by ONE store of the whole block, so what the body
leaves in an output's staging buffer is exactly that store's value, a function of the nine input blocks.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there (not fetched: the block index has not moved since the point before), for any proof data over the entry
    contents whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (not fetched: the block index has not moved since the point before), for any proof data over the entry
    contents whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (not fetched: the block index has not moved since the point before), for any proof data over the entry
    contents whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not the pipeline fetched it
    there (not fetched: the block index has not moved since the point before), for any proof data over the entry
    contents whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether or not the pipeline fetched it
    there (not fetched: the block index has not moved since the point before), for any proof data over the entry
    contents whose body leaves the block in place. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether or not the pipeline fetched it
    there (not fetched: the block index has not moved since the point before), for any proof data over the entry
    contents whose body leaves the block in place. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether or not the pipeline fetched it
    there (not fetched: the block index has not moved since the point before), for any proof data over the entry
    contents whose body leaves the block in place. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether or not the pipeline fetched it
    there (not fetched: the block index has not moved since the point before), for any proof data over the entry
    contents whose body leaves the block in place. -/
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, whether or not the pipeline fetched it
    there (not fetched: the block index has not moved since the point before), for any proof data over the entry
    contents whose body leaves the block in place. -/
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX : Rect S1x256x1024 := Rect.unit (s := S1x256x1024) ![0, 0, 0] S1x256x1024.size inb_S1x256x1024_S1x256x1024_0_0_0
abbrev rG : Rect S1024 := Rect.unit (s := S1024) ![0] S1024.size inb_S1024_S1024_0
abbrev rW : Rect S1024x4224 := Rect.unit (s := S1024x4224) ![0, 0] S1024x4224.size inb_S1024x4224_S1024x4224_0_0
abbrev rB : Rect S4224 := Rect.unit (s := S4224) ![0] S4224.size inb_S4224_S4224_0
abbrev rL : Rect S128 := Rect.unit (s := S128) ![0] S128.size inb_S128_S128_0
abbrev rWide : Rect S1x256x2048 := Rect.unit (s := S1x256x2048) ![0, 0, 0] S1x256x2048.size inb_S1x256x2048_S1x256x2048_0_0_0
abbrev rNarrow : Rect S1x256x128 := Rect.unit (s := S1x256x128) ![0, 0, 0] S1x256x128.size inb_S1x256x128_S1x256x128_0_0_0

/-- The zero offsets of a rank-1, a rank-2 and a rank-3 access, as constant functions. -/
theorem off1_zero : (![0] : Fin 1 → Nat) = fun _ => 0 := funext fun a => by fin_cases a <;> rfl
theorem off2_zero : (![0, 0] : Fin 2 → Nat) = fun _ => 0 := funext fun a => by fin_cases a <;> rfl
theorem off3_zero : (![0, 0, 0] : Fin 3 → Nat) = fun _ => 0 := funext fun a => by fin_cases a <;> rfl

/-! ## What the body leaves in each output window's buffer -/

/-- Output 9 (the first band of 2048 columns): its one store of the whole block. -/
def out0_9 (x0 : Vec F S1x256x1024 .f32) (x1 x2 : Vec F S1024 .f32) (x3 : Vec F S1024x4224 .bf16) (x4 : Vec F S4224 .f32) : Vec F S1x256x2048 .bf16 :=
  View.canon [⟨rWide, k0_pay1 (k0_pay6 (View.ld x0 rX) (View.ld x1 rG) (View.ld x2 rG) (View.ld x3 rW) (View.ld x4 rB))⟩]

/-- Output 10 (the second band of 2048 columns): its one store of the whole block. -/
def out0_10 (x0 : Vec F S1x256x1024 .f32) (x1 x2 : Vec F S1024 .f32) (x3 : Vec F S1024x4224 .bf16) (x4 : Vec F S4224 .f32) : Vec F S1x256x2048 .bf16 :=
  View.canon [⟨rWide, k0_pay2 (k0_pay7 (View.ld x0 rX) (View.ld x1 rG) (View.ld x2 rG) (View.ld x3 rW) (View.ld x4 rB))⟩]

/-- Output 11 (the last band of 128 columns, scaled by `x5` and shifted by `x6` lane by lane): its one store. -/
def out0_11 (x0 : Vec F S1x256x1024 .f32) (x1 x2 : Vec F S1024 .f32) (x3 : Vec F S1024x4224 .bf16) (x4 : Vec F S4224 .f32) (x5 x6 : Vec F S128 .f32) : Vec F S1x256x128 .bf16 :=
  View.canon [⟨rNarrow, k0_pay3 (k0_pay9 (View.ld x0 rX) (View.ld x1 rG) (View.ld x2 rG) (View.ld x3 rW) (View.ld x4 rB) (View.ld x5 rL)) (View.ld x6 rL)⟩]

/-- Output 12 (the same band, scaled by `x7` and shifted by `x8`): its one store. -/
def out0_12 (x0 : Vec F S1x256x1024 .f32) (x1 x2 : Vec F S1024 .f32) (x3 : Vec F S1024x4224 .bf16) (x4 : Vec F S4224 .f32) (x7 x8 : Vec F S128 .f32) : Vec F S1x256x128 .bf16 :=
  View.canon [⟨rNarrow, k0_pay4 (k0_pay8 (View.ld x0 rX) (View.ld x1 rG) (View.ld x2 rG) (View.ld x3 rW) (View.ld x4 rB)) (View.ld x7 rL) (View.ld x8 rL)⟩]

/-- One store of the whole block leaves its value; a load of a whole buffer reads its contents. -/
theorem out0_9_eq (x0 : Vec F S1x256x1024 .f32) (x1 x2 : Vec F S1024 .f32) (x3 : Vec F S1024x4224 .bf16) (x4 : Vec F S4224 .f32) : out0_9 x0 x1 x2 x3 x4 = k0_pay1 (k0_pay6 x0 x1 x2 x3 x4) := by
  unfold out0_9
  rw [View.canon_unit_zero off3_zero]
  simp only [View.ld_unit_zero (S := S1x256x1024) off3_zero, View.ld_unit_zero (S := S1024) off1_zero,
    View.ld_unit_zero (S := S1024x4224) off2_zero, View.ld_unit_zero (S := S4224) off1_zero]

theorem out0_10_eq (x0 : Vec F S1x256x1024 .f32) (x1 x2 : Vec F S1024 .f32) (x3 : Vec F S1024x4224 .bf16) (x4 : Vec F S4224 .f32) : out0_10 x0 x1 x2 x3 x4 = k0_pay2 (k0_pay7 x0 x1 x2 x3 x4) := by
  unfold out0_10
  rw [View.canon_unit_zero off3_zero]
  simp only [View.ld_unit_zero (S := S1x256x1024) off3_zero, View.ld_unit_zero (S := S1024) off1_zero,
    View.ld_unit_zero (S := S1024x4224) off2_zero, View.ld_unit_zero (S := S4224) off1_zero]

theorem out0_11_eq (x0 : Vec F S1x256x1024 .f32) (x1 x2 : Vec F S1024 .f32) (x3 : Vec F S1024x4224 .bf16) (x4 : Vec F S4224 .f32) (x5 x6 : Vec F S128 .f32) :
    out0_11 x0 x1 x2 x3 x4 x5 x6 = k0_pay3 (k0_pay9 x0 x1 x2 x3 x4 x5) x6 := by
  unfold out0_11
  rw [View.canon_unit_zero off3_zero]
  simp only [View.ld_unit_zero (S := S1x256x1024) off3_zero, View.ld_unit_zero (S := S1024) off1_zero,
    View.ld_unit_zero (S := S1024x4224) off2_zero, View.ld_unit_zero (S := S4224) off1_zero,
    View.ld_unit_zero (S := S128) off1_zero]

theorem out0_12_eq (x0 : Vec F S1x256x1024 .f32) (x1 x2 : Vec F S1024 .f32) (x3 : Vec F S1024x4224 .bf16) (x4 : Vec F S4224 .f32) (x7 x8 : Vec F S128 .f32) :
    out0_12 x0 x1 x2 x3 x4 x7 x8 = k0_pay4 (k0_pay8 x0 x1 x2 x3 x4) x7 x8 := by
  unfold out0_12
  rw [View.canon_unit_zero off3_zero]
  simp only [View.ld_unit_zero (S := S1x256x1024) off3_zero, View.ld_unit_zero (S := S1024) off1_zero,
    View.ld_unit_zero (S := S1024x4224) off2_zero, View.ld_unit_zero (S := S4224) off1_zero,
    View.ld_unit_zero (S := S128) off1_zero]

/-- A store of the whole block covers it. -/
theorem coverWide (p0 : Vec F S1x256x2048 .bf16) (y : S1x256x2048.Idx) :
    ∃ pc ∈ ([⟨rWide, p0⟩] : List (View.Piece (Elt F) S1x256x2048 .bf16)), y ∈ pc.1.set :=
  ⟨_, List.mem_singleton_self _, View.mem_set_unit_zero off3_zero inb_S1x256x2048_S1x256x2048_0_0_0 y⟩
theorem coverNarrow (p0 : Vec F S1x256x128 .bf16) (y : S1x256x128.Idx) :
    ∃ pc ∈ ([⟨rNarrow, p0⟩] : List (View.Piece (Elt F) S1x256x128 .bf16)), y ∈ pc.1.set :=
  ⟨_, List.mem_singleton_self _, View.mem_set_unit_zero off3_zero inb_S1x256x128_S1x256x128_0_0_0 y⟩

/-! ## The body's triple -/

set_option maxHeartbeats 4000000 in
/-- The kernel body on whole staging buffers, the inputs' reading `xW` and the outputs' holding anything, runs to the
    continuation with the inputs' as they were and each output's at `out0_W` of the inputs. -/
theorem sound_kernel0 (c : Dev nD) (E : Set ℕ) (i : grid0.Coords) (arg2 : Memref sig .tc .vmem S1x256x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x4224 .bf16) (harg5 : arg5.IsWhole) (arg6 : Memref sig .tc .vmem S4224 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S1x256x2048 .bf16) (harg11 : arg11.IsWhole) (arg12 : Memref sig .tc .vmem S1x256x2048 .bf16) (harg12 : arg12.IsWhole) (arg13 : Memref sig .tc .vmem S1x256x128 .bf16) (harg13 : arg13.IsWhole) (arg14 : Memref sig .tc .vmem S1x256x128 .bf16) (harg14 : arg14.IsWhole)
    (x0 : Vec F S1x256x1024 .f32) (x1 : Vec F S1024 .f32) (x2 : Vec F S1024 .f32) (x3 : Vec F S1024x4224 .bf16) (x4 : Vec F S4224 .f32) (x5 : Vec F S128 .f32) (x6 : Vec F S128 .f32) (x7 : Vec F S128 .f32) (x8 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out0_9 x0 x1 x2 x3 x4) ∗ owns (c : Thread nD τ) arg12 fullShare (out0_10 x0 x1 x2 x3 x4) ∗ owns (c : Thread nD τ) arg13 fullShare (out0_11 x0 x1 x2 x3 x4 x5 x6) ∗ owns (c : Thread nD τ) arg14 fullShare (out0_12 x0 x1 x2 x3 x4 x7 x8)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverWide _)
  isplitl [H10]
  · iexists _; isplitr
    swap; · iexact H10
    ipureintro
    exact View.read_writes_eq_canon _ _ _ (coverWide _)
  isplitl [H11]
  · iexists _; isplitr
    swap; · iexact H11
    ipureintro
    exact View.read_writes_eq_canon _ _ _ (coverNarrow _)
  iexists _; isplitr
  swap; · iexact H12
  ipureintro
  exact View.read_writes_eq_canon _ _ _ (coverNarrow _)

/-! ## The proof data -/

/-- The proof data of this kernel call on core `c`: the arrays as the region finds them; after the body at point `t`
    each input's buffer still at its block and each output's at `out0_W` of the input blocks; the invariant is the
    untouched rest of the core's scoped memory and its generator register; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 3 t) (iblk0 V c 4 t)
    | ⟨11, _⟩ => out0_11 (iblk0 V c 0 t) (iblk0 V c 1 t) (iblk0 V c 2 t) (iblk0 V c 3 t) (iblk0 V c 4 t) (iblk0 V c 5 t) (iblk0 V c 6 t)
    | ⟨12, _⟩ => out0_12 (iblk0 V c 0 t) (iblk0 V c 1 t) (iblk0 V c 2 t) (iblk0 V c 3 t) (iblk0 V c 4 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Its invariant is the same at every point. -/
theorem Phi0 (c : Dev nD) (t : Fin (cfg0.N + 1)) : (dat0 V c).Φ t = Pipeline.ΦA spec0 c := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation of the launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
/- The second launch (the attention kernel on its 4x4x4 grid): what its three control cases share.
   The grid's last coordinate ki = point mod 4 walks the four key/value tiles of one query tile; the
   accumulator is zeroed at ki = 0, a tile's contribution is added at every ki, and the output block is
   written at ki = 3 only.  Here: each window's block at a point, the two branch conditions in closed
   form over the grid, where the output window is idle, and the launch invariant with the accumulator
   named. -/
import proofs.«152703_j41326175322889_2_alg».proof.Proof.Gen.KernelIdeal.Launch
import proofs.«152703_j41326175322889_2_alg».proof.Proof.Gen.KernelIdeal.Skeleton
import proofs.«152703_j41326175322889_2_alg».proof.Proof.Gen.KernelIdeal.Points
import Idealize.ShloMosaic.Lib.Pipeline.FrameBody
import Idealize.ShloMosaic.Lib.Pipeline.Regions
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the
    pipeline does not fetch, the block index has not moved and the body left the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the
    pipeline does not fetch, the block index has not moved and the body left the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the
    pipeline does not fetch, the block index has not moved and the body left the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where the
    pipeline does not fetch, the block index has not moved and the body left the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where the
    pipeline does not fetch, the block index has not moved and the body left the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where the
    pipeline does not fetch, the block index has not moved and the body left the block in place. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where the
    pipeline does not fetch, the block index has not moved and the body left the block in place. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's two branch conditions -/

/-- The first condition (ki = 0: zero the accumulator), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (ki = 3: write the output block), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Where ki = 0 the output window is idle and not written back. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
/-- Where ki is 1 or 2 likewise. -/
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
/-- Where ki = 3 the output window is live: the body stores its whole block. -/
theorem liveAt1_7_C : ∀ t : Fin cfg1.N, ¬cond1_0 (grid1.coords t) → cond1_1 (grid1.coords t) → cfg1.idle 7 (grid1.coords t) = false := by decide +kernel

/-! ## The memrefs the body is called with -/

/-- One staging buffer of the output window, through which its contents are stated (the choice does not matter). -/
abbrev VO1_7 : View sig .tc .vmem S1x512x1024 .f32 := (Memref.whole cc1_stg7_0 : Memref sig .tc .vmem S1x512x1024 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512x1024 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows. -/
abbrev scM1_0 : Memref sig .tc .vmem S512x2048 .f32 := Memref.whole cc1_scratch0
/-- The accumulator as a view: what it holds is stated through it. -/
abbrev VS1_0 : View sig .tc .vmem S512x2048 .f32 := scM1_0.view

/-- The launch invariant with the accumulator as a memref owned at some contents, the first launch's staging
    buffers beside it each at anything, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.Reg1RunA.lean ====
/- The attention kernel's body run once, in the case ki = 0: the accumulator is zeroed, then the first key/value tile's contribution is added; the output block is not touched. -/
import proofs.«152703_j41326175322889_2_alg».proof.Proof.KI.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 4000000 in
/-- The body's run in this case (ki = 0: the accumulator is zeroed, then the first key/value tile's contribution is added; the output block is not touched): on whole staging memrefs holding the input blocks,
    the pieces its stores leave in the output block and in the accumulator (last store first), with the proof that the
    body runs to a continuation holding exactly those. -/
noncomputable def kernelRun1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) :
    Σ' (L7 : List (View.Piece (Elt F) S1x512x1024 .f32)), { LS0 : List (View.Piece (Elt F) S512x2048 .f32) //
      ∀ (xi7 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, fun xi7 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

end Cert.KernelIdeal.Hand

end
-- ==== Proof.KI.Reg1RunB.lean ====
/- The attention kernel's body run once, in the case ki = 1 or 2: one more key/value tile's contribution is added to the accumulator; the output block is not touched. -/
import proofs.«152703_j41326175322889_2_alg».proof.Proof.KI.Reg1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 4000000 in
/-- The body's run in this case (ki = 1 or 2: one more key/value tile's contribution is added to the accumulator; the output block is not touched): on whole staging memrefs holding the input blocks,
    the pieces its stores leave in the output block and in the accumulator (last store first), with the proof that the
    body runs to a continuation holding exactly those. -/
noncomputable def kernelRun1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) :
    Σ' (L7 : List (View.Piece (Elt F) S1x512x1024 .f32)), { LS0 : List (View.Piece (Elt F) S512x2048 .f32) //
      ∀ (xi7 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, fun xi7 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

end Cert.KernelIdeal.Hand

end
-- ==== Proof.KI.Reg1RunC.lean ====
/- The attention kernel's body run once, in the case ki = 3: the last key/value tile's contribution is added, then the epilogue reads the accumulator and stores the output block. -/
import proofs.«152703_j41326175322889_2_alg».proof.Proof.KI.Reg1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 4000000 in
/-- The body's run in this case (ki = 3: the last key/value tile's contribution is added, then the epilogue reads the accumulator and stores the output block): on whole staging memrefs holding the input blocks,
    the pieces its stores leave in the output block and in the accumulator (last store first), with the proof that the
    body runs to a continuation holding exactly those. -/
noncomputable def kernelRun1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) :
    Σ' (L7 : List (View.Piece (Elt F) S1x512x1024 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS0

end Cert.KernelIdeal.Hand

end
-- ==== Proof.KI.Reg1.lean ====
/- The second launch (the attention kernel): what the accumulator and the output block hold after every grid
   point, the launch's proof data, and the body obligation.  The accumulator after a point with ki = 0 is one
   key/value tile's contribution over the zero fill; after a point with ki > 0 it is that point's contribution
   over what the point before left; the output block after a point with ki = 3 is the epilogue applied to the
   accumulator just completed. -/
import proofs.«152703_j41326175322889_2_alg».proof.Proof.KI.Reg1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## What each case leaves in the accumulator and in the output block -/

/-- The pieces case A stores into the accumulator tile it. -/
theorem scover1_A_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (y : S512x2048.Idx) :
    ∃ pc ∈ (kernelRun1_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4 x5 x6).2.1 S512x2048.size (by sl_kernel_rfl) y

/-- What case A leaves in the accumulator: its pieces read back. -/
def sout1_A_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) : Vec F S512x2048 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4 x5 x6).2.1)

/-- The pieces case B stores into the accumulator tile it. -/
theorem scover1_B_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) (y : S512x2048.Idx) :
    ∃ pc ∈ (kernelRun1_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 x5 x6 xs0).2.1 S512x2048.size (by sl_kernel_rfl) y

/-- What case B leaves in the accumulator: its pieces read back. -/
def sout1_B_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) : Vec F S512x2048 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 x5 x6 xs0).2.1)

/-- The pieces case C stores into the accumulator tile it. -/
theorem scover1_C_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) (y : S512x2048.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).2.1 S512x2048.size (by sl_kernel_rfl) y

/-- What case C leaves in the accumulator: its pieces read back. -/
def sout1_C_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) : Vec F S512x2048 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 x5 x6 xs0).2.1)

/-- The piece case C stores into the output block covers it. -/
theorem cover1_C_7 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) (y : S1x512x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).1 S1x512x1024.size (by sl_kernel_rfl) y

/-- What case C leaves in the output block: its piece read back. -/
def out1_C_7 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) : Vec F S1x512x1024 .f32 :=
  VO1_7.read (Elt F) (VO1_7.writes (Elt F) VO1_7.junk (kernelRun1_C c i arg3 harg3 arg4 harg4 arg5 harg5 arg6 harg6 arg7 harg7 arg8 harg8 arg9 harg9 arg10 harg10 arg11 harg11 hc0 hc1 x0 x1 x2 x3 x4 x5 x6 xs0).1)

/-- The output component at a point that stores nothing into the output block: a placeholder nothing consults
    (the block is neither written back there nor read at the next point). -/
def idleOut1 : Vec F S1x512x1024 .f32 := VO1_7.read (Elt F) VO1_7.junk

/-! ## What the output block and the accumulator hold after each point -/

/-- After the body at position `n`: (the output window's staging buffer, the accumulator).  By recursion on the
    position: the case the closed forms select at `n`, run at the point's memrefs and input blocks, the
    accumulator it reads taken from what position `n - 1` left. -/
def outsAt1 (c : Dev nD) : (n : ℕ) → n < cfg1.N → Vec F S1x512x1024 .f32 × Vec F S512x2048 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      if h1 : (n + 1) % 4 = 3 then
        False.elim (by omega)
      else
        (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point with ki = 0. -/
theorem outsAt1_A (c : Dev nD) (t : Fin cfg1.N) (h0 : t.val % 4 = 0) (h1 : ¬t.val % 4 = 3) :
    outsAt1 V c t.val t.isLt = (idleOut1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

/-- `outsAt1` at a point with ki = 1 or 2, over what the point before left. -/
theorem outsAt1_B (c : Dev nD) (t : Fin cfg1.N) (h0 : ¬t.val % 4 = 0) (h1 : ¬t.val % 4 = 3) :
    outsAt1 V c t.val t.isLt = (idleOut1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with ki = 3, over what the point before left. -/
theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch invariant, point by point -/

/-- Before position `n`: before the first point the launch's own invariant (every scoped buffer at anything);
    afterwards the same with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The launch's proof data -/

/-- The proof data of the second launch on core `c`: the arrays as the launch finds them; after the body at a point
    each input's buffer at its block and the output's at `outsAt1`'s first component; the invariant `PhiS1`;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in;
    the invariant hands the body the accumulator at what the point before left (at anything at the first point) and
    takes it back at this point's contents; where ki < 3 the output block's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS1_castSucc V c t, PhiS1_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_0; (try dsimp only)
      have hz : t.val ≠ 0 := by omega
      rw [PhiS1_castSucc V c t, PhiS1_pos V c _ _ hz]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's own back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Hand

end
-- ==== Proof.KI.Run.lean ====
/-
  The run of @main over its three items — the two host casts of the weight matrices, the projection region, the
  attention region — from the launch to the return: the contents of every unscoped buffer at each boundary (the launch
  memory, then the casts' results, then each region's arrays at what its write-backs leave), each region entered from the
  contents the item before it left, and at the end every argument array as launched and the result buffer at the
  attention region's output array after all its write-backs.
-/
import proofs.«152703_j41326175322889_2_alg».proof.Proof.Gen.KernelIdeal.Launch
import proofs.«152703_j41326175322889_2_alg».proof.Proof.Gen.KernelIdeal.Skeleton
import proofs.«152703_j41326175322889_2_alg».proof.Proof.Gen.KernelIdeal.Points
import proofs.«152703_j41326175322889_2_alg».proof.Proof.Gen.KernelIdeal.Regions
import proofs.«152703_j41326175322889_2_alg».proof.Proof.KI.Reg0
import proofs.«152703_j41326175322889_2_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents at each boundary of @main -/

/-- Core `c`'s unscoped buffers at launch. -/
abbrev Win : Dev nD → Valuation τ sig (Elt F) := fun c b => m (c, b)
/-- After the two host casts of the weight matrices (the projection region's entry). -/
abbrev Whost : Dev nD → Valuation τ sig (Elt F) := fun c => StableHlo.after hostOps0 (Win m c)
abbrev Vhost : (c : Dev nD) → (b : Ref sig .tc) → Buf (Elt F) ((c : Thread nD τ).loc b) := fun c b => Whost m c b
/-- After the projection region: its arrays at what the write-backs leave, every other buffer as entered. -/
def Wproj (c : Dev nD) : Valuation τ sig (Elt F) :=
  Pipeline.withArrays spec0 c (Whost m c) fun w => (dat0 (Vhost m) c).arrAt w cfg0.N
theorem Wproj_arr (c : Dev nD) (w : Fin cfg0.W) :
    Wproj m c (Proc.devRef .tc (Pipeline.arrRef spec0 w)) = (dat0 (Vhost m) c).arrAt w cfg0.N := by
  unfold Wproj; exact Pipeline.withArrays_arr spec0 launch0.win.arr_inj c _ _ w
theorem Wproj_of_ne (c : Dev nD) (b : Ref sig .tc) (hb : ∀ w, Pipeline.arrRef spec0 w ≠ b) :
    Wproj m c (Proc.devRef .tc b) = Whost m c (Proc.devRef .tc b) := by
  unfold Wproj; exact Pipeline.withArrays_of_ne spec0 c _ _ b hb
abbrev Vproj : (c : Dev nD) → (b : Ref sig .tc) → Buf (Elt F) ((c : Thread nD τ).loc b) := fun c b => Wproj m c b
theorem projLeaves (c : Dev nD) (w : Fin cfg0.W) : (dat0 (Vhost m) c).arrAt w cfg0.N = Vproj m c (Pipeline.arrRef spec0 w) :=
  (Wproj_arr m c w).symm
theorem projKeeps (c : Dev nD) : ∀ b, b ∉ Finset.univ.image (Pipeline.arrRef spec0) → Vproj m c b = Vhost m c b :=
  fun b hb => Wproj_of_ne m c b fun w e => hb (Finset.mem_image.mpr ⟨w, Finset.mem_univ _, e⟩)
/-- After the attention region. -/
def Wattn (c : Dev nD) : Valuation τ sig (Elt F) :=
  Pipeline.withArrays spec1 c (Wproj m c) fun w => (dat1 (Vproj m) c).arrAt w cfg1.N
theorem Wattn_arr (c : Dev nD) (w : Fin cfg1.W) :
    Wattn m c (Proc.devRef .tc (Pipeline.arrRef spec1 w)) = (dat1 (Vproj m) c).arrAt w cfg1.N := by
  unfold Wattn; exact Pipeline.withArrays_arr spec1 launch1.win.arr_inj c _ _ w
theorem Wattn_of_ne (c : Dev nD) (b : Ref sig .tc) (hb : ∀ w, Pipeline.arrRef spec1 w ≠ b) :
    Wattn m c (Proc.devRef .tc b) = Wproj m c (Proc.devRef .tc b) := by
  unfold Wattn; exact Pipeline.withArrays_of_ne spec1 c _ _ b hb
abbrev Vattn : (c : Dev nD) → (b : Ref sig .tc) → Buf (Elt F) ((c : Thread nD τ).loc b) := fun c b => Wattn m c b
theorem attnLeaves (c : Dev nD) (w : Fin cfg1.W) : (dat1 (Vproj m) c).arrAt w cfg1.N = Vattn m c (Pipeline.arrRef spec1 w) :=
  (Wattn_arr m c w).symm
theorem attnKeeps (c : Dev nD) : ∀ b, b ∉ Finset.univ.image (Pipeline.arrRef spec1) → Vattn m c b = Vproj m c b :=
  fun b hb => Wattn_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Each region's proof data at its entry contents: a literal match on the region's number. -/
def regionData : (p : Fin 2) → (c : Dev nD) → Dat τ (Elt F) Unit ℕ (Pipeline.UD sig nD τ) ℕ (Pipeline.pin (pcfgs (F := F)) adm p) c
  | ⟨0, _⟩ => fun c => dat0 (Vhost m) c
  | ⟨1, _⟩ => fun c => dat1 (Vproj m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wattn m c) ∗ ∃ r, prngReg c r)

/-! ## The regions as segments -/

set_option backward.isDefEq.respectTransparency.types false in
/-- The projection region over the thread state: entered with every unscoped buffer at the contents after the host
    casts, left with its four output arrays at what the write-backs leave. -/
def projRegion : Pipeline.RegionSeg (pcfgs (F := F)) adm (regionData m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vhost m) c).loose
  hwaits := Pipeline.hwaits_of_owed_zero _ _ _ _ L lv 0 fun _ _ => rfl
  pre c := iprop(StableHlo.held (c : Thread nD τ) (Pipeline.ucRefs τ sig) (Whost m c) ∗ R c)
  post c := iprop(StableHlo.held (c : Thread nD τ) (Pipeline.ucRefs τ sig) (Wproj m c) ∗ R c)
  X c := iprop(∃ r, prngReg c r)
  Y c := iprop(∃ r, prngReg c r)
  Z c := Pipeline.unscopedRest (Ix := Unit) (Name := ℕ) (U := Pipeline.UD sig nD τ) (Lvl := ℕ) spec0 c (Vhost m c)
  hentry c := by
    rw [Pipeline.ownSems0_none]
    have hsplit := Pipeline.arrays_of_unscopedBufs (p := 0) (pcfgs (F := F)) adm (regionData m) launch0.win launch0.arr_whole c
      ((regionData m 0 c).share_full fun _ => rfl) (Vhost m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (regionData m) ((regionData m 0 c).share_full fun _ => rfl)
      (Vhost m c) (Vproj m c) ((regionData m 0 c).arrAt · cfg0.N) (projLeaves m c) (projKeeps m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from the projection region's exit contents, left with the
    result array at what its write-backs leave; its invariant starts and ends at the class invariant. -/
def attnRegion : Pipeline.RegionSeg (pcfgs (F := F)) adm (regionData m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vproj m) c).loose
  hwaits := Pipeline.hwaits_of_owed_zero _ _ _ _ L lv 1 fun _ _ => rfl
  pre c := iprop(StableHlo.held (c : Thread nD τ) (Pipeline.ucRefs τ sig) (Wproj m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (Vproj m c)
  hentry c := by
    rw [Pipeline.ownSems0_none]
    have hsplit := Pipeline.arrays_of_unscopedBufs (p := 1) (pcfgs (F := F)) adm (regionData m) launch1.win launch1.arr_whole c
      ((regionData m 1 c).share_full fun _ => rfl) (Vproj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vproj m) c)
    unfold Pipeline.ΦA
    iintro ⟨Hp, -, Hr⟩
    isplitl [Hr]; · iexact Hr
    iexact Hp
  hout c := by
    rw [Pipeline.ownSems0_none]
    refine BIBase.Entails.trans (hout1 (Vproj m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (regionData m) ((regionData m 1 c).share_full fun _ => rfl)
      (Vproj m c) (Vattn m c) ((regionData m 1 c).arrAt · cfg1.N) (attnLeaves m c) (attnKeeps m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (regionData m) () defs₀ 𝒱₀ L lv) :=
  [ .host (hseg hostOps0 hostOps0_sub hostOps0_fresh (Win m)),
    .region (projRegion m),
    .region (attnRegion m) ]
theorem main_run (c : Dev nD) : main (F := F) c = Pipeline.Seg.run (segs m) := (main_chain c).trans (by chain_rfl)

variable (ρ : Dev nD → PrngReg)

set_option backward.isDefEq.respectTransparency.types false in
/-- Every weakly fair execution of @main from `m` terminates, nothing faulting, with every unscoped buffer of every
    core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wattn m c b) :=
  Pipeline.θ_run_regions_kit (pcfgs (F := F)) adm (regionData m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Win m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Win m c)
        from Pipeline.unscopedBufs_held c (Win m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wattn m c b)
    (hfin := fun c s' => by
      iintro ⟨⟨Hh, -⟩, HSI⟩
      unfold StableHlo.held
      imodintro
      iapply (pointsTo_read_all (Pipeline.ucRefs τ sig) (fun b => (((c : Thread nD τ)).1, b)) (Wattn m c) s')
      isplitl [Hh] <;> iassumption)
    (hQ := fun s h c => h c)

/-! ## The arguments end as launched, and the result buffer holds what the attention region's write-backs leave -/

theorem Whost_of (c : Dev nD) (r : Ref sig .tc) (h : r ∉ hostOps0_W) : Whost m c (Proc.devRef .tc r) = m ((c : Thread nD τ).loc r) :=
  V1_of m c r h

theorem Wattn_main_arg0 (c : Dev nD) : Wattn m c (Proc.devRef .tc main_arg0) = m ((c : Thread nD τ).loc main_arg0) :=
  calc Wattn m c (Proc.devRef .tc main_arg0)
    _ = Wproj m c (Proc.devRef .tc main_arg0) := (Wattn_arr m c 4).trans (((dat1 (Vproj m) c).arrAt_in 4 rfl _).trans (A_eq1 (Vproj m) c 4))
    _ = Whost m c (Proc.devRef .tc main_arg0) := (Wproj_arr m c 0).trans (((dat0 (Vhost m) c).arrAt_in 0 rfl _).trans (A_eq0 (Vhost m) c 0))
    _ = m ((c : Thread nD τ).loc main_arg0) := Whost_of m c main_arg0 (by decide)
theorem Wattn_main_arg1 (c : Dev nD) : Wattn m c (Proc.devRef .tc main_arg1) = m ((c : Thread nD τ).loc main_arg1) :=
  calc Wattn m c (Proc.devRef .tc main_arg1)
    _ = Wproj m c (Proc.devRef .tc main_arg1) := Wattn_of_ne m c main_arg1 (by decide)
    _ = Whost m c (Proc.devRef .tc main_arg1) := (Wproj_arr m c 1).trans (((dat0 (Vhost m) c).arrAt_in 1 rfl _).trans (A_eq0 (Vhost m) c 1))
    _ = m ((c : Thread nD τ).loc main_arg1) := Whost_of m c main_arg1 (by decide)
theorem Wattn_main_arg2 (c : Dev nD) : Wattn m c (Proc.devRef .tc main_arg2) = m ((c : Thread nD τ).loc main_arg2) :=
  calc Wattn m c (Proc.devRef .tc main_arg2)
    _ = Wproj m c (Proc.devRef .tc main_arg2) := Wattn_of_ne m c main_arg2 (by decide)
    _ = Whost m c (Proc.devRef .tc main_arg2) := (Wproj_arr m c 2).trans (((dat0 (Vhost m) c).arrAt_in 2 rfl _).trans (A_eq0 (Vhost m) c 2))
    _ = m ((c : Thread nD τ).loc main_arg2) := Whost_of m c main_arg2 (by decide)
theorem Wattn_main_arg4 (c : Dev nD) : Wattn m c (Proc.devRef .tc main_arg4) = m ((c : Thread nD τ).loc main_arg4) :=
  calc Wattn m c (Proc.devRef .tc main_arg4)
    _ = Wproj m c (Proc.devRef .tc main_arg4) := Wattn_of_ne m c main_arg4 (by decide)
    _ = Whost m c (Proc.devRef .tc main_arg4) := (Wproj_arr m c 4).trans (((dat0 (Vhost m) c).arrAt_in 4 rfl _).trans (A_eq0 (Vhost m) c 4))
    _ = m ((c : Thread nD τ).loc main_arg4) := Whost_of m c main_arg4 (by decide)
theorem Wattn_main_arg7 (c : Dev nD) : Wattn m c (Proc.devRef .tc main_arg7) = m ((c : Thread nD τ).loc main_arg7) :=
  calc Wattn m c (Proc.devRef .tc main_arg7)
    _ = Wproj m c (Proc.devRef .tc main_arg7) := Wattn_of_ne m c main_arg7 (by decide)
    _ = Whost m c (Proc.devRef .tc main_arg7) := (Wproj_arr m c 5).trans (((dat0 (Vhost m) c).arrAt_in 5 rfl _).trans (A_eq0 (Vhost m) c 5))
    _ = m ((c : Thread nD τ).loc main_arg7) := Whost_of m c main_arg7 (by decide)
theorem Wattn_main_arg8 (c : Dev nD) : Wattn m c (Proc.devRef .tc main_arg8) = m ((c : Thread nD τ).loc main_arg8) :=
  calc Wattn m c (Proc.devRef .tc main_arg8)
    _ = Wproj m c (Proc.devRef .tc main_arg8) := Wattn_of_ne m c main_arg8 (by decide)
    _ = Whost m c (Proc.devRef .tc main_arg8) := (Wproj_arr m c 6).trans (((dat0 (Vhost m) c).arrAt_in 6 rfl _).trans (A_eq0 (Vhost m) c 6))
    _ = m ((c : Thread nD τ).loc main_arg8) := Whost_of m c main_arg8 (by decide)
theorem Wattn_main_arg9 (c : Dev nD) : Wattn m c (Proc.devRef .tc main_arg9) = m ((c : Thread nD τ).loc main_arg9) :=
  calc Wattn m c (Proc.devRef .tc main_arg9)
    _ = Wproj m c (Proc.devRef .tc main_arg9) := Wattn_of_ne m c main_arg9 (by decide)
    _ = Whost m c (Proc.devRef .tc main_arg9) := (Wproj_arr m c 7).trans (((dat0 (Vhost m) c).arrAt_in 7 rfl _).trans (A_eq0 (Vhost m) c 7))
    _ = m ((c : Thread nD τ).loc main_arg9) := Whost_of m c main_arg9 (by decide)
theorem Wattn_main_arg10 (c : Dev nD) : Wattn m c (Proc.devRef .tc main_arg10) = m ((c : Thread nD τ).loc main_arg10) :=
  calc Wattn m c (Proc.devRef .tc main_arg10)
    _ = Wproj m c (Proc.devRef .tc main_arg10) := Wattn_of_ne m c main_arg10 (by decide)
    _ = Whost m c (Proc.devRef .tc main_arg10) := (Wproj_arr m c 8).trans (((dat0 (Vhost m) c).arrAt_in 8 rfl _).trans (A_eq0 (Vhost m) c 8))
    _ = m ((c : Thread nD τ).loc main_arg10) := Whost_of m c main_arg10 (by decide)
theorem Wattn_main_arg3 (c : Dev nD) : Wattn m c (Proc.devRef .tc main_arg3) = m ((c : Thread nD τ).loc main_arg3) :=
  calc Wattn m c (Proc.devRef .tc main_arg3)
    _ = Wproj m c (Proc.devRef .tc main_arg3) := Wattn_of_ne m c main_arg3 (by decide)
    _ = Whost m c (Proc.devRef .tc main_arg3) := Wproj_of_ne m c main_arg3 (by decide)
    _ = m ((c : Thread nD τ).loc main_arg3) := Whost_of m c main_arg3 (by decide)
theorem Wattn_main_arg5 (c : Dev nD) : Wattn m c (Proc.devRef .tc main_arg5) = m ((c : Thread nD τ).loc main_arg5) :=
  calc Wattn m c (Proc.devRef .tc main_arg5)
    _ = Wproj m c (Proc.devRef .tc main_arg5) := Wattn_of_ne m c main_arg5 (by decide)
    _ = Whost m c (Proc.devRef .tc main_arg5) := Wproj_of_ne m c main_arg5 (by decide)
    _ = m ((c : Thread nD τ).loc main_arg5) := Whost_of m c main_arg5 (by decide)
theorem Wattn_main_arg6 (c : Dev nD) : Wattn m c (Proc.devRef .tc main_arg6) = m ((c : Thread nD τ).loc main_arg6) :=
  calc Wattn m c (Proc.devRef .tc main_arg6)
    _ = Wproj m c (Proc.devRef .tc main_arg6) := (Wattn_arr m c 6).trans (((dat1 (Vproj m) c).arrAt_in 6 rfl _).trans (A_eq1 (Vproj m) c 6))
    _ = Whost m c (Proc.devRef .tc main_arg6) := Wproj_of_ne m c main_arg6 (by decide)
    _ = m ((c : Thread nD τ).loc main_arg6) := Whost_of m c main_arg6 (by decide)

/-- The result buffer after the run: the attention region's output array after all its write-backs. -/
theorem Wattn_main_v3 (c : Dev nD) : Wattn m c (Proc.devRef .tc main_v3) = (dat1 (Vproj m) c).arrAt 7 cfg1.N :=
  Wattn_arr m c 7

/-- The run with the result named: every weakly fair execution of @main terminates, nothing faulting, with the result
    buffer at the attention region's final array and every argument array as launched. -/
theorem run_named : θ_run defs (onTc (τ := τ) (main (F := F))) ⟨m, fun _ => 0, ρ⟩ (fun r => ∀ c : Dev nD,
      r.2.mem ((c.tc : Thread nD τ).loc main_v3) = (dat1 (Vproj m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v3 (by decide))).trans (Wattn_main_v3 m c),
     (h c _ (mem_uc main_arg0 (by decide))).trans (Wattn_main_arg0 m c),
     (h c _ (mem_uc main_arg1 (by decide))).trans (Wattn_main_arg1 m c),
     (h c _ (mem_uc main_arg2 (by decide))).trans (Wattn_main_arg2 m c),
     (h c _ (mem_uc main_arg3 (by decide))).trans (Wattn_main_arg3 m c),
     (h c _ (mem_uc main_arg4 (by decide))).trans (Wattn_main_arg4 m c),
     (h c _ (mem_uc main_arg5 (by decide))).trans (Wattn_main_arg5 m c),
     (h c _ (mem_uc main_arg6 (by decide))).trans (Wattn_main_arg6 m c),
     (h c _ (mem_uc main_arg7 (by decide))).trans (Wattn_main_arg7 m c),
     (h c _ (mem_uc main_arg8 (by decide))).trans (Wattn_main_arg8 m c),
     (h c _ (mem_uc main_arg9 (by decide))).trans (Wattn_main_arg9 m c),
     (h c _ (mem_uc main_arg10 (by decide))).trans (Wattn_main_arg10 m c)⟩)
    (run_main m ρ)

/-- The frame: the run terminates, faults nowhere and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_named m ρ)

end Cert.KernelIdeal.Hand

end
-- ==== Proof.K.Reg0.lean ====
import proofs.«152703_j41326175322889_2_alg».proof.Proof.Gen.Kernel.Launch
import proofs.«152703_j41326175322889_2_alg».proof.Proof.Gen.Kernel.Skeleton
import proofs.«152703_j41326175322889_2_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

/-!
# The projection kernel (the first of the program's two kernel calls): its proof data and body obligation

At each of its 32 grid points the body reads one tile of the activations (256 rows of 1024 features) together with
the layer-norm gain and bias, the input projection's weight matrix and bias, and the two pairs of per-lane scale and
shift vectors. It layer-normalises the tile, multiplies by the weight matrix, adds the bias, applies x * logistic x,
and cuts the 4224 resulting columns into three bands: the first two (2048 columns each) are written out as they are,
the third (128 columns) is written out twice, once scaled and shifted by each pair of per-lane vectors.

Every input is loaded whole and every output block is written by ONE store of the whole block, so what the body
leaves in an output's staging buffer is exactly that store's value, a function of the nine input blocks.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there (not fetched: the block index has not moved since the point before), for any proof data over the entry
    contents whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (not fetched: the block index has not moved since the point before), for any proof data over the entry
    contents whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (not fetched: the block index has not moved since the point before), for any proof data over the entry
    contents whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not the pipeline fetched it
    there (not fetched: the block index has not moved since the point before), for any proof data over the entry
    contents whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether or not the pipeline fetched it
    there (not fetched: the block index has not moved since the point before), for any proof data over the entry
    contents whose body leaves the block in place. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether or not the pipeline fetched it
    there (not fetched: the block index has not moved since the point before), for any proof data over the entry
    contents whose body leaves the block in place. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether or not the pipeline fetched it
    there (not fetched: the block index has not moved since the point before), for any proof data over the entry
    contents whose body leaves the block in place. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether or not the pipeline fetched it
    there (not fetched: the block index has not moved since the point before), for any proof data over the entry
    contents whose body leaves the block in place. -/
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, whether or not the pipeline fetched it
    there (not fetched: the block index has not moved since the point before), for any proof data over the entry
    contents whose body leaves the block in place. -/
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX : Rect S1x256x1024 := Rect.unit (s := S1x256x1024) ![0, 0, 0] S1x256x1024.size inb_S1x256x1024_S1x256x1024_0_0_0
abbrev rG : Rect S1024 := Rect.unit (s := S1024) ![0] S1024.size inb_S1024_S1024_0
abbrev rW : Rect S1024x4224 := Rect.unit (s := S1024x4224) ![0, 0] S1024x4224.size inb_S1024x4224_S1024x4224_0_0
abbrev rB : Rect S4224 := Rect.unit (s := S4224) ![0] S4224.size inb_S4224_S4224_0
abbrev rL : Rect S128 := Rect.unit (s := S128) ![0] S128.size inb_S128_S128_0
abbrev rWide : Rect S1x256x2048 := Rect.unit (s := S1x256x2048) ![0, 0, 0] S1x256x2048.size inb_S1x256x2048_S1x256x2048_0_0_0
abbrev rNarrow : Rect S1x256x128 := Rect.unit (s := S1x256x128) ![0, 0, 0] S1x256x128.size inb_S1x256x128_S1x256x128_0_0_0

/-- The zero offsets of a rank-1, a rank-2 and a rank-3 access, as constant functions. -/
theorem off1_zero : (![0] : Fin 1 → Nat) = fun _ => 0 := funext fun a => by fin_cases a <;> rfl
theorem off2_zero : (![0, 0] : Fin 2 → Nat) = fun _ => 0 := funext fun a => by fin_cases a <;> rfl
theorem off3_zero : (![0, 0, 0] : Fin 3 → Nat) = fun _ => 0 := funext fun a => by fin_cases a <;> rfl

/-! ## What the body leaves in each output window's buffer -/

/-- Output 9 (the first band of 2048 columns): its one store of the whole block. -/
def out0_9 (x0 : Vec F S1x256x1024 .f32) (x1 x2 : Vec F S1024 .f32) (x3 : Vec F S1024x4224 .bf16) (x4 : Vec F S4224 .f32) : Vec F S1x256x2048 .bf16 :=
  View.canon [⟨rWide, k0_pay1 (k0_pay6 (View.ld x0 rX) (View.ld x1 rG) (View.ld x2 rG) (View.ld x3 rW) (View.ld x4 rB))⟩]

/-- Output 10 (the second band of 2048 columns): its one store of the whole block. -/
def out0_10 (x0 : Vec F S1x256x1024 .f32) (x1 x2 : Vec F S1024 .f32) (x3 : Vec F S1024x4224 .bf16) (x4 : Vec F S4224 .f32) : Vec F S1x256x2048 .bf16 :=
  View.canon [⟨rWide, k0_pay2 (k0_pay7 (View.ld x0 rX) (View.ld x1 rG) (View.ld x2 rG) (View.ld x3 rW) (View.ld x4 rB))⟩]

/-- Output 11 (the last band of 128 columns, scaled by `x5` and shifted by `x6` lane by lane): its one store. -/
def out0_11 (x0 : Vec F S1x256x1024 .f32) (x1 x2 : Vec F S1024 .f32) (x3 : Vec F S1024x4224 .bf16) (x4 : Vec F S4224 .f32) (x5 x6 : Vec F S128 .f32) : Vec F S1x256x128 .bf16 :=
  View.canon [⟨rNarrow, k0_pay3 (k0_pay9 (View.ld x0 rX) (View.ld x1 rG) (View.ld x2 rG) (View.ld x3 rW) (View.ld x4 rB) (View.ld x5 rL)) (View.ld x6 rL)⟩]

/-- Output 12 (the same band, scaled by `x7` and shifted by `x8`): its one store. -/
def out0_12 (x0 : Vec F S1x256x1024 .f32) (x1 x2 : Vec F S1024 .f32) (x3 : Vec F S1024x4224 .bf16) (x4 : Vec F S4224 .f32) (x7 x8 : Vec F S128 .f32) : Vec F S1x256x128 .bf16 :=
  View.canon [⟨rNarrow, k0_pay4 (k0_pay8 (View.ld x0 rX) (View.ld x1 rG) (View.ld x2 rG) (View.ld x3 rW) (View.ld x4 rB)) (View.ld x7 rL) (View.ld x8 rL)⟩]

/-- One store of the whole block leaves its value; a load of a whole buffer reads its contents. -/
theorem out0_9_eq (x0 : Vec F S1x256x1024 .f32) (x1 x2 : Vec F S1024 .f32) (x3 : Vec F S1024x4224 .bf16) (x4 : Vec F S4224 .f32) : out0_9 x0 x1 x2 x3 x4 = k0_pay1 (k0_pay6 x0 x1 x2 x3 x4) := by
  unfold out0_9
  rw [View.canon_unit_zero off3_zero]
  simp only [View.ld_unit_zero (S := S1x256x1024) off3_zero, View.ld_unit_zero (S := S1024) off1_zero,
    View.ld_unit_zero (S := S1024x4224) off2_zero, View.ld_unit_zero (S := S4224) off1_zero]

theorem out0_10_eq (x0 : Vec F S1x256x1024 .f32) (x1 x2 : Vec F S1024 .f32) (x3 : Vec F S1024x4224 .bf16) (x4 : Vec F S4224 .f32) : out0_10 x0 x1 x2 x3 x4 = k0_pay2 (k0_pay7 x0 x1 x2 x3 x4) := by
  unfold out0_10
  rw [View.canon_unit_zero off3_zero]
  simp only [View.ld_unit_zero (S := S1x256x1024) off3_zero, View.ld_unit_zero (S := S1024) off1_zero,
    View.ld_unit_zero (S := S1024x4224) off2_zero, View.ld_unit_zero (S := S4224) off1_zero]

theorem out0_11_eq (x0 : Vec F S1x256x1024 .f32) (x1 x2 : Vec F S1024 .f32) (x3 : Vec F S1024x4224 .bf16) (x4 : Vec F S4224 .f32) (x5 x6 : Vec F S128 .f32) :
    out0_11 x0 x1 x2 x3 x4 x5 x6 = k0_pay3 (k0_pay9 x0 x1 x2 x3 x4 x5) x6 := by
  unfold out0_11
  rw [View.canon_unit_zero off3_zero]
  simp only [View.ld_unit_zero (S := S1x256x1024) off3_zero, View.ld_unit_zero (S := S1024) off1_zero,
    View.ld_unit_zero (S := S1024x4224) off2_zero, View.ld_unit_zero (S := S4224) off1_zero,
    View.ld_unit_zero (S := S128) off1_zero]

theorem out0_12_eq (x0 : Vec F S1x256x1024 .f32) (x1 x2 : Vec F S1024 .f32) (x3 : Vec F S1024x4224 .bf16) (x4 : Vec F S4224 .f32) (x7 x8 : Vec F S128 .f32) :
    out0_12 x0 x1 x2 x3 x4 x7 x8 = k0_pay4 (k0_pay8 x0 x1 x2 x3 x4) x7 x8 := by
  unfold out0_12
  rw [View.canon_unit_zero off3_zero]
  simp only [View.ld_unit_zero (S := S1x256x1024) off3_zero, View.ld_unit_zero (S := S1024) off1_zero,
    View.ld_unit_zero (S := S1024x4224) off2_zero, View.ld_unit_zero (S := S4224) off1_zero,
    View.ld_unit_zero (S := S128) off1_zero]

/-- A store of the whole block covers it. -/
theorem coverWide (p0 : Vec F S1x256x2048 .bf16) (y : S1x256x2048.Idx) :
    ∃ pc ∈ ([⟨rWide, p0⟩] : List (View.Piece (Elt F) S1x256x2048 .bf16)), y ∈ pc.1.set :=
  ⟨_, List.mem_singleton_self _, View.mem_set_unit_zero off3_zero inb_S1x256x2048_S1x256x2048_0_0_0 y⟩
theorem coverNarrow (p0 : Vec F S1x256x128 .bf16) (y : S1x256x128.Idx) :
    ∃ pc ∈ ([⟨rNarrow, p0⟩] : List (View.Piece (Elt F) S1x256x128 .bf16)), y ∈ pc.1.set :=
  ⟨_, List.mem_singleton_self _, View.mem_set_unit_zero off3_zero inb_S1x256x128_S1x256x128_0_0_0 y⟩

/-! ## The body's triple -/

set_option maxHeartbeats 4000000 in
/-- The kernel body on whole staging buffers, the inputs' reading `xW` and the outputs' holding anything, runs to the
    continuation with the inputs' as they were and each output's at `out0_W` of the inputs. -/
theorem sound_kernel0 (c : Dev nD) (E : Set ℕ) (i : grid0.Coords) (arg2 : Memref sig .tc .vmem S1x256x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x4224 .bf16) (harg5 : arg5.IsWhole) (arg6 : Memref sig .tc .vmem S4224 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S1x256x2048 .bf16) (harg11 : arg11.IsWhole) (arg12 : Memref sig .tc .vmem S1x256x2048 .bf16) (harg12 : arg12.IsWhole) (arg13 : Memref sig .tc .vmem S1x256x128 .bf16) (harg13 : arg13.IsWhole) (arg14 : Memref sig .tc .vmem S1x256x128 .bf16) (harg14 : arg14.IsWhole)
    (x0 : Vec F S1x256x1024 .f32) (x1 : Vec F S1024 .f32) (x2 : Vec F S1024 .f32) (x3 : Vec F S1024x4224 .bf16) (x4 : Vec F S4224 .f32) (x5 : Vec F S128 .f32) (x6 : Vec F S128 .f32) (x7 : Vec F S128 .f32) (x8 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out0_9 x0 x1 x2 x3 x4) ∗ owns (c : Thread nD τ) arg12 fullShare (out0_10 x0 x1 x2 x3 x4) ∗ owns (c : Thread nD τ) arg13 fullShare (out0_11 x0 x1 x2 x3 x4 x5 x6) ∗ owns (c : Thread nD τ) arg14 fullShare (out0_12 x0 x1 x2 x3 x4 x7 x8)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverWide _)
  isplitl [H10]
  · iexists _; isplitr
    swap; · iexact H10
    ipureintro
    exact View.read_writes_eq_canon _ _ _ (coverWide _)
  isplitl [H11]
  · iexists _; isplitr
    swap; · iexact H11
    ipureintro
    exact View.read_writes_eq_canon _ _ _ (coverNarrow _)
  iexists _; isplitr
  swap; · iexact H12
  ipureintro
  exact View.read_writes_eq_canon _ _ _ (coverNarrow _)

/-! ## The proof data -/

/-- The proof data of this kernel call on core `c`: the arrays as the region finds them; after the body at point `t`
    each input's buffer still at its block and each output's at `out0_W` of the input blocks; the invariant is the
    untouched rest of the core's scoped memory and its generator register; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 3 t) (iblk0 V c 4 t)
    | ⟨11, _⟩ => out0_11 (iblk0 V c 0 t) (iblk0 V c 1 t) (iblk0 V c 2 t) (iblk0 V c 3 t) (iblk0 V c 4 t) (iblk0 V c 5 t) (iblk0 V c 6 t)
    | ⟨12, _⟩ => out0_12 (iblk0 V c 0 t) (iblk0 V c 1 t) (iblk0 V c 2 t) (iblk0 V c 3 t) (iblk0 V c 4 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Its invariant is the same at every point. -/
theorem Phi0 (c : Dev nD) (t : Fin (cfg0.N + 1)) : (dat0 V c).Φ t = Pipeline.ΦA spec0 c := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation of the launch, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
/- The second launch (the attention kernel on its 4x4x4 grid): what its three control cases share.
   The grid's last coordinate ki = point mod 4 walks the four key/value tiles of one query tile; the
   accumulator is zeroed at ki = 0, a tile's contribution is added at every ki, and the output block is
   written at ki = 3 only.  Here: each window's block at a point, the two branch conditions in closed
   form over the grid, where the output window is idle, and the launch invariant with the accumulator
   named. -/
import proofs.«152703_j41326175322889_2_alg».proof.Proof.Gen.Kernel.Launch
import proofs.«152703_j41326175322889_2_alg».proof.Proof.Gen.Kernel.Skeleton
import proofs.«152703_j41326175322889_2_alg».proof.Proof.Gen.Kernel.Points
import Idealize.ShloMosaic.Lib.Pipeline.FrameBody
import Idealize.ShloMosaic.Lib.Pipeline.Regions
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the
    pipeline does not fetch, the block index has not moved and the body left the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the
    pipeline does not fetch, the block index has not moved and the body left the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the
    pipeline does not fetch, the block index has not moved and the body left the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where the
    pipeline does not fetch, the block index has not moved and the body left the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where the
    pipeline does not fetch, the block index has not moved and the body left the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where the
    pipeline does not fetch, the block index has not moved and the body left the block in place. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where the
    pipeline does not fetch, the block index has not moved and the body left the block in place. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's two branch conditions -/

/-- The first condition (ki = 0: zero the accumulator), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (ki = 3: write the output block), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Where ki = 0 the output window is idle and not written back. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
/-- Where ki is 1 or 2 likewise. -/
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
/-- Where ki = 3 the output window is live: the body stores its whole block. -/
theorem liveAt1_7_C : ∀ t : Fin cfg1.N, ¬cond1_0 (grid1.coords t) → cond1_1 (grid1.coords t) → cfg1.idle 7 (grid1.coords t) = false := by decide +kernel

/-! ## The memrefs the body is called with -/

/-- One staging buffer of the output window, through which its contents are stated (the choice does not matter). -/
abbrev VO1_7 : View sig .tc .vmem S1x512x1024 .f32 := (Memref.whole cc1_stg7_0 : Memref sig .tc .vmem S1x512x1024 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512x1024 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows. -/
abbrev scM1_0 : Memref sig .tc .vmem S512x2048 .f32 := Memref.whole cc1_scratch0
/-- The accumulator as a view: what it holds is stated through it. -/
abbrev VS1_0 : View sig .tc .vmem S512x2048 .f32 := scM1_0.view

/-- The launch invariant with the accumulator as a memref owned at some contents, the first launch's staging
    buffers beside it each at anything, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.Reg1RunA.lean ====
/- The attention kernel's body run once, in the case ki = 0: the accumulator is zeroed, then the first key/value tile's contribution is added; the output block is not touched. -/
import proofs.«152703_j41326175322889_2_alg».proof.Proof.K.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 4000000 in
/-- The body's run in this case (ki = 0: the accumulator is zeroed, then the first key/value tile's contribution is added; the output block is not touched): on whole staging memrefs holding the input blocks,
    the pieces its stores leave in the output block and in the accumulator (last store first), with the proof that the
    body runs to a continuation holding exactly those. -/
noncomputable def kernelRun1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) :
    Σ' (L7 : List (View.Piece (Elt F) S1x512x1024 .f32)), { LS0 : List (View.Piece (Elt F) S512x2048 .f32) //
      ∀ (xi7 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, fun xi7 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

end Cert.Kernel.Hand

end
-- ==== Proof.K.Reg1RunB.lean ====
/- The attention kernel's body run once, in the case ki = 1 or 2: one more key/value tile's contribution is added to the accumulator; the output block is not touched. -/
import proofs.«152703_j41326175322889_2_alg».proof.Proof.K.Reg1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 4000000 in
/-- The body's run in this case (ki = 1 or 2: one more key/value tile's contribution is added to the accumulator; the output block is not touched): on whole staging memrefs holding the input blocks,
    the pieces its stores leave in the output block and in the accumulator (last store first), with the proof that the
    body runs to a continuation holding exactly those. -/
noncomputable def kernelRun1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) :
    Σ' (L7 : List (View.Piece (Elt F) S1x512x1024 .f32)), { LS0 : List (View.Piece (Elt F) S512x2048 .f32) //
      ∀ (xi7 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, fun xi7 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

end Cert.Kernel.Hand

end
-- ==== Proof.K.Reg1RunC.lean ====
/- The attention kernel's body run once, in the case ki = 3: the last key/value tile's contribution is added, then the epilogue reads the accumulator and stores the output block. -/
import proofs.«152703_j41326175322889_2_alg».proof.Proof.K.Reg1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 4000000 in
/-- The body's run in this case (ki = 3: the last key/value tile's contribution is added, then the epilogue reads the accumulator and stores the output block): on whole staging memrefs holding the input blocks,
    the pieces its stores leave in the output block and in the accumulator (last store first), with the proof that the
    body runs to a continuation holding exactly those. -/
noncomputable def kernelRun1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) :
    Σ' (L7 : List (View.Piece (Elt F) S1x512x1024 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS0

end Cert.Kernel.Hand

end
-- ==== Proof.K.Reg1.lean ====
/- The second launch (the attention kernel): what the accumulator and the output block hold after every grid
   point, the launch's proof data, and the body obligation.  The accumulator after a point with ki = 0 is one
   key/value tile's contribution over the zero fill; after a point with ki > 0 it is that point's contribution
   over what the point before left; the output block after a point with ki = 3 is the epilogue applied to the
   accumulator just completed. -/
import proofs.«152703_j41326175322889_2_alg».proof.Proof.K.Reg1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## What each case leaves in the accumulator and in the output block -/

/-- The pieces case A stores into the accumulator tile it. -/
theorem scover1_A_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (y : S512x2048.Idx) :
    ∃ pc ∈ (kernelRun1_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4 x5 x6).2.1 S512x2048.size (by sl_kernel_rfl) y

/-- What case A leaves in the accumulator: its pieces read back. -/
def sout1_A_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) : Vec F S512x2048 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4 x5 x6).2.1)

/-- The pieces case B stores into the accumulator tile it. -/
theorem scover1_B_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) (y : S512x2048.Idx) :
    ∃ pc ∈ (kernelRun1_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 x5 x6 xs0).2.1 S512x2048.size (by sl_kernel_rfl) y

/-- What case B leaves in the accumulator: its pieces read back. -/
def sout1_B_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) : Vec F S512x2048 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 x5 x6 xs0).2.1)

/-- The pieces case C stores into the accumulator tile it. -/
theorem scover1_C_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) (y : S512x2048.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).2.1 S512x2048.size (by sl_kernel_rfl) y

/-- What case C leaves in the accumulator: its pieces read back. -/
def sout1_C_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) : Vec F S512x2048 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 x5 x6 xs0).2.1)

/-- The piece case C stores into the output block covers it. -/
theorem cover1_C_7 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) (y : S1x512x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).1 S1x512x1024.size (by sl_kernel_rfl) y

/-- What case C leaves in the output block: its piece read back. -/
def out1_C_7 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) : Vec F S1x512x1024 .f32 :=
  VO1_7.read (Elt F) (VO1_7.writes (Elt F) VO1_7.junk (kernelRun1_C c i arg3 harg3 arg4 harg4 arg5 harg5 arg6 harg6 arg7 harg7 arg8 harg8 arg9 harg9 arg10 harg10 arg11 harg11 hc0 hc1 x0 x1 x2 x3 x4 x5 x6 xs0).1)

/-- The output component at a point that stores nothing into the output block: a placeholder nothing consults
    (the block is neither written back there nor read at the next point). -/
def idleOut1 : Vec F S1x512x1024 .f32 := VO1_7.read (Elt F) VO1_7.junk

/-! ## What the output block and the accumulator hold after each point -/

/-- After the body at position `n`: (the output window's staging buffer, the accumulator).  By recursion on the
    position: the case the closed forms select at `n`, run at the point's memrefs and input blocks, the
    accumulator it reads taken from what position `n - 1` left. -/
def outsAt1 (c : Dev nD) : (n : ℕ) → n < cfg1.N → Vec F S1x512x1024 .f32 × Vec F S512x2048 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      if h1 : (n + 1) % 4 = 3 then
        False.elim (by omega)
      else
        (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point with ki = 0. -/
theorem outsAt1_A (c : Dev nD) (t : Fin cfg1.N) (h0 : t.val % 4 = 0) (h1 : ¬t.val % 4 = 3) :
    outsAt1 V c t.val t.isLt = (idleOut1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

/-- `outsAt1` at a point with ki = 1 or 2, over what the point before left. -/
theorem outsAt1_B (c : Dev nD) (t : Fin cfg1.N) (h0 : ¬t.val % 4 = 0) (h1 : ¬t.val % 4 = 3) :
    outsAt1 V c t.val t.isLt = (idleOut1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with ki = 3, over what the point before left. -/
theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch invariant, point by point -/

/-- Before position `n`: before the first point the launch's own invariant (every scoped buffer at anything);
    afterwards the same with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The launch's proof data -/

/-- The proof data of the second launch on core `c`: the arrays as the launch finds them; after the body at a point
    each input's buffer at its block and the output's at `outsAt1`'s first component; the invariant `PhiS1`;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in;
    the invariant hands the body the accumulator at what the point before left (at anything at the first point) and
    takes it back at this point's contents; where ki < 3 the output block's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS1_castSucc V c t, PhiS1_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_0; (try dsimp only)
      have hz : t.val ≠ 0 := by omega
      rw [PhiS1_castSucc V c t, PhiS1_pos V c _ _ hz]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's own back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.Kernel.Hand

end
-- ==== Proof.K.Run.lean ====
/-
  The run of @main over its three items — the two host casts of the weight matrices, the projection region, the
  attention region — from the launch to the return: the contents of every unscoped buffer at each boundary (the launch
  memory, then the casts' results, then each region's arrays at what its write-backs leave), each region entered from the
  contents the item before it left, and at the end every argument array as launched and the result buffer at the
  attention region's output array after all its write-backs.
-/
import proofs.«152703_j41326175322889_2_alg».proof.Proof.Gen.Kernel.Launch
import proofs.«152703_j41326175322889_2_alg».proof.Proof.Gen.Kernel.Skeleton
import proofs.«152703_j41326175322889_2_alg».proof.Proof.Gen.Kernel.Points
import proofs.«152703_j41326175322889_2_alg».proof.Proof.Gen.Kernel.Regions
import proofs.«152703_j41326175322889_2_alg».proof.Proof.K.Reg0
import proofs.«152703_j41326175322889_2_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents at each boundary of @main -/

/-- Core `c`'s unscoped buffers at launch. -/
abbrev Win : Dev nD → Valuation τ sig (Elt F) := fun c b => m (c, b)
/-- After the two host casts of the weight matrices (the projection region's entry). -/
abbrev Whost : Dev nD → Valuation τ sig (Elt F) := fun c => StableHlo.after hostOps0 (Win m c)
abbrev Vhost : (c : Dev nD) → (b : Ref sig .tc) → Buf (Elt F) ((c : Thread nD τ).loc b) := fun c b => Whost m c b
/-- After the projection region: its arrays at what the write-backs leave, every other buffer as entered. -/
def Wproj (c : Dev nD) : Valuation τ sig (Elt F) :=
  Pipeline.withArrays spec0 c (Whost m c) fun w => (dat0 (Vhost m) c).arrAt w cfg0.N
theorem Wproj_arr (c : Dev nD) (w : Fin cfg0.W) :
    Wproj m c (Proc.devRef .tc (Pipeline.arrRef spec0 w)) = (dat0 (Vhost m) c).arrAt w cfg0.N := by
  unfold Wproj; exact Pipeline.withArrays_arr spec0 launch0.win.arr_inj c _ _ w
theorem Wproj_of_ne (c : Dev nD) (b : Ref sig .tc) (hb : ∀ w, Pipeline.arrRef spec0 w ≠ b) :
    Wproj m c (Proc.devRef .tc b) = Whost m c (Proc.devRef .tc b) := by
  unfold Wproj; exact Pipeline.withArrays_of_ne spec0 c _ _ b hb
abbrev Vproj : (c : Dev nD) → (b : Ref sig .tc) → Buf (Elt F) ((c : Thread nD τ).loc b) := fun c b => Wproj m c b
theorem projLeaves (c : Dev nD) (w : Fin cfg0.W) : (dat0 (Vhost m) c).arrAt w cfg0.N = Vproj m c (Pipeline.arrRef spec0 w) :=
  (Wproj_arr m c w).symm
theorem projKeeps (c : Dev nD) : ∀ b, b ∉ Finset.univ.image (Pipeline.arrRef spec0) → Vproj m c b = Vhost m c b :=
  fun b hb => Wproj_of_ne m c b fun w e => hb (Finset.mem_image.mpr ⟨w, Finset.mem_univ _, e⟩)
/-- After the attention region. -/
def Wattn (c : Dev nD) : Valuation τ sig (Elt F) :=
  Pipeline.withArrays spec1 c (Wproj m c) fun w => (dat1 (Vproj m) c).arrAt w cfg1.N
theorem Wattn_arr (c : Dev nD) (w : Fin cfg1.W) :
    Wattn m c (Proc.devRef .tc (Pipeline.arrRef spec1 w)) = (dat1 (Vproj m) c).arrAt w cfg1.N := by
  unfold Wattn; exact Pipeline.withArrays_arr spec1 launch1.win.arr_inj c _ _ w
theorem Wattn_of_ne (c : Dev nD) (b : Ref sig .tc) (hb : ∀ w, Pipeline.arrRef spec1 w ≠ b) :
    Wattn m c (Proc.devRef .tc b) = Wproj m c (Proc.devRef .tc b) := by
  unfold Wattn; exact Pipeline.withArrays_of_ne spec1 c _ _ b hb
abbrev Vattn : (c : Dev nD) → (b : Ref sig .tc) → Buf (Elt F) ((c : Thread nD τ).loc b) := fun c b => Wattn m c b
theorem attnLeaves (c : Dev nD) (w : Fin cfg1.W) : (dat1 (Vproj m) c).arrAt w cfg1.N = Vattn m c (Pipeline.arrRef spec1 w) :=
  (Wattn_arr m c w).symm
theorem attnKeeps (c : Dev nD) : ∀ b, b ∉ Finset.univ.image (Pipeline.arrRef spec1) → Vattn m c b = Vproj m c b :=
  fun b hb => Wattn_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Each region's proof data at its entry contents: a literal match on the region's number. -/
def regionData : (p : Fin 2) → (c : Dev nD) → Dat τ (Elt F) Unit ℕ (Pipeline.UD sig nD τ) ℕ (Pipeline.pin (pcfgs (F := F)) adm p) c
  | ⟨0, _⟩ => fun c => dat0 (Vhost m) c
  | ⟨1, _⟩ => fun c => dat1 (Vproj m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wattn m c) ∗ ∃ r, prngReg c r)

/-! ## The regions as segments -/

set_option backward.isDefEq.respectTransparency.types false in
/-- The projection region over the thread state: entered with every unscoped buffer at the contents after the host
    casts, left with its four output arrays at what the write-backs leave. -/
def projRegion : Pipeline.RegionSeg (pcfgs (F := F)) adm (regionData m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vhost m) c).loose
  hwaits := Pipeline.hwaits_of_owed_zero _ _ _ _ L lv 0 fun _ _ => rfl
  pre c := iprop(StableHlo.held (c : Thread nD τ) (Pipeline.ucRefs τ sig) (Whost m c) ∗ R c)
  post c := iprop(StableHlo.held (c : Thread nD τ) (Pipeline.ucRefs τ sig) (Wproj m c) ∗ R c)
  X c := iprop(∃ r, prngReg c r)
  Y c := iprop(∃ r, prngReg c r)
  Z c := Pipeline.unscopedRest (Ix := Unit) (Name := ℕ) (U := Pipeline.UD sig nD τ) (Lvl := ℕ) spec0 c (Vhost m c)
  hentry c := by
    rw [Pipeline.ownSems0_none]
    have hsplit := Pipeline.arrays_of_unscopedBufs (p := 0) (pcfgs (F := F)) adm (regionData m) launch0.win launch0.arr_whole c
      ((regionData m 0 c).share_full fun _ => rfl) (Vhost m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (regionData m) ((regionData m 0 c).share_full fun _ => rfl)
      (Vhost m c) (Vproj m c) ((regionData m 0 c).arrAt · cfg0.N) (projLeaves m c) (projKeeps m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from the projection region's exit contents, left with the
    result array at what its write-backs leave; its invariant starts and ends at the class invariant. -/
def attnRegion : Pipeline.RegionSeg (pcfgs (F := F)) adm (regionData m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vproj m) c).loose
  hwaits := Pipeline.hwaits_of_owed_zero _ _ _ _ L lv 1 fun _ _ => rfl
  pre c := iprop(StableHlo.held (c : Thread nD τ) (Pipeline.ucRefs τ sig) (Wproj m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (Vproj m c)
  hentry c := by
    rw [Pipeline.ownSems0_none]
    have hsplit := Pipeline.arrays_of_unscopedBufs (p := 1) (pcfgs (F := F)) adm (regionData m) launch1.win launch1.arr_whole c
      ((regionData m 1 c).share_full fun _ => rfl) (Vproj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vproj m) c)
    unfold Pipeline.ΦA
    iintro ⟨Hp, -, Hr⟩
    isplitl [Hr]; · iexact Hr
    iexact Hp
  hout c := by
    rw [Pipeline.ownSems0_none]
    refine BIBase.Entails.trans (hout1 (Vproj m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (regionData m) ((regionData m 1 c).share_full fun _ => rfl)
      (Vproj m c) (Vattn m c) ((regionData m 1 c).arrAt · cfg1.N) (attnLeaves m c) (attnKeeps m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (regionData m) () defs₀ 𝒱₀ L lv) :=
  [ .host (hseg hostOps0 hostOps0_sub hostOps0_fresh (Win m)),
    .region (projRegion m),
    .region (attnRegion m) ]
theorem main_run (c : Dev nD) : main (F := F) c = Pipeline.Seg.run (segs m) := (main_chain c).trans (by chain_rfl)

variable (ρ : Dev nD → PrngReg)

set_option backward.isDefEq.respectTransparency.types false in
/-- Every weakly fair execution of @main from `m` terminates, nothing faulting, with every unscoped buffer of every
    core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wattn m c b) :=
  Pipeline.θ_run_regions_kit (pcfgs (F := F)) adm (regionData m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Win m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Win m c)
        from Pipeline.unscopedBufs_held c (Win m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wattn m c b)
    (hfin := fun c s' => by
      iintro ⟨⟨Hh, -⟩, HSI⟩
      unfold StableHlo.held
      imodintro
      iapply (pointsTo_read_all (Pipeline.ucRefs τ sig) (fun b => (((c : Thread nD τ)).1, b)) (Wattn m c) s')
      isplitl [Hh] <;> iassumption)
    (hQ := fun s h c => h c)

/-! ## The arguments end as launched, and the result buffer holds what the attention region's write-backs leave -/

theorem Whost_of (c : Dev nD) (r : Ref sig .tc) (h : r ∉ hostOps0_W) : Whost m c (Proc.devRef .tc r) = m ((c : Thread nD τ).loc r) :=
  V1_of m c r h

theorem Wattn_main_arg0 (c : Dev nD) : Wattn m c (Proc.devRef .tc main_arg0) = m ((c : Thread nD τ).loc main_arg0) :=
  calc Wattn m c (Proc.devRef .tc main_arg0)
    _ = Wproj m c (Proc.devRef .tc main_arg0) := (Wattn_arr m c 4).trans (((dat1 (Vproj m) c).arrAt_in 4 rfl _).trans (A_eq1 (Vproj m) c 4))
    _ = Whost m c (Proc.devRef .tc main_arg0) := (Wproj_arr m c 0).trans (((dat0 (Vhost m) c).arrAt_in 0 rfl _).trans (A_eq0 (Vhost m) c 0))
    _ = m ((c : Thread nD τ).loc main_arg0) := Whost_of m c main_arg0 (by decide)
theorem Wattn_main_arg1 (c : Dev nD) : Wattn m c (Proc.devRef .tc main_arg1) = m ((c : Thread nD τ).loc main_arg1) :=
  calc Wattn m c (Proc.devRef .tc main_arg1)
    _ = Wproj m c (Proc.devRef .tc main_arg1) := Wattn_of_ne m c main_arg1 (by decide)
    _ = Whost m c (Proc.devRef .tc main_arg1) := (Wproj_arr m c 1).trans (((dat0 (Vhost m) c).arrAt_in 1 rfl _).trans (A_eq0 (Vhost m) c 1))
    _ = m ((c : Thread nD τ).loc main_arg1) := Whost_of m c main_arg1 (by decide)
theorem Wattn_main_arg2 (c : Dev nD) : Wattn m c (Proc.devRef .tc main_arg2) = m ((c : Thread nD τ).loc main_arg2) :=
  calc Wattn m c (Proc.devRef .tc main_arg2)
    _ = Wproj m c (Proc.devRef .tc main_arg2) := Wattn_of_ne m c main_arg2 (by decide)
    _ = Whost m c (Proc.devRef .tc main_arg2) := (Wproj_arr m c 2).trans (((dat0 (Vhost m) c).arrAt_in 2 rfl _).trans (A_eq0 (Vhost m) c 2))
    _ = m ((c : Thread nD τ).loc main_arg2) := Whost_of m c main_arg2 (by decide)
theorem Wattn_main_arg4 (c : Dev nD) : Wattn m c (Proc.devRef .tc main_arg4) = m ((c : Thread nD τ).loc main_arg4) :=
  calc Wattn m c (Proc.devRef .tc main_arg4)
    _ = Wproj m c (Proc.devRef .tc main_arg4) := Wattn_of_ne m c main_arg4 (by decide)
    _ = Whost m c (Proc.devRef .tc main_arg4) := (Wproj_arr m c 4).trans (((dat0 (Vhost m) c).arrAt_in 4 rfl _).trans (A_eq0 (Vhost m) c 4))
    _ = m ((c : Thread nD τ).loc main_arg4) := Whost_of m c main_arg4 (by decide)
theorem Wattn_main_arg7 (c : Dev nD) : Wattn m c (Proc.devRef .tc main_arg7) = m ((c : Thread nD τ).loc main_arg7) :=
  calc Wattn m c (Proc.devRef .tc main_arg7)
    _ = Wproj m c (Proc.devRef .tc main_arg7) := Wattn_of_ne m c main_arg7 (by decide)
    _ = Whost m c (Proc.devRef .tc main_arg7) := (Wproj_arr m c 5).trans (((dat0 (Vhost m) c).arrAt_in 5 rfl _).trans (A_eq0 (Vhost m) c 5))
    _ = m ((c : Thread nD τ).loc main_arg7) := Whost_of m c main_arg7 (by decide)
theorem Wattn_main_arg8 (c : Dev nD) : Wattn m c (Proc.devRef .tc main_arg8) = m ((c : Thread nD τ).loc main_arg8) :=
  calc Wattn m c (Proc.devRef .tc main_arg8)
    _ = Wproj m c (Proc.devRef .tc main_arg8) := Wattn_of_ne m c main_arg8 (by decide)
    _ = Whost m c (Proc.devRef .tc main_arg8) := (Wproj_arr m c 6).trans (((dat0 (Vhost m) c).arrAt_in 6 rfl _).trans (A_eq0 (Vhost m) c 6))
    _ = m ((c : Thread nD τ).loc main_arg8) := Whost_of m c main_arg8 (by decide)
theorem Wattn_main_arg9 (c : Dev nD) : Wattn m c (Proc.devRef .tc main_arg9) = m ((c : Thread nD τ).loc main_arg9) :=
  calc Wattn m c (Proc.devRef .tc main_arg9)
    _ = Wproj m c (Proc.devRef .tc main_arg9) := Wattn_of_ne m c main_arg9 (by decide)
    _ = Whost m c (Proc.devRef .tc main_arg9) := (Wproj_arr m c 7).trans (((dat0 (Vhost m) c).arrAt_in 7 rfl _).trans (A_eq0 (Vhost m) c 7))
    _ = m ((c : Thread nD τ).loc main_arg9) := Whost_of m c main_arg9 (by decide)
theorem Wattn_main_arg10 (c : Dev nD) : Wattn m c (Proc.devRef .tc main_arg10) = m ((c : Thread nD τ).loc main_arg10) :=
  calc Wattn m c (Proc.devRef .tc main_arg10)
    _ = Wproj m c (Proc.devRef .tc main_arg10) := Wattn_of_ne m c main_arg10 (by decide)
    _ = Whost m c (Proc.devRef .tc main_arg10) := (Wproj_arr m c 8).trans (((dat0 (Vhost m) c).arrAt_in 8 rfl _).trans (A_eq0 (Vhost m) c 8))
    _ = m ((c : Thread nD τ).loc main_arg10) := Whost_of m c main_arg10 (by decide)
theorem Wattn_main_arg3 (c : Dev nD) : Wattn m c (Proc.devRef .tc main_arg3) = m ((c : Thread nD τ).loc main_arg3) :=
  calc Wattn m c (Proc.devRef .tc main_arg3)
    _ = Wproj m c (Proc.devRef .tc main_arg3) := Wattn_of_ne m c main_arg3 (by decide)
    _ = Whost m c (Proc.devRef .tc main_arg3) := Wproj_of_ne m c main_arg3 (by decide)
    _ = m ((c : Thread nD τ).loc main_arg3) := Whost_of m c main_arg3 (by decide)
theorem Wattn_main_arg5 (c : Dev nD) : Wattn m c (Proc.devRef .tc main_arg5) = m ((c : Thread nD τ).loc main_arg5) :=
  calc Wattn m c (Proc.devRef .tc main_arg5)
    _ = Wproj m c (Proc.devRef .tc main_arg5) := Wattn_of_ne m c main_arg5 (by decide)
    _ = Whost m c (Proc.devRef .tc main_arg5) := Wproj_of_ne m c main_arg5 (by decide)
    _ = m ((c : Thread nD τ).loc main_arg5) := Whost_of m c main_arg5 (by decide)
theorem Wattn_main_arg6 (c : Dev nD) : Wattn m c (Proc.devRef .tc main_arg6) = m ((c : Thread nD τ).loc main_arg6) :=
  calc Wattn m c (Proc.devRef .tc main_arg6)
    _ = Wproj m c (Proc.devRef .tc main_arg6) := (Wattn_arr m c 6).trans (((dat1 (Vproj m) c).arrAt_in 6 rfl _).trans (A_eq1 (Vproj m) c 6))
    _ = Whost m c (Proc.devRef .tc main_arg6) := Wproj_of_ne m c main_arg6 (by decide)
    _ = m ((c : Thread nD τ).loc main_arg6) := Whost_of m c main_arg6 (by decide)

/-- The result buffer after the run: the attention region's output array after all its write-backs. -/
theorem Wattn_main_v3 (c : Dev nD) : Wattn m c (Proc.devRef .tc main_v3) = (dat1 (Vproj m) c).arrAt 7 cfg1.N :=
  Wattn_arr m c 7

/-- The run with the result named: every weakly fair execution of @main terminates, nothing faulting, with the result
    buffer at the attention region's final array and every argument array as launched. -/
theorem run_named : θ_run defs (onTc (τ := τ) (main (F := F))) ⟨m, fun _ => 0, ρ⟩ (fun r => ∀ c : Dev nD,
      r.2.mem ((c.tc : Thread nD τ).loc main_v3) = (dat1 (Vproj m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v3 (by decide))).trans (Wattn_main_v3 m c),
     (h c _ (mem_uc main_arg0 (by decide))).trans (Wattn_main_arg0 m c),
     (h c _ (mem_uc main_arg1 (by decide))).trans (Wattn_main_arg1 m c),
     (h c _ (mem_uc main_arg2 (by decide))).trans (Wattn_main_arg2 m c),
     (h c _ (mem_uc main_arg3 (by decide))).trans (Wattn_main_arg3 m c),
     (h c _ (mem_uc main_arg4 (by decide))).trans (Wattn_main_arg4 m c),
     (h c _ (mem_uc main_arg5 (by decide))).trans (Wattn_main_arg5 m c),
     (h c _ (mem_uc main_arg6 (by decide))).trans (Wattn_main_arg6 m c),
     (h c _ (mem_uc main_arg7 (by decide))).trans (Wattn_main_arg7 m c),
     (h c _ (mem_uc main_arg8 (by decide))).trans (Wattn_main_arg8 m c),
     (h c _ (mem_uc main_arg9 (by decide))).trans (Wattn_main_arg9 m c),
     (h c _ (mem_uc main_arg10 (by decide))).trans (Wattn_main_arg10 m c)⟩)
    (run_main m ρ)

/-- The frame: the run terminates, faults nowhere and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_named m ρ)

end Cert.Kernel.Hand

end
-- ==== Proof.KI.Reg1Val.lean ====
/- The second launch (the attention kernel): the accumulator and the output block after each grid point as the
   payloads of the body's stores.  With q the query block, K_t / V_t the key and value tiles the body loads at
   row offset 512·ki of the whole key and value blocks, the accumulator after a point is
   acc + (relu(q K_tᵀ / 2048))² V_t with acc the zero fill at ki = 0 and the point before's accumulator
   otherwise; at ki = 3 the output block is the epilogue payload of the two column halves of that accumulator,
   the two column halves of the gate block, the two row halves of the output projection, the residual block and
   the bias. -/
import proofs.«152703_j41326175322889_2_alg».proof.Proof.KI.Reg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-! ## Each case's stores as payloads of its loads (on any memrefs and contents) -/

/-- ki = 0: the accumulator ends as the tile's contribution over the zero fill. -/
theorem sout1_A_0_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) :
    sout1_A_0 c i arg3 harg3 arg4 harg4 arg5 harg5 arg6 harg6 arg7 harg7 arg8 harg8 arg9 harg9 arg10 harg10 arg11 harg11 hc0 hc1 x0 x1 x2 x3 x4 x5 x6 = k1_pay2 (View.ld (x1 : Vec F S1x2048x128 .bf16) (Rect.unit (s := S1x2048x128) (k1_off1 i) S1x512x128.size (k1_off1_inb i))) (View.ld (x2 : Vec F S1x2048x2048 .bf16) (Rect.unit (s := S1x2048x2048) (k1_off2 i) S1x512x2048.size (k1_off2_inb i))) x0 k1_pay1 := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_run_names
  rw [View.canon_cons_unit_zero hz2]
  simp only [View.readAt_eq_ld, harg3.read_unread, harg4.read_unread, harg5.read_unread, harg6.read_unread, harg7.read_unread, harg8.read_unread, harg9.read_unread, harg11.read_unread, View.readCov_unit_zero (S := S512x2048) arg11.view hz2, View.ld_unit_zero (S := S1x512x128) hz3]

/-- ki = 1, 2: the tile's contribution over the accumulator handed in. -/
theorem sout1_B_0_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : ¬cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) :
    sout1_B_0 c i arg3 harg3 arg4 harg4 arg5 harg5 arg6 harg6 arg7 harg7 arg8 harg8 arg9 harg9 arg10 harg10 arg11 harg11 hc0 hc1 x0 x1 x2 x3 x4 x5 x6 xs0 = k1_pay2 (View.ld (x1 : Vec F S1x2048x128 .bf16) (Rect.unit (s := S1x2048x128) (k1_off1 i) S1x512x128.size (k1_off1_inb i))) (View.ld (x2 : Vec F S1x2048x2048 .bf16) (Rect.unit (s := S1x2048x2048) (k1_off2 i) S1x512x2048.size (k1_off2_inb i))) x0 xs0 := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 x2 x3 x4 x5 x6 xs0)]
  unfold kernelRun1_B
  dsimp only
  sl_unfold_run_names
  rw [View.canon_unit_zero hz2]
  simp only [View.readAt_eq_ld, harg3.read_unread, harg4.read_unread, harg5.read_unread, harg6.read_unread, harg7.read_unread, harg8.read_unread, harg9.read_unread, harg11.read_unread, View.ld_unit_zero (S := S1x512x128) hz3, View.ld_unit_zero (S := S512x2048) hz2]

/-- ki = 3: likewise for the accumulator; -/
theorem sout1_C_0_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) :
    sout1_C_0 c i arg3 harg3 arg4 harg4 arg5 harg5 arg6 harg6 arg7 harg7 arg8 harg8 arg9 harg9 arg10 harg10 arg11 harg11 hc0 hc1 x0 x1 x2 x3 x4 x5 x6 xs0 = k1_pay2 (View.ld (x1 : Vec F S1x2048x128 .bf16) (Rect.unit (s := S1x2048x128) (k1_off1 i) S1x512x128.size (k1_off1_inb i))) (View.ld (x2 : Vec F S1x2048x2048 .bf16) (Rect.unit (s := S1x2048x2048) (k1_off2 i) S1x512x2048.size (k1_off2_inb i))) x0 xs0 := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_run_names
  rw [View.canon_unit_zero hz2]
  simp only [View.readAt_eq_ld, harg3.read_unread, harg4.read_unread, harg5.read_unread, harg6.read_unread, harg7.read_unread, harg8.read_unread, harg9.read_unread, harg11.read_unread, View.ld_unit_zero (S := S1x512x128) hz3, View.ld_unit_zero (S := S512x2048) hz2]

/-- and the output block is the epilogue's payload over the accumulator just completed. -/
theorem out1_C_7_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x512x2048 .bf16) (harg6 : arg6.IsWhole) (arg7 : Memref sig .tc .vmem S1x512x1024 .f32) (harg7 : arg7.IsWhole) (arg8 : Memref sig .tc .vmem S2048x1024 .bf16) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x2048 .f32) (harg11 : arg11.IsWhole) (hc0 : ¬cond1_0 i) (hc1 : cond1_1 i)
    (x0 : Vec F S1x512x128 .bf16) (x1 : Vec F S1x2048x128 .bf16) (x2 : Vec F S1x2048x2048 .bf16) (x3 : Vec F S1x512x2048 .bf16) (x4 : Vec F S1x512x1024 .f32) (x5 : Vec F S2048x1024 .bf16) (x6 : Vec F S1024 .f32) (xs0 : Vec F S512x2048 .f32) :
    out1_C_7 c i arg3 harg3 arg4 harg4 arg5 harg5 arg6 harg6 arg7 harg7 arg8 harg8 arg9 harg9 arg10 harg10 arg11 harg11 hc0 hc1 x0 x1 x2 x3 x4 x5 x6 xs0 = k1_pay3 (View.ld (x3 : Vec F S1x512x2048 .bf16) (Rect.unit (s := S1x512x2048) ![0, 0, 0] S1x512x1024.size inb_S1x512x2048_S1x512x1024_0_0_0)) (View.ld (sout1_C_0 c i arg3 harg3 arg4 harg4 arg5 harg5 arg6 harg6 arg7 harg7 arg8 harg8 arg9 harg9 arg10 harg10 arg11 harg11 hc0 hc1 x0 x1 x2 x3 x4 x5 x6 xs0 : Vec F S512x2048 .f32) (Rect.unit (s := S512x2048) ![0, 0] S512x1024.size inb_S512x2048_S512x1024_0_0)) (View.ld (x5 : Vec F S2048x1024 .bf16) (Rect.unit (s := S2048x1024) ![0, 0] S1024x1024.size inb_S2048x1024_S1024x1024_0_0)) (View.ld (x3 : Vec F S1x512x2048 .bf16) (Rect.unit (s := S1x512x2048) ![0, 0, 1024] S1x512x1024.size inb_S1x512x2048_S1x512x1024_0_0_1024)) (View.ld (sout1_C_0 c i arg3 harg3 arg4 harg4 arg5 harg5 arg6 harg6 arg7 harg7 arg8 harg8 arg9 harg9 arg10 harg10 arg11 harg11 hc0 hc1 x0 x1 x2 x3 x4 x5 x6 xs0 : Vec F S512x2048 .f32) (Rect.unit (s := S512x2048) ![0, 1024] S512x1024.size inb_S512x2048_S512x1024_0_1024)) (View.ld (x5 : Vec F S2048x1024 .bf16) (Rect.unit (s := S2048x1024) ![1024, 0] S1024x1024.size inb_S2048x1024_S1024x1024_1024_0)) x4 x6 := by
  rw [sout1_C_0_eq]
  unfold out1_C_7
  rw [View.read_writes_eq_canon _ _ _ (cover1_C_7 c i arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_run_names
  rw [View.canon_unit_zero hz3]
  simp only [View.readCov_eq_canon', View.canon_unit_zero (S := S512x2048) hz2]
  simp only [View.readAt_eq_ld, harg3.read_unread, harg4.read_unread, harg5.read_unread, harg6.read_unread, harg7.read_unread, harg8.read_unread, harg9.read_unread, harg11.read_unread, View.ld_unit_zero (S := S1x512x128) hz3, View.ld_unit_zero (S := S512x2048) hz2, View.ld_unit_zero (S := S1x512x1024) hz3, View.ld_unit_zero (S := S1024) hz1]

/-! ## The accumulator and the output block after each grid point -/

section Regions
variable (V : (c : Dev nD) → (b : Ref sig .tc) → Buf (Elt F) ((c : Thread nD τ).loc b))

/-- The key tile the body loads at point `t`: rows 512·ki … 512·ki + 511 of the whole key block. -/
def ktile1 (c : Dev nD) (t : Fin cfg1.N) : Vec F S1x512x128 .bf16 :=
  (View.ld (iblk1 V c 1 t : Vec F S1x2048x128 .bf16) (Rect.unit (s := S1x2048x128) (k1_off1 (grid1.coords t)) S1x512x128.size (k1_off1_inb (grid1.coords t))))

/-- The value tile the body loads at point `t`: the same rows of the whole value block. -/
def vtile1 (c : Dev nD) (t : Fin cfg1.N) : Vec F S1x512x2048 .bf16 :=
  (View.ld (iblk1 V c 2 t : Vec F S1x2048x2048 .bf16) (Rect.unit (s := S1x2048x2048) (k1_off2 (grid1.coords t)) S1x512x2048.size (k1_off2_inb (grid1.coords t))))

/-- After a point with ki = 0 the accumulator is that tile's contribution over the zero fill. -/
theorem scr1_A (c : Dev nD) (t : Fin cfg1.N) (h : t.val % 4 = 0) :
    (outsAt1 V c t.val t.isLt).2 = k1_pay2 (ktile1 V c t) (vtile1 V c t) (iblk1 V c 0 t) k1_pay1 := by
  have h1 : ¬t.val % 4 = 3 := by omega
  rw [outsAt1_A V c t h h1]
  have e := sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h) (fun h' => h1 ((hcond1_1 t).mp h')) (iblk1 V c 0 t) (iblk1 V c 1 t) (iblk1 V c 2 t) (iblk1 V c 3 t) (iblk1 V c 4 t) (iblk1 V c 5 t) (iblk1 V c 6 t)
  unfold ktile1 vtile1
  dsimp only
  exact e

/-- After a point with ki > 0 it is that tile's contribution over what the point before left. -/
theorem scr1_BC (c : Dev nD) (t : Fin cfg1.N) (h : t.val % 4 ≠ 0) :
    (outsAt1 V c t.val t.isLt).2 = k1_pay2 (ktile1 V c t) (vtile1 V c t) (iblk1 V c 0 t) (outsAt1 V c (t.val - 1) (Nat.lt_of_le_of_lt (Nat.sub_le _ _) t.isLt)).2 := by
  by_cases h3 : t.val % 4 = 3
  · rw [outsAt1_C V c t h h3]
    have e := sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h' => h ((hcond1_0 t).mp h')) ((hcond1_1 t).mpr h3) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2
    unfold ktile1 vtile1
    dsimp only
    exact e
  · rw [outsAt1_B V c t h h3]
    have e := sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h' => h ((hcond1_0 t).mp h')) (fun h' => h3 ((hcond1_1 t).mp h')) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2
    unfold ktile1 vtile1
    dsimp only
    exact e

/-- After a point with ki = 3 the output block is the epilogue's payload: the gate block's two column halves, the
    two column halves of the accumulator just completed, the output projection's two row halves, the residual
    block and the bias. -/
theorem out1_C (c : Dev nD) (t : Fin cfg1.N) (h : t.val % 4 = 3) :
    (outsAt1 V c t.val t.isLt).1 = k1_pay3 (View.ld (iblk1 V c 3 t : Vec F S1x512x2048 .bf16) (Rect.unit (s := S1x512x2048) ![0, 0, 0] S1x512x1024.size inb_S1x512x2048_S1x512x1024_0_0_0)) (View.ld ((outsAt1 V c t.val t.isLt).2 : Vec F S512x2048 .f32) (Rect.unit (s := S512x2048) ![0, 0] S512x1024.size inb_S512x2048_S512x1024_0_0)) (View.ld (iblk1 V c 5 t : Vec F S2048x1024 .bf16) (Rect.unit (s := S2048x1024) ![0, 0] S1024x1024.size inb_S2048x1024_S1024x1024_0_0)) (View.ld (iblk1 V c 3 t : Vec F S1x512x2048 .bf16) (Rect.unit (s := S1x512x2048) ![0, 0, 1024] S1x512x1024.size inb_S1x512x2048_S1x512x1024_0_0_1024)) (View.ld ((outsAt1 V c t.val t.isLt).2 : Vec F S512x2048 .f32) (Rect.unit (s := S512x2048) ![0, 1024] S512x1024.size inb_S512x2048_S512x1024_0_1024)) (View.ld (iblk1 V c 5 t : Vec F S2048x1024 .bf16) (Rect.unit (s := S2048x1024) ![1024, 0] S1024x1024.size inb_S2048x1024_S1024x1024_1024_0)) (iblk1 V c 4 t) (iblk1 V c 6 t) := by
  have h0 : ¬t.val % 4 = 0 := by omega
  rw [outsAt1_C V c t h0 h]
  have e := out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2
  dsimp only
  exact e

end Regions

end Cert.KernelIdeal.Hand

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.AttnLaw.lean ====
/-
  The laws that join the tiled attention arithmetic to the whole-array one, on the extended reals.

  * Scaling by the word of 2⁻¹¹ is dividing by the word of 2048, for every extended real (both words are exact powers
    of two), so the score max(t · 2⁻¹¹, 0)² is max(t / 2048, 0)².
  * A sum over 2048 positions is the sum of its four consecutive runs of 512, added one after the other onto zero; and the
    sum of its two halves of 1024 added onto zero. Only associativity and the neutral zero are used: no finiteness.
-/
import Idealize.ShloMosaic.PureOps.Ideal
import Idealize.ShloMosaic.PureOps.Ideal.Laws
import Mathlib.Algebra.BigOperators.Fin

noncomputable section

open scoped BigOperators

namespace Cert.AttnLaw

open Idealize.ShloMosaic

/-- The f32 word 0x45000000 denotes 2048. -/
theorem word_2048 : Ideal.ofBits .f32 0x45000000#32 = ((2048 : ℝ) : EReal) := by
  simp [Ideal.ofBits, Ideal.ieee, -EReal.coe_mul]; norm_num

/-- The f32 word 0x3A000000 denotes 1 / 2048. -/
theorem word_inv_2048 : Ideal.ofBits .f32 0x3A000000#32 = ((1 / 2048 : ℝ) : EReal) := by
  simp [Ideal.ofBits, Ideal.ieee, -EReal.coe_mul]; norm_num

/-- The score a query–key inner product becomes in the tiled form: scaled by the word of 2⁻¹¹, clamped below by
    zero, squared. -/
def score (t : EReal) : EReal :=
  max (t * Ideal.ofBits .f32 0x3A000000#32) (Ideal.ofBits .f32 0x00000000#32) * max (t * Ideal.ofBits .f32 0x3A000000#32) (Ideal.ofBits .f32 0x00000000#32)

/-- The same in the whole-array form: divided by the word of 2048, clamped, squared. -/
def refScore (t : EReal) : EReal :=
  max (Ideal.div t (Ideal.ofBits .f32 0x45000000#32)) (Ideal.ofBits .f32 0x00000000#32) * max (Ideal.div t (Ideal.ofBits .f32 0x45000000#32)) (Ideal.ofBits .f32 0x00000000#32)

theorem score_eq_refScore (t : EReal) : score t = refScore t := by
  unfold score refScore
  rw [word_2048, word_inv_2048, Ideal.div_coe (by norm_num : (2048 : ℝ) ≠ 0)]

/-- A sum over a + b positions is the sum over the first a plus the sum over the last b. -/
theorem sum_cut (a b : ℕ) (f : Fin (a + b) → EReal) :
    ∑ i, f i = (∑ i : Fin a, f ⟨i.val, by omega⟩) + ∑ i : Fin b, f ⟨a + i.val, by omega⟩ := by
  rw [Fin.sum_univ_add]; rfl

/-- Four consecutive runs of 512 added one after the other onto the zero word: the sum over all 2048 positions. -/
theorem sum_four_tiles (f : Fin 2048 → EReal) :
    (((Ideal.ofBits .f32 0x00000000#32 + ∑ j : Fin 512, f ⟨j.val, by omega⟩) + ∑ j : Fin 512, f ⟨512 + j.val, by omega⟩)
        + ∑ j : Fin 512, f ⟨1024 + j.val, by omega⟩) + ∑ j : Fin 512, f ⟨1536 + j.val, by omega⟩
      = ∑ j : Fin 2048, f j := by
  rw [Ideal.ofBits_zero_f32, zero_add]
  have h1 : ∑ j : Fin 2048, f j = (∑ j : Fin 512, f ⟨j.val, by omega⟩) + ∑ i : Fin 1536, f ⟨512 + i.val, by omega⟩ :=
    sum_cut 512 1536 f
  have h2 : ∑ i : Fin 1536, f ⟨512 + i.val, by omega⟩
      = (∑ j : Fin 512, f ⟨512 + j.val, by omega⟩) + ∑ i : Fin 1024, f ⟨1024 + i.val, by omega⟩ := by
    refine (sum_cut 512 1024 (fun i => f ⟨512 + i.val, by omega⟩)).trans ?_
    refine congrArg (_ + ·) (Finset.sum_congr rfl fun i _ => congrArg f (Fin.ext ?_))
    show 512 + (512 + i.val) = 1024 + i.val
    omega
  have h3 : ∑ i : Fin 1024, f ⟨1024 + i.val, by omega⟩
      = (∑ j : Fin 512, f ⟨1024 + j.val, by omega⟩) + ∑ j : Fin 512, f ⟨1536 + j.val, by omega⟩ := by
    refine (sum_cut 512 512 (fun i => f ⟨1024 + i.val, by omega⟩)).trans ?_
    refine congrArg (_ + ·) (Finset.sum_congr rfl fun i _ => congrArg f (Fin.ext ?_))
    show 1024 + (512 + i.val) = 1536 + i.val
    omega
  rw [h1, h2, h3]
  simp only [add_assoc]

/-- The two halves of 1024 added one after the other onto the zero word: the sum over all 2048 positions. -/
theorem sum_two_halves (g : Fin 2048 → EReal) :
    (Ideal.ofBits .f32 0x00000000#32 + ∑ e : Fin 1024, g ⟨e.val, by omega⟩) + ∑ e : Fin 1024, g ⟨1024 + e.val, by omega⟩
      = ∑ e : Fin 2048, g e := by
  rw [Ideal.ofBits_zero_f32, zero_add]
  exact (sum_cut 1024 1024 g).symm

end Cert.AttnLaw

end
-- ==== Proof.KI.AttnPay.lean ====
/-
  The attention region's arithmetic at the exact reading of the floats (a float an extended real, every operation the
  textbook one, a change of format the identity), read at an index.

  One key tile adds to the accumulator, at row r and feature e, the sum over the tile's 512 keys j of
  score(q_r · k_j) · v_j[e], where score(t) = max(t · 2⁻¹¹, 0)²; and the epilogue's output at (r, d) is
  x[r, d] + (0 + Σ_{e < 1024} (u[r, e] · acc[r, e]) · W[e, d] + Σ_{e < 1024} (u[r, 1024 + e] · acc[r, 1024 + e]) · W[1024 + e, d]) + b[d],
  the two sums being the two halves of the feature axis.
-/
import proofs.«152703_j41326175322889_2_alg».proof.Proof.Gen.KernelIdeal.Skeleton
import proofs.«152703_j41326175322889_2_alg».proof.Proof.LibMatmulNT
import proofs.«152703_j41326175322889_2_alg».proof.Proof.LibPlainDot
import proofs.«152703_j41326175322889_2_alg».proof.Proof.AttnLaw
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.AttnLaw Cert.KernelIdeal Cert.KernelIdeal.Gen Idealize.ShloMosaic Idealize.ShloMosaic.ValueIdx

/-- The query block times the transposed key tile, at (r, j): the inner product of query row r and key row j. -/
theorem qk_apply (qb kt : Vec Ideal S1x512x128 .bf16) (r j : Fin 512) :
    (matmul (F := Ideal) (φ₁ := .bf16) (φ₂ := .bf16) dot_S512x128_S512x128_S512x512_1_1_0_0_n_n none (shapeCast S512x128 qb shapeCasts_S1x512x128_S512x128)
        (shapeCast S512x128 kt shapeCasts_S1x512x128_S512x128) (constant S512x512 .f32 0x00000000#32) (ix2 r j) : EReal)
      = ∑ s : Fin 128, (qb (ix3 0 r s) : EReal) * (kt (ix3 0 j s) : EReal) :=
  (Cert.Gram.matmul_nt_zero_apply dot_S512x128_S512x128_S512x512_1_1_0_0_n_n_wf none _ _ r j).trans
    (Finset.sum_congr rfl fun s _ => by rw [shapeCast_1ab_ab_apply, shapeCast_1ab_ab_apply])

/-- A 512 × 512 matrix times the value tile, at (r, e). -/
theorem pv_apply (P : FVec Ideal S512x512 .bf16) (vt : Vec Ideal S1x512x2048 .bf16) (r : Fin 512) (e : Fin 2048) :
    (matmul (F := Ideal) (φ₁ := .bf16) (φ₂ := .bf16) dot_S512x512_S512x2048_S512x2048_1_0_0_1_n_n none P
        (shapeCast S512x2048 vt shapeCasts_S1x512x2048_S512x2048) (constant S512x2048 .f32 0x00000000#32) (ix2 r e) : EReal)
      = ∑ j : Fin 512, (P (ix2 r j) : EReal) * (vt (ix3 0 j e) : EReal) :=
  (Cert.LibPlainDot.matmul_zero_apply (M := 512) (K := 512) (N := 2048) none P _ r e).trans
    (Finset.sum_congr rfl fun j _ => by rw [shapeCast_1ab_ab_apply])

/-- One key tile's contribution: the accumulator at (r, e) plus the tile's scores against its values. -/
theorem acc_step (kt : Vec Ideal S1x512x128 .bf16) (vt : Vec Ideal S1x512x2048 .bf16) (qb : Vec Ideal S1x512x128 .bf16)
    (acc : Vec Ideal S512x2048 .f32) (r : Fin 512) (e : Fin 2048) :
    (k1_pay2 (F := Ideal) kt vt qb acc (ix2 r e) : EReal)
      = (acc (ix2 r e) : EReal) + ∑ j : Fin 512, score (∑ s : Fin 128, (qb (ix3 0 r s) : EReal) * (kt (ix3 0 j s) : EReal)) * (vt (ix3 0 j e) : EReal) := by
  unfold k1_pay2
  refine (congrFun (shapeCast_self _ _) _).trans ?_
  refine congrArg ((acc (ix2 r e) : EReal) + ·) ?_
  refine (pv_apply _ vt r e).trans (Finset.sum_congr rfl fun j _ => ?_)
  refine congrArg (· * (vt (ix3 0 j e) : EReal)) ?_
  unfold score
  rw [← qk_apply qb kt r j]
  rfl

/-- A half-width gated block times a half of the output weights, at (r, d). -/
theorem gate_dot_apply (ub : Vec Ideal S1x512x1024 .bf16) (ab : Vec Ideal S512x1024 .f32) (wb : Vec Ideal S1024x1024 .bf16)
    (r : Fin 512) (d : Fin 1024) :
    (matmul (F := Ideal) (φ₁ := .bf16) (φ₂ := .bf16) dot_S512x1024_S1024x1024_S512x1024_1_0_0_1_n_n none
        (truncf .bf16 (mulf (extf .f32 (shapeCast S512x1024 ub shapeCasts_S1x512x1024_S512x1024) bitsLt_bf16_f32) ab) bitsLt_bf16_f32)
        (shapeCast S1024x1024 wb shapeCasts_S1024x1024_S1024x1024) (constant S512x1024 .f32 0x00000000#32) (ix2 r d) : EReal)
      = ∑ e : Fin 1024, ((ub (ix3 0 r e) : EReal) * (ab (ix2 r e) : EReal)) * (wb (ix2 e d) : EReal) :=
  (Cert.LibPlainDot.matmul_zero_apply (M := 512) (K := 1024) (N := 1024) none _ _ r d).trans
    (Finset.sum_congr rfl fun e _ => by
      rw [shapeCast_self]
      refine congrArg (· * (wb (ix2 e d) : EReal)) ?_
      show (shapeCast S512x1024 ub shapeCasts_S1x512x1024_S512x1024 (ix2 r e) : EReal) * (ab (ix2 r e) : EReal) = _
      rw [shapeCast_1ab_ab_apply])

/-- The epilogue's output at (0, r, d). -/
theorem epilogue_apply (u1 : Vec Ideal S1x512x1024 .bf16) (a1 : Vec Ideal S512x1024 .f32) (w1 : Vec Ideal S1024x1024 .bf16)
    (u2 : Vec Ideal S1x512x1024 .bf16) (a2 : Vec Ideal S512x1024 .f32) (w2 : Vec Ideal S1024x1024 .bf16)
    (xb : Vec Ideal S1x512x1024 .f32) (bo : Vec Ideal S1024 .f32) (r : Fin 512) (d : Fin 1024) :
    (k1_pay3 (F := Ideal) u1 a1 w1 u2 a2 w2 xb bo (ix3 0 r d) : EReal)
      = ((xb (ix3 0 r d) : EReal)
          + ((Ideal.ofBits .f32 0x00000000#32 + ∑ e : Fin 1024, ((u1 (ix3 0 r e) : EReal) * (a1 (ix2 r e) : EReal)) * (w1 (ix2 e d) : EReal))
              + ∑ e : Fin 1024, ((u2 (ix3 0 r e) : EReal) * (a2 (ix2 r e) : EReal)) * (w2 (ix2 e d) : EReal)))
        + (bo (ix1 d) : EReal) := by
  unfold k1_pay3
  refine (shapeCast_ab_1ab_apply _ _ 0 r d).trans ?_
  show (shapeCast S512x1024 xb shapeCasts_S1x512x1024_S512x1024 (ix2 r d) + ((Ideal.ofBits .f32 0x00000000#32 + _) + _))
      + broadcastTo S512x1024 (shapeCast S1x1024 bo shapeCasts_S1024_S1x1024) broadcasts_S1x1024_S512x1024 (ix2 r d) = _
  rw [shapeCast_1ab_ab_apply, broadcastTo_1b_ab_apply, shapeCast_a_1a_apply, gate_dot_apply u1 a1 w1 r d, gate_dot_apply u2 a2 w2 r d]

end Cert.KernelIdeal.Hand

end
-- ==== Proof.KI.AttnIdx.lean ====
/-
  Where the attention region's windows sit at each of its 64 grid points. Point t is (batch, query tile, key tile)
  = (t / 16, t / 4 mod 4, t mod 4): the query, gate, residual and output blocks are at (batch, query tile, 0), the key and
  value blocks (whole sequences) at (batch, 0, 0), the output weights and bias at the origin, and the key tile the body
  slices out of the key and value blocks starts at row 512 · (t mod 4).
-/
import proofs.«152703_j41326175322889_2_alg».proof.Proof.Gen.KernelIdeal.Launch
import proofs.«152703_j41326175322889_2_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe

theorem attn_idx : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = 0 ∧ win1_1.index t (2 : Fin 3) = 0)
    ∧ (win1_2.index t (0 : Fin 3) = t.val / 16 ∧ win1_2.index t (1 : Fin 3) = 0 ∧ win1_2.index t (2 : Fin 3) = 0)
    ∧ (win1_3.index t (0 : Fin 3) = t.val / 16 ∧ win1_3.index t (1 : Fin 3) = t.val / 4 % 4 ∧ win1_3.index t (2 : Fin 3) = 0)
    ∧ (win1_4.index t (0 : Fin 3) = t.val / 16 ∧ win1_4.index t (1 : Fin 3) = t.val / 4 % 4 ∧ win1_4.index t (2 : Fin 3) = 0)
    ∧ (win1_5.index t (0 : Fin 2) = 0 ∧ win1_5.index t (1 : Fin 2) = 0)
    ∧ win1_6.index t (0 : Fin 1) = 0
    ∧ (win1_7.index t (0 : Fin 3) = t.val / 16 ∧ win1_7.index t (1 : Fin 3) = t.val / 4 % 4 ∧ win1_7.index t (2 : Fin 3) = 0)
    ∧ (k1_off1 (grid1.coords t) 0 = 0 ∧ k1_off1 (grid1.coords t) 1 = 512 * (t.val % 4) ∧ k1_off1 (grid1.coords t) 2 = 0)
    ∧ (k1_off2 (grid1.coords t) 0 = 0 ∧ k1_off2 (grid1.coords t) 1 = 512 * (t.val % 4) ∧ k1_off2 (grid1.coords t) 2 = 0) :=
  (by decide +kernel : ∀ t : Fin grid1.N, _)

/-- Every (batch, query tile) is the block of the point that ends its four key tiles, and that point writes back. -/
theorem attn_onto : ∀ (n : Fin 4) (qt : Fin 4), ∃ t : Fin cfg1.N, t.val % 4 = 3 ∧ t.val / 16 = n.val ∧ t.val / 4 % 4 = qt.val :=
  (by decide +kernel : ∀ (n : Fin 4) (qt : Fin 4), ∃ t : Fin grid1.N, t.val % 4 = 3 ∧ t.val / 16 = n.val ∧ t.val / 4 % 4 = qt.val)

end Cert.KernelIdeal.Hand

end
-- ==== Proof.RefTail.lean ====
/-
  The reference's result as one function of its own intermediate arrays.

  With q, k : [4, 2048, 128], v, u : [4, 2048, 2048], x : [4, 2048, 1024], W : [2048, 1024], b : [1024], the result at
  (n, l, d) is  x[n, l, d] + Σ_e (u[n, l, e] · Σ_j max((Σ_s q[n, l, s] · k[n, j, s]) / 2048, 0)² · v[n, j, e]) · W[e, d] + b[d],
  every sum over the whole axis. The reference computes exactly this of the arrays it names q, k, v, u: each of its
  three contractions is a plain sum over the contracted axis, the division, the clamp and the square act entry by entry.
-/
import proofs.«152703_j41326175322889_2_alg».proof.Proof.Gen.ReferenceIdeal.Read
import proofs.«152703_j41326175322889_2_alg».proof.Proof.AttnLaw
import Idealize.ShloMosaic.Lib.ValueIdx

noncomputable section

open scoped BigOperators

namespace Cert.AttnTail

open Cert.AttnLaw Cert.ReferenceIdeal Cert.ReferenceIdeal.Read Idealize.ShloMosaic Idealize.ShloMosaic.ValueIdx

/-- The attention tail: the result array as a function of q, k, v, u, x, the output weights and the output bias. -/
def attnAt (Q K : S4x2048x128.Idx → EReal) (Vv U : S4x2048x2048.Idx → EReal) (X : S4x2048x1024.Idx → EReal)
    (Wo : S2048x1024.Idx → EReal) (Bo : S1024.Idx → EReal) (n : Fin 4) (l : Fin 2048) (d : Fin 1024) : EReal :=
  (X (ix3 n l d) + ∑ e : Fin 2048, (U (ix3 n l e)
      * ∑ j : Fin 2048, refScore (∑ s : Fin 128, Q (ix3 n l s) * K (ix3 n j s)) * Vv (ix3 n j e)) * Wo (ix2 e d))
    + Bo (ix1 d)

/-- The same as an array: entry (n, l, d) of the result. -/
def attnOut (Q K : S4x2048x128.Idx → EReal) (Vv U : S4x2048x2048.Idx → EReal) (X : S4x2048x1024.Idx → EReal)
    (Wo : S2048x1024.Idx → EReal) (Bo : S1024.Idx → EReal) : S4x2048x1024.Idx → EReal := fun i =>
  attnAt Q K Vv U X Wo Bo (i 0) (i 1) (i 2)

theorem attnOut_ix3 (Q K : S4x2048x128.Idx → EReal) (Vv U : S4x2048x2048.Idx → EReal) (X : S4x2048x1024.Idx → EReal)
    (Wo : S2048x1024.Idx → EReal) (Bo : S1024.Idx → EReal) (n : Fin 4) (l : Fin 2048) (d : Fin 1024) :
    attnOut Q K Vv U X Wo Bo (ix3 n l d) = attnAt Q K Vv U X Wo Bo n l d := rfl

/-- The reference's result stage is the attention tail of its stages q, k, v, u and of x, W_out, b_out. -/
theorem ref_is_tail (x0 : (⟨S4x2048x1024, .f32⟩ : BufTy).Contents (Elt Ideal)) (x1 x2 : (⟨S1024, .f32⟩ : BufTy).Contents (Elt Ideal))
    (x3 : (⟨S1024x4224, .f32⟩ : BufTy).Contents (Elt Ideal)) (x4 : (⟨S4224, .f32⟩ : BufTy).Contents (Elt Ideal))
    (x5 : (⟨S2048x1024, .f32⟩ : BufTy).Contents (Elt Ideal)) (x6 : (⟨S1024, .f32⟩ : BufTy).Contents (Elt Ideal))
    (x7 x8 x9 x10 : (⟨S128, .f32⟩ : BufTy).Contents (Elt Ideal)) :
    val_main_v55 (F := Ideal) x0 x1 x2 x3 x4 x5 x6 x7 x8 x9 x10
      = attnOut (val_main_v37 (F := Ideal) x0 x1 x2 x3 x4 x7 x8) (val_main_v43 (F := Ideal) x0 x1 x2 x3 x4 x9 x10)
          (val_main_v30 (F := Ideal) x0 x1 x2 x3 x4) (val_main_v29 (F := Ideal) x0 x1 x2 x3 x4) x0 x5 x6 := by
  funext i
  obtain ⟨n, l, d, rfl⟩ : ∃ (n : Fin 4) (l : Fin 2048) (d : Fin 1024), i = ix3 n l d := ⟨i 0, i 1, i 2, eq_ix3 i⟩
  rw [attnOut_ix3, val_main_v55_apply, val_main_v52_apply, val_main_v54_apply, val_main_v53_apply, val_main_v51_apply]
  unfold attnAt
  have e53 : idx_main_v53 (idx_main_v54 (ix3 n l d)) = ix1 d := funext fun a => Fin.ext (by match a with | ⟨0, _⟩ => rfl)
  rw [e53]
  refine congrArg (· + x6 (ix1 d)) (congrArg (x0 (ix3 n l d) + ·) (Finset.sum_congr rfl fun e _ => ?_))
  have el : lidx_main_v51 (ix3 n l d) e = ix3 n l e := funext fun a => Fin.ext (by match a with | ⟨0, _⟩ => rfl | ⟨1, _⟩ => rfl | ⟨2, _⟩ => rfl)
  have er : ridx_main_v51 (ix3 n l d) e = ix2 e d := funext fun a => Fin.ext (by match a with | ⟨0, _⟩ => rfl | ⟨1, _⟩ => rfl)
  rw [el, er, val_main_v50_apply, val_main_v49_apply]
  refine congrArg (· * x5 (ix2 e d)) (congrArg (val_main_v29 (F := Ideal) x0 x1 x2 x3 x4 (ix3 n l e) * ·) (Finset.sum_congr rfl fun j _ => ?_))
  have er49 : ridx_main_v49 (ix3 n l e) j = ix3 n j e := funext fun a => Fin.ext (by match a with | ⟨0, _⟩ => rfl | ⟨1, _⟩ => rfl | ⟨2, _⟩ => rfl)
  have el49 : lidx_main_v49 (ix3 n l e) j = ix3 n l j := funext fun a => Fin.ext (by match a with | ⟨0, _⟩ => rfl | ⟨1, _⟩ => rfl | ⟨2, _⟩ => rfl)
  rw [er49, el49, val_main_v48_apply, val_main_v47_apply, val_main_v46_apply, val_main_v45_apply, val_main_cst_4_apply,
    val_main_call1_v0_apply, val_main_call1_cst_apply, val_main_v44_apply]
  refine congrArg (· * val_main_v30 (F := Ideal) x0 x1 x2 x3 x4 (ix3 n j e)) ?_
  have hsum : (∑ s : Fin 128, val_main_v37 (F := Ideal) x0 x1 x2 x3 x4 x7 x8 (lidx_main_v44 (ix3 n l j) s)
        * val_main_v43 (F := Ideal) x0 x1 x2 x3 x4 x9 x10 (ridx_main_v44 (ix3 n l j) s))
      = ∑ s : Fin 128, val_main_v37 (F := Ideal) x0 x1 x2 x3 x4 x7 x8 (ix3 n l s)
        * val_main_v43 (F := Ideal) x0 x1 x2 x3 x4 x9 x10 (ix3 n j s) :=
    Finset.sum_congr rfl fun s _ => by
      have a1 : lidx_main_v44 (ix3 n l j) s = ix3 n l s := funext fun a => Fin.ext (by match a with | ⟨0, _⟩ => rfl | ⟨1, _⟩ => rfl | ⟨2, _⟩ => rfl)
      have a2 : ridx_main_v44 (ix3 n l j) s = ix3 n j s := funext fun a => Fin.ext (by match a with | ⟨0, _⟩ => rfl | ⟨1, _⟩ => rfl | ⟨2, _⟩ => rfl)
      rw [a1, a2]
  rw [hsum]
  rfl

end Cert.AttnTail

end
-- ==== Proof.KI.AttnArrays.lean ====
/-
  The attention region's output array as one function of the arrays the region is entered with.

  A point's blocks are restrictions of those arrays: at point t = (batch n, query tile qt, key tile kt) the query, gate and
  residual blocks hold rows 512·qt … of batch n, the key and value blocks all 2048 rows of batch n, and the body's key
  tile rows 512·kt …. The accumulator the body carries over the four key tiles of one query tile therefore ends, at row r
  and feature e, as the zero word plus four runs of 512 terms of one summand over the 2048 keys; the epilogue's two half
  products are the two halves of one sum over the 2048 features. With the laws on sums and on the scaling word this is the
  attention tail of the entry arrays, at every index of every block written back, and the blocks written back cover the array.
-/
import proofs.«152703_j41326175322889_2_alg».proof.Proof.KI.Reg1Val
import proofs.«152703_j41326175322889_2_alg».proof.Proof.KI.AttnPay
import proofs.«152703_j41326175322889_2_alg».proof.Proof.KI.AttnIdx
import proofs.«152703_j41326175322889_2_alg».proof.Proof.RefTail
import Idealize.ShloMosaic.Lib.Pipeline.Value

set_option maxRecDepth 16384

noncomputable section

open scoped BigOperators

namespace Cert.KernelIdeal.Hand

open Cert.AttnLaw Cert.AttnTail
open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem pt_lt (t : Fin cfg1.N) : t.val < 64 := lt_of_lt_of_eq t.isLt (show cfg1.N = 64 from N_1)

/-- The batch a point works on, and the first row of its query tile. -/
abbrev ptBatch (t : Fin cfg1.N) : Fin 4 := ⟨t.val / 16, by have := pt_lt t; omega⟩
abbrev ptRow (t : Fin cfg1.N) (r : Fin 512) : Fin 2048 := ⟨512 * (t.val / 4 % 4) + r.val, by have := r.isLt; omega⟩

/-! ## The blocks are restrictions of the entry arrays -/

theorem q_read (c : Dev nD) (t : Fin cfg1.N) (r : Fin 512) (s : Fin 128) :
    (iblk1 V c 0 t : Vec Ideal S1x512x128 .bf16) (ix3 0 r s) = (V c main_v2_2 : S4x2048x128.Idx → EReal) (ix3 (ptBatch t) (ptRow t r) s) := by
  obtain ⟨⟨a0, a1, a2⟩, -⟩ := attn_idx t
  show V c main_v2_2 (((cfg1.win 0).blk t).view.emb (ix3 0 r s)) = _
  refine congrArg (V c main_v2_2) (funext fun a => Fin.ext ?_)
  match a with
  | ⟨0, _⟩ => show win1_0.index t (0 : Fin 3) * 1 + 1 * 0 = t.val / 16; omega
  | ⟨1, _⟩ => show win1_0.index t (1 : Fin 3) * 512 + 1 * r.val = 512 * (t.val / 4 % 4) + r.val; omega
  | ⟨2, _⟩ => show win1_0.index t (2 : Fin 3) * 128 + 1 * s.val = s.val; omega

theorem k_read (c : Dev nD) (t : Fin cfg1.N) (j : Fin 2048) (s : Fin 128) :
    (iblk1 V c 1 t : Vec Ideal S1x2048x128 .bf16) (ix3 0 j s) = (V c main_v2_3 : S4x2048x128.Idx → EReal) (ix3 (ptBatch t) j s) := by
  obtain ⟨-, ⟨a0, a1, a2⟩, -⟩ := attn_idx t
  show V c main_v2_3 (((cfg1.win 1).blk t).view.emb (ix3 0 j s)) = _
  refine congrArg (V c main_v2_3) (funext fun a => Fin.ext ?_)
  match a with
  | ⟨0, _⟩ => show win1_1.index t (0 : Fin 3) * 1 + 1 * 0 = t.val / 16; omega
  | ⟨1, _⟩ => show win1_1.index t (1 : Fin 3) * 2048 + 1 * j.val = j.val; omega
  | ⟨2, _⟩ => show win1_1.index t (2 : Fin 3) * 128 + 1 * s.val = s.val; omega

theorem v_read (c : Dev nD) (t : Fin cfg1.N) (j : Fin 2048) (e : Fin 2048) :
    (iblk1 V c 2 t : Vec Ideal S1x2048x2048 .bf16) (ix3 0 j e) = (V c main_v2_1 : S4x2048x2048.Idx → EReal) (ix3 (ptBatch t) j e) := by
  obtain ⟨-, -, ⟨a0, a1, a2⟩, -⟩ := attn_idx t
  show V c main_v2_1 (((cfg1.win 2).blk t).view.emb (ix3 0 j e)) = _
  refine congrArg (V c main_v2_1) (funext fun a => Fin.ext ?_)
  match a with
  | ⟨0, _⟩ => show win1_2.index t (0 : Fin 3) * 1 + 1 * 0 = t.val / 16; omega
  | ⟨1, _⟩ => show win1_2.index t (1 : Fin 3) * 2048 + 1 * j.val = j.val; omega
  | ⟨2, _⟩ => show win1_2.index t (2 : Fin 3) * 2048 + 1 * e.val = e.val; omega

theorem u_read (c : Dev nD) (t : Fin cfg1.N) (r : Fin 512) (e : Fin 2048) :
    (iblk1 V c 3 t : Vec Ideal S1x512x2048 .bf16) (ix3 0 r e) = (V c main_v2_0 : S4x2048x2048.Idx → EReal) (ix3 (ptBatch t) (ptRow t r) e) := by
  obtain ⟨-, -, -, ⟨a0, a1, a2⟩, -⟩ := attn_idx t
  show V c main_v2_0 (((cfg1.win 3).blk t).view.emb (ix3 0 r e)) = _
  refine congrArg (V c main_v2_0) (funext fun a => Fin.ext ?_)
  match a with
  | ⟨0, _⟩ => show win1_3.index t (0 : Fin 3) * 1 + 1 * 0 = t.val / 16; omega
  | ⟨1, _⟩ => show win1_3.index t (1 : Fin 3) * 512 + 1 * r.val = 512 * (t.val / 4 % 4) + r.val; omega
  | ⟨2, _⟩ => show win1_3.index t (2 : Fin 3) * 2048 + 1 * e.val = e.val; omega

theorem x_read (c : Dev nD) (t : Fin cfg1.N) (r : Fin 512) (d : Fin 1024) :
    (iblk1 V c 4 t : Vec Ideal S1x512x1024 .f32) (ix3 0 r d) = (V c main_arg0 : S4x2048x1024.Idx → EReal) (ix3 (ptBatch t) (ptRow t r) d) := by
  obtain ⟨-, -, -, -, ⟨a0, a1, a2⟩, -⟩ := attn_idx t
  show V c main_arg0 (((cfg1.win 4).blk t).view.emb (ix3 0 r d)) = _
  refine congrArg (V c main_arg0) (funext fun a => Fin.ext ?_)
  match a with
  | ⟨0, _⟩ => show win1_4.index t (0 : Fin 3) * 1 + 1 * 0 = t.val / 16; omega
  | ⟨1, _⟩ => show win1_4.index t (1 : Fin 3) * 512 + 1 * r.val = 512 * (t.val / 4 % 4) + r.val; omega
  | ⟨2, _⟩ => show win1_4.index t (2 : Fin 3) * 1024 + 1 * d.val = d.val; omega

theorem w_read (c : Dev nD) (t : Fin cfg1.N) (e : Fin 2048) (d : Fin 1024) :
    (iblk1 V c 5 t : Vec Ideal S2048x1024 .bf16) (ix2 e d) = (V c main_v1 : S2048x1024.Idx → EReal) (ix2 e d) := by
  obtain ⟨-, -, -, -, -, ⟨a0, a1⟩, -⟩ := attn_idx t
  show V c main_v1 (((cfg1.win 5).blk t).view.emb (ix2 e d)) = _
  refine congrArg (V c main_v1) (funext fun a => Fin.ext ?_)
  match a with
  | ⟨0, _⟩ => show win1_5.index t (0 : Fin 2) * 2048 + 1 * e.val = e.val; omega
  | ⟨1, _⟩ => show win1_5.index t (1 : Fin 2) * 1024 + 1 * d.val = d.val; omega

theorem b_read (c : Dev nD) (t : Fin cfg1.N) (d : Fin 1024) :
    (iblk1 V c 6 t : Vec Ideal S1024 .f32) (ix1 d) = (V c main_arg6 : S1024.Idx → EReal) (ix1 d) := by
  obtain ⟨-, -, -, -, -, -, a0, -⟩ := attn_idx t
  show V c main_arg6 (((cfg1.win 6).blk t).view.emb (ix1 d)) = _
  refine congrArg (V c main_arg6) (funext fun a => Fin.ext ?_)
  match a with
  | ⟨0, _⟩ => show win1_6.index t (0 : Fin 1) * 1024 + 1 * d.val = d.val; omega

/-- The key tile at (0, j, s): the key array at row 512·kt + j of the point's batch. -/
theorem ktile_read (c : Dev nD) (t : Fin cfg1.N) (j : Fin 512) (s : Fin 128) :
    ktile1 V c t (ix3 0 j s)
      = (V c main_v2_3 : S4x2048x128.Idx → EReal) (ix3 (ptBatch t) ⟨512 * (t.val % 4) + j.val, by have := j.isLt; omega⟩ s) := by
  obtain ⟨-, -, -, -, -, -, -, -, ⟨o0, o1, o2⟩, -⟩ := attn_idx t
  refine Eq.trans ?_ (k_read V c t ⟨512 * (t.val % 4) + j.val, by have := j.isLt; omega⟩ s)
  unfold ktile1
  show (iblk1 V c 1 t : Vec Ideal S1x2048x128 .bf16) ((Rect.unit (s := S1x2048x128) (k1_off1 (grid1.coords t)) S1x512x128.size (k1_off1_inb (grid1.coords t))).emb (ix3 0 j s)) = _
  refine congrArg (iblk1 V c 1 t : Vec Ideal S1x2048x128 .bf16) (funext fun a => Fin.ext ?_)
  match a with
  | ⟨0, _⟩ => show k1_off1 (grid1.coords t) 0 + 1 * 0 = 0; omega
  | ⟨1, _⟩ => show k1_off1 (grid1.coords t) 1 + 1 * j.val = 512 * (t.val % 4) + j.val; omega
  | ⟨2, _⟩ => show k1_off1 (grid1.coords t) 2 + 1 * s.val = s.val; omega

/-- The value tile at (0, j, e). -/
theorem vtile_read (c : Dev nD) (t : Fin cfg1.N) (j : Fin 512) (e : Fin 2048) :
    vtile1 V c t (ix3 0 j e)
      = (V c main_v2_1 : S4x2048x2048.Idx → EReal) (ix3 (ptBatch t) ⟨512 * (t.val % 4) + j.val, by have := j.isLt; omega⟩ e) := by
  obtain ⟨-, -, -, -, -, -, -, -, -, ⟨o0, o1, o2⟩⟩ := attn_idx t
  refine Eq.trans ?_ (v_read V c t ⟨512 * (t.val % 4) + j.val, by have := j.isLt; omega⟩ e)
  unfold vtile1
  show (iblk1 V c 2 t : Vec Ideal S1x2048x2048 .bf16) ((Rect.unit (s := S1x2048x2048) (k1_off2 (grid1.coords t)) S1x512x2048.size (k1_off2_inb (grid1.coords t))).emb (ix3 0 j e)) = _
  refine congrArg (iblk1 V c 2 t : Vec Ideal S1x2048x2048 .bf16) (funext fun a => Fin.ext ?_)
  match a with
  | ⟨0, _⟩ => show k1_off2 (grid1.coords t) 0 + 1 * 0 = 0; omega
  | ⟨1, _⟩ => show k1_off2 (grid1.coords t) 1 + 1 * j.val = 512 * (t.val % 4) + j.val; omega
  | ⟨2, _⟩ => show k1_off2 (grid1.coords t) 2 + 1 * e.val = e.val; omega

/-! ## The accumulator after a query tile's four key tiles -/

/-- One key's term of the accumulator at row l of batch n and feature e: the key's score against the row, times its value. -/
def keyTermOf (Q K : S4x2048x128.Idx → EReal) (Vv : S4x2048x2048.Idx → EReal) (n : Fin 4) (l : Fin 2048) (e : Fin 2048) (j : Fin 2048) : EReal :=
  score (∑ s : Fin 128, Q (ix3 n l s) * K (ix3 n j s)) * Vv (ix3 n j e)

/-- The same over the arrays the region is entered with. -/
abbrev keyTerm (c : Dev nD) : Fin 4 → Fin 2048 → Fin 2048 → Fin 2048 → EReal :=
  keyTermOf (V c main_v2_2) (V c main_v2_3) (V c main_v2_1)

/-- One step: after point t the accumulator at (r, e) is what it held plus the 512 terms of the point's key tile. -/
theorem acc_tile (c : Dev nD) (t : Fin cfg1.N) (acc : Vec Ideal S512x2048 .f32) (r : Fin 512) (e : Fin 2048) :
    (k1_pay2 (F := Ideal) (ktile1 V c t) (vtile1 V c t) (iblk1 V c 0 t) acc (ix2 r e) : EReal)
      = (acc (ix2 r e) : EReal)
        + ∑ j : Fin 512, keyTerm V c (ptBatch t) (ptRow t r) e ⟨512 * (t.val % 4) + j.val, by have := j.isLt; omega⟩ := by
  refine (acc_step (ktile1 V c t) (vtile1 V c t) (iblk1 V c 0 t) acc r e).trans
    (congrArg ((acc (ix2 r e) : EReal) + ·) (Finset.sum_congr rfl fun j _ => ?_))
  unfold keyTerm keyTermOf
  rw [vtile_read V c t j e]
  refine congrArg (· * _) (congrArg score (Finset.sum_congr rfl fun s _ => ?_))
  rw [q_read V c t r s, ktile_read V c t j s]

/-- The zero fill reads the zero word everywhere. -/
theorem zero_fill_apply (r : Fin 512) (e : Fin 2048) : (k1_pay1 (F := Ideal) (ix2 r e) : EReal) = Ideal.ofBits .f32 0x00000000#32 := by
  unfold k1_pay1
  exact congrFun (shapeCast_self _ _) _

/-- Four runs of 512 terms, the k-th starting at 512·k, added one after the other onto the zero word: the whole sum. -/
theorem four_runs (f : Fin 2048 → EReal) :
    (((Ideal.ofBits .f32 0x00000000#32 + ∑ j : Fin 512, f ⟨512 * 0 + j.val, by have := j.isLt; omega⟩)
        + ∑ j : Fin 512, f ⟨512 * 1 + j.val, by have := j.isLt; omega⟩)
        + ∑ j : Fin 512, f ⟨512 * 2 + j.val, by have := j.isLt; omega⟩)
        + ∑ j : Fin 512, f ⟨512 * 3 + j.val, by have := j.isLt; omega⟩
      = ∑ j : Fin 2048, f j := by
  refine Eq.trans ?_ (sum_four_tiles f)
  have e0 : (∑ j : Fin 512, f ⟨512 * 0 + j.val, by have := j.isLt; omega⟩) = ∑ j : Fin 512, f ⟨j.val, by have := j.isLt; omega⟩ :=
    Finset.sum_congr rfl fun j _ => congrArg f (Fin.ext (by show 512 * 0 + j.val = j.val; omega))
  have e1 : (∑ j : Fin 512, f ⟨512 * 1 + j.val, by have := j.isLt; omega⟩) = ∑ j : Fin 512, f ⟨512 + j.val, by have := j.isLt; omega⟩ :=
    Finset.sum_congr rfl fun j _ => congrArg f (Fin.ext (by show 512 * 1 + j.val = 512 + j.val; omega))
  have e2 : (∑ j : Fin 512, f ⟨512 * 2 + j.val, by have := j.isLt; omega⟩) = ∑ j : Fin 512, f ⟨1024 + j.val, by have := j.isLt; omega⟩ :=
    Finset.sum_congr rfl fun j _ => congrArg f (Fin.ext (by show 512 * 2 + j.val = 1024 + j.val; omega))
  have e3 : (∑ j : Fin 512, f ⟨512 * 3 + j.val, by have := j.isLt; omega⟩) = ∑ j : Fin 512, f ⟨1536 + j.val, by have := j.isLt; omega⟩ :=
    Finset.sum_congr rfl fun j _ => congrArg f (Fin.ext (by show 512 * 3 + j.val = 1536 + j.val; omega))
  rw [e0, e1, e2, e3]

/-- A run of a tile's terms, with the point's own batch, row and tile number replaced by given equal ones. -/
theorem run_congr (c : Dev nD) (t t' : Fin cfg1.N) (k : ℕ) (hk : t'.val % 4 = k) (hk4 : k < 4) (hb : t'.val / 16 = t.val / 16)
    (hq : t'.val / 4 % 4 = t.val / 4 % 4) (r : Fin 512) (e : Fin 2048) :
    (∑ j : Fin 512, keyTerm V c (ptBatch t') (ptRow t' r) e ⟨512 * (t'.val % 4) + j.val, by have := j.isLt; omega⟩)
      = ∑ j : Fin 512, keyTerm V c (ptBatch t) (ptRow t r) e ⟨512 * k + j.val, by have := j.isLt; omega⟩ := by
  have eb : ptBatch t' = ptBatch t := Fin.ext hb
  have er : ptRow t' r = ptRow t r := Fin.ext (by show 512 * (t'.val / 4 % 4) + r.val = 512 * (t.val / 4 % 4) + r.val; rw [hq])
  rw [eb, er]
  exact Finset.sum_congr rfl fun j _ => congrArg (keyTerm V c (ptBatch t) (ptRow t r) e) (Fin.ext (by show 512 * (t'.val % 4) + j.val = 512 * k + j.val; rw [hk]))

/-- After the last key tile of a query tile the accumulator at (r, e) is the sum of the terms of all 2048 keys. -/
theorem acc_final (c : Dev nD) (t : Fin cfg1.N) (h3 : t.val % 4 = 3) (r : Fin 512) (e : Fin 2048) :
    ((outsAt1 V c t.val t.isLt).2 (ix2 r e) : EReal) = ∑ j : Fin 2048, keyTerm V c (ptBatch t) (ptRow t r) e j := by
  have hlt := pt_lt t
  let t1 : Fin cfg1.N := ⟨t.val - 1, Nat.lt_of_le_of_lt (Nat.sub_le _ _) t.isLt⟩
  let t2 : Fin cfg1.N := ⟨t1.val - 1, Nat.lt_of_le_of_lt (Nat.sub_le _ _) t1.isLt⟩
  let t3 : Fin cfg1.N := ⟨t2.val - 1, Nat.lt_of_le_of_lt (Nat.sub_le _ _) t2.isLt⟩
  have v1 : t1.val = t.val - 1 := rfl
  have v2 : t2.val = t.val - 1 - 1 := rfl
  have v3 : t3.val = t.val - 1 - 1 - 1 := rfl
  have s3 := scr1_BC V c t (by omega)
  have s2 := scr1_BC V c t1 (by omega)
  have s1 := scr1_BC V c t2 (by omega)
  have s0 := scr1_A V c t3 (by omega)
  have a3 := acc_tile V c t (outsAt1 V c t1.val t1.isLt).2 r e
  have a2 := acc_tile V c t1 (outsAt1 V c t2.val t2.isLt).2 r e
  have a1 := acc_tile V c t2 (outsAt1 V c t3.val t3.isLt).2 r e
  have a0 := acc_tile V c t3 (k1_pay1 (F := Ideal)) r e
  rw [← s3] at a3; rw [← s2] at a2; rw [← s1] at a1; rw [← s0, zero_fill_apply] at a0
  rw [a3, a2, a1, a0,
    run_congr V c t t3 0 (by omega) (by omega) (by omega) (by omega) r e,
    run_congr V c t t2 1 (by omega) (by omega) (by omega) (by omega) r e,
    run_congr V c t t1 2 (by omega) (by omega) (by omega) (by omega) r e,
    run_congr V c t t 3 h3 (by omega) rfl rfl r e]
  exact four_runs (keyTerm V c (ptBatch t) (ptRow t r) e)

/-! ## The epilogue at a point that ends a query tile -/

theorem u_lo (c : Dev nD) (t : Fin cfg1.N) (r : Fin 512) (e : Fin 1024) :
    View.ld (iblk1 V c 3 t : Vec Ideal S1x512x2048 .bf16) (Rect.unit (s := S1x512x2048) ![0, 0, 0] S1x512x1024.size inb_S1x512x2048_S1x512x1024_0_0_0) (ix3 0 r e)
      = (V c main_v2_0 : S4x2048x2048.Idx → EReal) (ix3 (ptBatch t) (ptRow t r) ⟨e.val, by have := e.isLt; omega⟩) := by
  refine Eq.trans ?_ (u_read V c t r ⟨e.val, by have := e.isLt; omega⟩)
  show (iblk1 V c 3 t : Vec Ideal S1x512x2048 .bf16) ((Rect.unit (s := S1x512x2048) ![0, 0, 0] S1x512x1024.size inb_S1x512x2048_S1x512x1024_0_0_0).emb (ix3 0 r e)) = _
  refine congrArg (iblk1 V c 3 t : Vec Ideal S1x512x2048 .bf16) (funext fun a => Fin.ext ?_)
  match a with
  | ⟨0, _⟩ => show 0 + 1 * 0 = 0; rfl
  | ⟨1, _⟩ => show 0 + 1 * r.val = r.val; omega
  | ⟨2, _⟩ => show 0 + 1 * e.val = e.val; omega

theorem u_hi (c : Dev nD) (t : Fin cfg1.N) (r : Fin 512) (e : Fin 1024) :
    View.ld (iblk1 V c 3 t : Vec Ideal S1x512x2048 .bf16) (Rect.unit (s := S1x512x2048) ![0, 0, 1024] S1x512x1024.size inb_S1x512x2048_S1x512x1024_0_0_1024) (ix3 0 r e)
      = (V c main_v2_0 : S4x2048x2048.Idx → EReal) (ix3 (ptBatch t) (ptRow t r) ⟨1024 + e.val, by have := e.isLt; omega⟩) := by
  refine Eq.trans ?_ (u_read V c t r ⟨1024 + e.val, by have := e.isLt; omega⟩)
  show (iblk1 V c 3 t : Vec Ideal S1x512x2048 .bf16) ((Rect.unit (s := S1x512x2048) ![0, 0, 1024] S1x512x1024.size inb_S1x512x2048_S1x512x1024_0_0_1024).emb (ix3 0 r e)) = _
  refine congrArg (iblk1 V c 3 t : Vec Ideal S1x512x2048 .bf16) (funext fun a => Fin.ext ?_)
  match a with
  | ⟨0, _⟩ => show 0 + 1 * 0 = 0; rfl
  | ⟨1, _⟩ => show 0 + 1 * r.val = r.val; omega
  | ⟨2, _⟩ => show 1024 + 1 * e.val = 1024 + e.val; omega

theorem a_lo (S : Vec Ideal S512x2048 .f32) (r : Fin 512) (e : Fin 1024) :
    View.ld S (Rect.unit (s := S512x2048) ![0, 0] S512x1024.size inb_S512x2048_S512x1024_0_0) (ix2 r e) = S (ix2 r ⟨e.val, by have := e.isLt; omega⟩) := by
  show S ((Rect.unit (s := S512x2048) ![0, 0] S512x1024.size inb_S512x2048_S512x1024_0_0).emb (ix2 r e)) = _
  refine congrArg S (funext fun a => Fin.ext ?_)
  match a with
  | ⟨0, _⟩ => show 0 + 1 * r.val = r.val; omega
  | ⟨1, _⟩ => show 0 + 1 * e.val = e.val; omega

theorem a_hi (S : Vec Ideal S512x2048 .f32) (r : Fin 512) (e : Fin 1024) :
    View.ld S (Rect.unit (s := S512x2048) ![0, 1024] S512x1024.size inb_S512x2048_S512x1024_0_1024) (ix2 r e) = S (ix2 r ⟨1024 + e.val, by have := e.isLt; omega⟩) := by
  show S ((Rect.unit (s := S512x2048) ![0, 1024] S512x1024.size inb_S512x2048_S512x1024_0_1024).emb (ix2 r e)) = _
  refine congrArg S (funext fun a => Fin.ext ?_)
  match a with
  | ⟨0, _⟩ => show 0 + 1 * r.val = r.val; omega
  | ⟨1, _⟩ => show 1024 + 1 * e.val = 1024 + e.val; omega

theorem w_lo (c : Dev nD) (t : Fin cfg1.N) (e : Fin 1024) (d : Fin 1024) :
    View.ld (iblk1 V c 5 t : Vec Ideal S2048x1024 .bf16) (Rect.unit (s := S2048x1024) ![0, 0] S1024x1024.size inb_S2048x1024_S1024x1024_0_0) (ix2 e d)
      = (V c main_v1 : S2048x1024.Idx → EReal) (ix2 ⟨e.val, by have := e.isLt; omega⟩ d) := by
  refine Eq.trans ?_ (w_read V c t ⟨e.val, by have := e.isLt; omega⟩ d)
  show (iblk1 V c 5 t : Vec Ideal S2048x1024 .bf16) ((Rect.unit (s := S2048x1024) ![0, 0] S1024x1024.size inb_S2048x1024_S1024x1024_0_0).emb (ix2 e d)) = _
  refine congrArg (iblk1 V c 5 t : Vec Ideal S2048x1024 .bf16) (funext fun a => Fin.ext ?_)
  match a with
  | ⟨0, _⟩ => show 0 + 1 * e.val = e.val; omega
  | ⟨1, _⟩ => show 0 + 1 * d.val = d.val; omega

theorem w_hi (c : Dev nD) (t : Fin cfg1.N) (e : Fin 1024) (d : Fin 1024) :
    View.ld (iblk1 V c 5 t : Vec Ideal S2048x1024 .bf16) (Rect.unit (s := S2048x1024) ![1024, 0] S1024x1024.size inb_S2048x1024_S1024x1024_1024_0) (ix2 e d)
      = (V c main_v1 : S2048x1024.Idx → EReal) (ix2 ⟨1024 + e.val, by have := e.isLt; omega⟩ d) := by
  refine Eq.trans ?_ (w_read V c t ⟨1024 + e.val, by have := e.isLt; omega⟩ d)
  show (iblk1 V c 5 t : Vec Ideal S2048x1024 .bf16) ((Rect.unit (s := S2048x1024) ![1024, 0] S1024x1024.size inb_S2048x1024_S1024x1024_1024_0).emb (ix2 e d)) = _
  refine congrArg (iblk1 V c 5 t : Vec Ideal S2048x1024 .bf16) (funext fun a => Fin.ext ?_)
  match a with
  | ⟨0, _⟩ => show 1024 + 1 * e.val = 1024 + e.val; omega
  | ⟨1, _⟩ => show 0 + 1 * d.val = d.val; omega

/-- The epilogue's shape: two half sums, added one after the other onto the zero word between a residual and a bias, are
    one sum over the whole axis when their terms are the two halves of one family. -/
theorem halves_law (xv bv : EReal) (f : Fin 2048 → EReal) (lo hi : Fin 1024 → EReal)
    (hlo : ∀ e : Fin 1024, lo e = f ⟨e.val, by have := e.isLt; omega⟩)
    (hhi : ∀ e : Fin 1024, hi e = f ⟨1024 + e.val, by have := e.isLt; omega⟩) :
    (xv + ((Ideal.ofBits .f32 0x00000000#32 + ∑ e : Fin 1024, lo e) + ∑ e : Fin 1024, hi e)) + bv = (xv + ∑ e' : Fin 2048, f e') + bv := by
  rw [← sum_two_halves f, funext hlo, funext hhi]

/-- The gated row's term at feature e' against output column d, as the attention tail spells it. -/
def gateTermOf (U : S4x2048x2048.Idx → EReal) (Wo : S2048x1024.Idx → EReal) (acc : Fin 2048 → EReal)
    (n : Fin 4) (l : Fin 2048) (d : Fin 1024) (e' : Fin 2048) : EReal :=
  (U (ix3 n l e') * acc e') * Wo (ix2 e' d)

/-- The same over the arrays the region is entered with, the accumulator the sum over all keys. -/
abbrev gateTerm (c : Dev nD) (n : Fin 4) (l : Fin 2048) (d : Fin 1024) : Fin 2048 → EReal :=
  gateTermOf (V c main_v2_0) (V c main_v1) (fun e' => ∑ j : Fin 2048, keyTerm V c n l e' j) n l d

/-- The output block at a point that ends a query tile, at (0, r, d): the attention tail at the point's batch and row. -/
theorem attn_block (c : Dev nD) (t : Fin cfg1.N) (h3 : t.val % 4 = 3) (r : Fin 512) (d : Fin 1024) :
    ((outsAt1 V c t.val t.isLt).1 (ix3 0 r d) : EReal)
      = attnAt (V c main_v2_2 : S4x2048x128.Idx → EReal) (V c main_v2_3 : S4x2048x128.Idx → EReal) (V c main_v2_1 : S4x2048x2048.Idx → EReal) (V c main_v2_0 : S4x2048x2048.Idx → EReal) (V c main_arg0 : S4x2048x1024.Idx → EReal) (V c main_v1 : S2048x1024.Idx → EReal) (V c main_arg6 : S1024.Idx → EReal) (ptBatch t) (ptRow t r) d := by
  rw [out1_C V c t h3]
  refine (epilogue_apply _ _ _ _ _ _ _ _ r d).trans ?_
  rw [x_read V c t r d, b_read V c t d]
  refine (halves_law _ _ (gateTerm V c (ptBatch t) (ptRow t r) d) _ _ (fun e => ?_) (fun e => ?_)).trans ?_
  · show _ * _ * _ = _
    rw [u_lo V c t r e, a_lo _ r e, w_lo V c t e d, acc_final V c t h3 r _]
    rfl
  · show _ * _ * _ = _
    rw [u_hi V c t r e, a_hi _ r e, w_hi V c t e d, acc_final V c t h3 r _]
    rfl
  · simp only [attnAt, gateTerm, gateTermOf, keyTerm, keyTermOf, score_eq_refScore]

/-- The same at any index of the block. -/
theorem attn_block_idx (c : Dev nD) (t : Fin cfg1.N) (h3 : t.val % 4 = 3) (y : S1x512x1024.Idx) :
    ((outsAt1 V c t.val t.isLt).1 y : EReal)
      = attnAt (V c main_v2_2 : S4x2048x128.Idx → EReal) (V c main_v2_3 : S4x2048x128.Idx → EReal) (V c main_v2_1 : S4x2048x2048.Idx → EReal) (V c main_v2_0 : S4x2048x2048.Idx → EReal) (V c main_arg0 : S4x2048x1024.Idx → EReal) (V c main_v1 : S2048x1024.Idx → EReal) (V c main_arg6 : S1024.Idx → EReal) (ptBatch t) (ptRow t ⟨(y 1).val, (y 1).isLt⟩) ⟨(y 2).val, (y 2).isLt⟩ := by
  obtain ⟨y0, r, d, rfl⟩ : ∃ (y0 : Fin 1) (r : Fin 512) (d : Fin 1024), y = ix3 y0 r d := ⟨y 0, y 1, y 2, eq_ix3 y⟩
  have h0 : y0 = 0 := Subsingleton.elim _ _
  subst h0
  exact attn_block V c t h3 r d

/-! ## From the blocks written back to the array -/

/-- What a point that writes back writes is block t of the attention tail of the entry arrays. -/
theorem attn_flushed (c : Dev nD) (t : Fin cfg1.N) (hf : (cfg1.win 7).flush t = true) :
    (dat1 V c).flushed 7 t = ((cfg1.win 7).blk t).view.read (Elt Ideal) (attnOut (V c main_v2_2 : S4x2048x128.Idx → EReal) (V c main_v2_3 : S4x2048x128.Idx → EReal) (V c main_v2_1 : S4x2048x2048.Idx → EReal) (V c main_v2_0 : S4x2048x2048.Idx → EReal) (V c main_arg0 : S4x2048x1024.Idx → EReal) (V c main_v1 : S2048x1024.Idx → EReal) (V c main_arg6 : S1024.Idx → EReal)) := by
  have h3 : t.val % 4 = 3 := (flush1_7 t).mp hf
  obtain ⟨-, -, -, -, -, -, -, ⟨o0, o1, o2⟩, -⟩ := attn_idx t
  show (cfg1.win 7).cut (grid1.coords t) ((dat1 V c).after 7 t) = _
  rw [after1_7]
  funext y
  refine (attn_block_idx V c t h3 y).trans ?_
  show _ = attnOut (V c main_v2_2 : S4x2048x128.Idx → EReal) (V c main_v2_3 : S4x2048x128.Idx → EReal) (V c main_v2_1 : S4x2048x2048.Idx → EReal) (V c main_v2_0 : S4x2048x2048.Idx → EReal) (V c main_arg0 : S4x2048x1024.Idx → EReal) (V c main_v1 : S2048x1024.Idx → EReal) (V c main_arg6 : S1024.Idx → EReal) (((cfg1.win 7).blk t).view.emb y)
  rw [← attnOut_ix3]
  refine congrArg (attnOut (V c main_v2_2 : S4x2048x128.Idx → EReal) (V c main_v2_3 : S4x2048x128.Idx → EReal) (V c main_v2_1 : S4x2048x2048.Idx → EReal) (V c main_v2_0 : S4x2048x2048.Idx → EReal) (V c main_arg0 : S4x2048x1024.Idx → EReal) (V c main_v1 : S2048x1024.Idx → EReal) (V c main_arg6 : S1024.Idx → EReal)) (funext fun a => Fin.ext ?_)
  match a with
  | ⟨0, _⟩ => show t.val / 16 = win1_7.index t (0 : Fin 3) * 1 + 1 * (y 0).val; have : (y 0).val < 1 := (y 0).isLt; omega
  | ⟨1, _⟩ => show 512 * (t.val / 4 % 4) + (y 1).val = win1_7.index t (1 : Fin 3) * 512 + 1 * (y 1).val; omega
  | ⟨2, _⟩ => show (y 2).val = win1_7.index t (2 : Fin 3) * 1024 + 1 * (y 2).val; omega

/-- An index of the result array is in point t's output block iff each coordinate is in the block's range. -/
theorem mem_out_blk (t : Fin cfg1.N) (i : S4x2048x1024.Idx) :
    i ∈ ((cfg1.win 7).blk t).view.set ↔ ∀ a : Fin 3, win1_7.index t a * S1x512x1024.size a ≤ (i a).val ∧ (i a).val < win1_7.index t a * S1x512x1024.size a + S1x512x1024.size a := by
  show i ∈ ((View.whole main_v3).slice (win1_7.rect t)).set ↔ _
  rw [View.set_slice_whole, Rect.mem_set_unit]
  exact Iff.rfl

/-- Every index of the result array is in the block of the point that ends its batch's and row's query tile. -/
theorem attn_cover (i : S4x2048x1024.Idx) : ∃ t : Fin cfg1.N, (cfg1.win 7).flush t = true ∧ i ∈ ((cfg1.win 7).blk t).view.set := by
  have hi0 : (i 0).val < 4 := (i 0).isLt
  have hi1 : (i 1).val < 2048 := (i 1).isLt
  have hi2 : (i 2).val < 1024 := (i 2).isLt
  obtain ⟨t, h3, hb, hq⟩ := attn_onto ⟨(i 0).val, hi0⟩ ⟨(i 1).val / 512, by omega⟩
  obtain ⟨-, -, -, -, -, -, -, ⟨o0, o1, o2⟩, -⟩ := attn_idx t
  have hb' : t.val / 16 = (i 0).val := hb
  have hq' : t.val / 4 % 4 = (i 1).val / 512 := hq
  refine ⟨t, (flush1_7 t).mpr h3, ?_⟩
  rw [mem_out_blk]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 512 ≤ (i 1).val ∧ (i 1).val < win1_7.index t (1 : Fin 3) * 512 + 512; omega
  | ⟨2, _⟩ => show win1_7.index t (2 : Fin 3) * 1024 ≤ (i 2).val ∧ (i 2).val < win1_7.index t (2 : Fin 3) * 1024 + 1024; omega

/-- THE RESULT ARRAY after the region: the attention tail of the arrays the region was entered with. -/
theorem attn_final (c : Dev nD) :
    (dat1 V c).arrAt 7 cfg1.N = attnOut (V c main_v2_2 : S4x2048x128.Idx → EReal) (V c main_v2_3 : S4x2048x128.Idx → EReal) (V c main_v2_1 : S4x2048x2048.Idx → EReal) (V c main_v2_0 : S4x2048x2048.Idx → EReal) (V c main_arg0 : S4x2048x1024.Idx → EReal) (V c main_v1 : S2048x1024.Idx → EReal) (V c main_arg6 : S1024.Idx → EReal) :=
  (dat1 V c).arrAt_eq_of_cover 7 _ (fun t hf => attn_flushed V c t hf) attn_cover

end Cert.KernelIdeal.Hand

end
-- ==== Proof.KI.ProjIdx.lean ====
/-
  Where the projection region's windows sit at each of its 32 grid points. Point t is (batch, row tile) = (t / 8, t mod 8):
  the x block and the four output blocks are at (batch, row tile, 0); every parameter block (gain, bias, the weight matrix,
  its bias, the four affine vectors) is the whole array, at the origin.
-/
import proofs.«152703_j41326175322889_2_alg».proof.Proof.Gen.KernelIdeal.Launch
import proofs.«152703_j41326175322889_2_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe

theorem proj_idx : ∀ t : Fin cfg0.N,
    (win0_0.index t (0 : Fin 3) = t.val / 8 ∧ win0_0.index t (1 : Fin 3) = t.val % 8 ∧ win0_0.index t (2 : Fin 3) = 0)
    ∧ win0_1.index t (0 : Fin 1) = 0 ∧ win0_2.index t (0 : Fin 1) = 0
    ∧ (win0_3.index t (0 : Fin 2) = 0 ∧ win0_3.index t (1 : Fin 2) = 0)
    ∧ win0_4.index t (0 : Fin 1) = 0 ∧ win0_5.index t (0 : Fin 1) = 0 ∧ win0_6.index t (0 : Fin 1) = 0 ∧ win0_7.index t (0 : Fin 1) = 0 ∧ win0_8.index t (0 : Fin 1) = 0
    ∧ (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0)
    ∧ (win0_11.index t (0 : Fin 3) = t.val / 8 ∧ win0_11.index t (1 : Fin 3) = t.val % 8 ∧ win0_11.index t (2 : Fin 3) = 0)
    ∧ (win0_12.index t (0 : Fin 3) = t.val / 8 ∧ win0_12.index t (1 : Fin 3) = t.val % 8 ∧ win0_12.index t (2 : Fin 3) = 0) :=
  (by decide +kernel : ∀ t : Fin grid0.N, _)

/-- Every (batch, row tile) is some point's. -/
theorem proj_onto : ∀ (n : Fin 4) (lt : Fin 8), ∃ t : Fin cfg0.N, t.val / 8 = n.val ∧ t.val % 8 = lt.val :=
  (by decide +kernel : ∀ (n : Fin 4) (lt : Fin 8), ∃ t : Fin grid0.N, t.val / 8 = n.val ∧ t.val % 8 = lt.val)

end Cert.KernelIdeal.Hand

end
-- ==== Proof.KI.ProjSpec.lean ====
/-
  One row of the projection, as a function of the row.

  A row x of 1024 numbers is normalised (mean, centred values, variance as the mean of the squared centred values, the
  reciprocal square root of the variance plus a small constant), scaled and shifted entrywise by g and bb, multiplied
  into the 1024 x 4224 matrix W, shifted by bin, and passed through z * logistic z.  Everything is read on the extended
  reals, where each operation is the exact one; the three float constants stay the words they are printed as.

  Besides the row function, three small facts about values read at an index given by coordinates: a vector viewed as a
  column, a column laid along every column of a matrix, and the sum of a matrix over its columns at a row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand.Proj

open Idealize.ShloMosaic Idealize.ShloMosaic.ValueIdx

/-! ## Values read at an index -/

section Layout
variable {α : Type}

/-- A vector [a] viewed as the column [a, 1] reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] laid along every column of an [a, b] matrix reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an a x b matrix over its columns (axis 1), at row r, on the extended reals. -/
theorem rowsum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

end Layout

/-! ## The row function -/

/-- The f32 word of 1024, the row length the two means divide by. -/
abbrev w1024 : EReal := Ideal.ofBits .f32 0x44800000#32
/-- The f32 word of the small constant added to the variance. -/
abbrev wEps : EReal := Ideal.ofBits .f32 0x3727C5AC#32

section Row
variable (x : Fin 1024 → EReal) (g bb : (⟨1, ![1024]⟩ : Shape).Idx → EReal)
  (W : (⟨2, ![1024, 4224]⟩ : Shape).Idx → EReal) (bin : (⟨1, ![4224]⟩ : Shape).Idx → EReal)

/-- The row's mean. -/
def mean : EReal := Ideal.div (∑ d : Fin 1024, x d) w1024
/-- The row's entries less its mean. -/
def cen (d : Fin 1024) : EReal := x d - mean x
/-- The mean of the squared centred entries. -/
def var : EReal := Ideal.div (∑ d : Fin 1024, cen x d * cen x d) w1024
/-- The reciprocal square root of the variance plus the small constant. -/
def rstd : EReal := Ideal.rsqrt (var x + wEps)
/-- The normalised row, scaled by g and shifted by bb. -/
def normed (d : Fin 1024) : EReal := cen x d * rstd x * g (ix1 d) + bb (ix1 d)
/-- Column f of the normalised row times W, shifted by bin. -/
def pre (f : Fin 4224) : EReal := (∑ d : Fin 1024, normed x g bb d * W (ix2 d f)) + bin (ix1 f)
/-- z * logistic z of that. -/
def act (f : Fin 4224) : EReal := pre x g bb W bin f * Ideal.logistic (pre x g bb W bin f)

end Row

/-- The row function depends on the row and on W only through their entries. -/
theorem act_congr {x x' : Fin 1024 → EReal} (g bb : (⟨1, ![1024]⟩ : Shape).Idx → EReal)
    {W W' : (⟨2, ![1024, 4224]⟩ : Shape).Idx → EReal} (bin : (⟨1, ![4224]⟩ : Shape).Idx → EReal)
    (hx : ∀ d, x d = x' d) (hW : ∀ i, W i = W' i) (f : Fin 4224) : act x g bb W bin f = act x' g bb W' bin f := by
  obtain rfl : x = x' := funext hx
  obtain rfl : W = W' := funext hW
  rfl

end Cert.KernelIdeal.Hand.Proj

end
-- ==== Proof.KI.ProjKer.lean ====
/-
  The first kernel's arithmetic on one 256-row tile, read at one row.

  The kernel normalises each of the tile's 256 rows over the 1024 columns, scales and shifts it, multiplies it into the
  whole 1024 x 4224 matrix with a zero accumulator, adds the bias and applies z * logistic z; the four stored values
  are column slices of that 256 x 4224 matrix (u, v) and a scale and shift of its last 128 columns (q, k).  Here the
  256 x 4224 matrix at (r, f) is the row function of row r of the tile, and the four stored values follow.
-/
import proofs.«152703_j41326175322889_2_alg».proof.Proof.Gen.KernelIdeal.Skeleton
import proofs.«152703_j41326175322889_2_alg».proof.Proof.KI.ProjSpec
import proofs.«152703_j41326175322889_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand.ProjKer

open Idealize.ShloMosaic Idealize.ShloMosaic.ValueIdx
open Cert.KernelIdeal Cert.KernelIdeal.Gen
open Cert.KernelIdeal.Hand

section Pointwise
variable {s : Shape} {φ : FTy}
/-- The reciprocal square root of a vector at an index. -/
theorem rsqrt_apply (a : FVec Ideal s φ) (i : s.Idx) : rsqrt a i = Ideal.rsqrt (a i) := rfl
/-- The logistic function of a vector at an index. -/
theorem logistic_apply (a : FVec Ideal s φ) (i : s.Idx) : logistic a i = Ideal.logistic (a i) := rfl
/-- A scalar constant is the extended real its word denotes. -/
theorem scalar_ofBits (b : BitVec φ.bits) : Scalar.ofBits (F := Ideal) φ b = Ideal.ofBits φ b := rfl
end Pointwise

/-- The sum of an a x b matrix of f32 values over its columns, from the zero word, at row r. -/
theorem rowsum0_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ c : Fin b, src (ix2 r c) :=
  Proj.rowsum_apply src 0x00000000#32 h hφ hacc r

/-- The kernel's matrix product has the plain dimension numbers. -/
theorem dot_plain : dot_S256x1024_S1024x4224_S256x4224_1_0_0_1_n_n = DotDims.plain 256 1024 4224 := rfl

variable (x0 : Vec Ideal S1x256x1024 .f32) (g bb : Vec Ideal S1024 .f32) (x3 : Vec Ideal S1024x4224 .bf16)
  (bin : Vec Ideal S4224 .f32)

/-- Row r of the tile. -/
abbrev row (r : Fin 256) : Fin 1024 → EReal := fun d => x0 (ix3 (0 : Fin 1) r d)

/-- The 256 x 4224 matrix at (r, f) is the row function of row r at column f. -/
theorem pay5_apply (r : Fin 256) (f : Fin 4224) :
    k0_pay5 (F := Ideal) x0 g bb x3 bin (ix2 r f) = Proj.act (row x0 r) g bb x3 bin f := by
  unfold k0_pay5
  simp only [dot_plain]
  simp only [mulf_apply, addf_apply, subf_apply, divf_apply, truncf_apply, logistic_apply, rsqrt_apply, broadcast_apply,
    scalar_ofBits, shapeCast_self, Cert.LibPlainDot.matmul_zero_apply, broadcastTo_1b_ab_apply, shapeCast_a_1a_apply,
    Proj.broadcastTo_a1_ab_apply, Proj.shapeCast_a_a1_apply, shapeCast_1ab_ab_apply]
  rw [rowsum0_apply]
  simp only [shapeCast_1ab_ab_apply]
  rw [rowsum0_apply]
  simp only [mulf_apply, subf_apply, divf_apply, broadcast_apply, Proj.broadcastTo_a1_ab_apply, Proj.shapeCast_a_a1_apply,
    shapeCast_1ab_ab_apply]
  rw [rowsum0_apply]
  simp only [shapeCast_1ab_ab_apply]
  rfl

/-! ## The column slices -/

/-- Columns 0 .. 2047 of the matrix. -/
theorem pay6_apply (r : Fin 256) (e : Fin 2048) (f : Fin 4224) (hf : f.val = e.val) :
    k0_pay6 (F := Ideal) x0 g bb x3 bin (ix2 r e) = Proj.act (row x0 r) g bb x3 bin f := by
  unfold k0_pay6
  exact (slice2_axis1_apply 0 _ slices_S256x4224_o0_0_S256x2048 r e f (hf.trans (Nat.zero_add _).symm)).trans
    (pay5_apply x0 g bb x3 bin r f)

/-- Columns 2048 .. 4095 of the matrix. -/
theorem pay7_apply (r : Fin 256) (e : Fin 2048) (f : Fin 4224) (hf : f.val = 2048 + e.val) :
    k0_pay7 (F := Ideal) x0 g bb x3 bin (ix2 r e) = Proj.act (row x0 r) g bb x3 bin f := by
  unfold k0_pay7
  exact (slice2_axis1_apply 2048 _ slices_S256x4224_o0_2048_S256x2048 r e f hf).trans (pay5_apply x0 g bb x3 bin r f)

/-- Columns 4096 .. 4223 of the matrix. -/
theorem pay8_apply (r : Fin 256) (s : Fin 128) (f : Fin 4224) (hf : f.val = 4096 + s.val) :
    k0_pay8 (F := Ideal) x0 g bb x3 bin (ix2 r s) = Proj.act (row x0 r) g bb x3 bin f := by
  unfold k0_pay8
  exact (slice2_axis1_apply 4096 _ slices_S256x4224_o0_4096_S256x128 r s f hf).trans (pay5_apply x0 g bb x3 bin r f)

/-- The last 128 columns scaled entrywise along the row by a vector. -/
theorem pay9_apply (γ : Vec Ideal S128 .f32) (r : Fin 256) (s : Fin 128) (f : Fin 4224) (hf : f.val = 4096 + s.val) :
    k0_pay9 (F := Ideal) x0 g bb x3 bin γ (ix2 r s) = Proj.act (row x0 r) g bb x3 bin f * γ (ix1 s) := by
  unfold k0_pay9
  simp only [mulf_apply, broadcastTo_1b_ab_apply, shapeCast_a_1a_apply]
  rw [pay8_apply x0 g bb x3 bin r s f hf]

/-! ## The four stored values -/

/-- The first stored value is its operand with a leading unit axis. -/
theorem pay1_apply (v : FVec Ideal S256x2048 .f32) (u : Fin 1) (r : Fin 256) (e : Fin 2048) :
    k0_pay1 (F := Ideal) v (ix3 u r e) = v (ix2 r e) := by
  unfold k0_pay1
  exact (shapeCast_ab_1ab_apply _ shapeCasts_S256x2048_S1x256x2048 u r e).trans (truncf_apply v _ _)

/-- The second stored value likewise. -/
theorem pay2_apply (v : FVec Ideal S256x2048 .f32) (u : Fin 1) (r : Fin 256) (e : Fin 2048) :
    k0_pay2 (F := Ideal) v (ix3 u r e) = v (ix2 r e) := by
  unfold k0_pay2
  exact (shapeCast_ab_1ab_apply _ shapeCasts_S256x2048_S1x256x2048 u r e).trans (truncf_apply v _ _)

/-- The third stored value: its operand shifted entrywise along the row by a vector. -/
theorem pay3_apply (v : FVec Ideal S256x128 .f32) (β : Vec Ideal S128 .f32) (u : Fin 1) (r : Fin 256) (s : Fin 128) :
    k0_pay3 (F := Ideal) v β (ix3 u r s) = v (ix2 r s) + β (ix1 s) := by
  unfold k0_pay3
  simp only [shapeCast_ab_1ab_apply, truncf_apply, addf_apply, broadcastTo_1b_ab_apply, shapeCast_a_1a_apply]

/-- The fourth stored value: its operand scaled and shifted entrywise along the row by two vectors. -/
theorem pay4_apply (v : FVec Ideal S256x128 .f32) (γ β : Vec Ideal S128 .f32) (u : Fin 1) (r : Fin 256) (s : Fin 128) :
    k0_pay4 (F := Ideal) v γ β (ix3 u r s) = v (ix2 r s) * γ (ix1 s) + β (ix1 s) := by
  unfold k0_pay4
  simp only [shapeCast_ab_1ab_apply, truncf_apply, addf_apply, mulf_apply, broadcastTo_1b_ab_apply, shapeCast_a_1a_apply]

/-- u at (r, e). -/
theorem ker_u (u : Fin 1) (r : Fin 256) (e : Fin 2048) (f : Fin 4224) (hf : f.val = e.val) :
    k0_pay1 (F := Ideal) (k0_pay6 x0 g bb x3 bin) (ix3 u r e) = Proj.act (row x0 r) g bb x3 bin f :=
  (pay1_apply _ u r e).trans (pay6_apply x0 g bb x3 bin r e f hf)

/-- v at (r, e). -/
theorem ker_v (u : Fin 1) (r : Fin 256) (e : Fin 2048) (f : Fin 4224) (hf : f.val = 2048 + e.val) :
    k0_pay2 (F := Ideal) (k0_pay7 x0 g bb x3 bin) (ix3 u r e) = Proj.act (row x0 r) g bb x3 bin f :=
  (pay2_apply _ u r e).trans (pay7_apply x0 g bb x3 bin r e f hf)

/-- q at (r, s). -/
theorem ker_q (γq βq : Vec Ideal S128 .f32) (u : Fin 1) (r : Fin 256) (s : Fin 128) (f : Fin 4224)
    (hf : f.val = 4096 + s.val) :
    k0_pay3 (F := Ideal) (k0_pay9 x0 g bb x3 bin γq) βq (ix3 u r s)
      = Proj.act (row x0 r) g bb x3 bin f * γq (ix1 s) + βq (ix1 s) := by
  rw [pay3_apply, pay9_apply x0 g bb x3 bin γq r s f hf]

/-- k at (r, s). -/
theorem ker_k (γk βk : Vec Ideal S128 .f32) (u : Fin 1) (r : Fin 256) (s : Fin 128) (f : Fin 4224)
    (hf : f.val = 4096 + s.val) :
    k0_pay4 (F := Ideal) (k0_pay8 x0 g bb x3 bin) γk βk (ix3 u r s)
      = Proj.act (row x0 r) g bb x3 bin f * γk (ix1 s) + βk (ix1 s) := by
  rw [pay4_apply, pay8_apply x0 g bb x3 bin r s f hf]

end Cert.KernelIdeal.Hand.ProjKer

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.KI.ProjRef.lean ====
/-
  The reference's projection stages, read at one row.

  The reference normalises every row of the whole [4, 2048, 1024] array over its last axis, scales and shifts it,
  multiplies it into the [1024, 4224] matrix, adds the bias and applies z * (1 / (1 + exp (-z))); then it cuts the
  4224 columns into u | v | z and makes q and k from z by a scale and a shift.  Here each stage of that chain is read
  at row (b, R): it is the row function of the row X[b, R, ·].  The two sums start from the zero word, which is the
  number zero, and the quotient 1 / (1 + exp (-z)) with the word of one is the logistic function.
-/
import proofs.«152703_j41326175322889_2_alg».proof.Proof.Gen.ReferenceIdeal.Read
import proofs.«152703_j41326175322889_2_alg».proof.Proof.KI.ProjSpec
import proofs.«152703_j41326175322889_2_alg».proof.Proof.LibRecipDiv

noncomputable section

open scoped BigOperators

namespace Cert.KernelIdeal.Hand.ProjRef

open Idealize.ShloMosaic Idealize.ShloMosaic.ValueIdx
open Cert.ReferenceIdeal Cert.ReferenceIdeal.Read
open Cert.KernelIdeal.Hand

variable (X : (⟨S4x2048x1024, .f32⟩ : BufTy).Contents (Elt Ideal)) (g bb : (⟨S1024, .f32⟩ : BufTy).Contents (Elt Ideal))
  (W : (⟨S1024x4224, .f32⟩ : BufTy).Contents (Elt Ideal)) (bin : (⟨S4224, .f32⟩ : BufTy).Contents (Elt Ideal))
  (b : Fin 4) (R : Fin 2048)

/-- Row (b, R) of the whole array. -/
abbrev row : Fin 1024 → EReal := fun d => X (ix3 b R d)

/-- The first sum at row (b, R): the row's entries, from zero. -/
theorem sum0 : val_main_v0 (F := Ideal) X (ix2 b R) = ∑ d : Fin 1024, X (ix3 b R d) := by
  rw [val_main_v0_apply, val_main_cst_apply]
  show Ideal.ofBits .f32 0x00000000#32 + _ = _
  rw [Ideal.ofBits_zero_f32, zero_add]
  exact Finset.sum_congr rfl fun d _ => congrArg X
    (funext fun a => Fin.ext (by match a with | ⟨0, _⟩ => rfl | ⟨1, _⟩ => rfl | ⟨2, _⟩ => rfl))

/-- The mean stage at (b, R, 0) is the row's mean. -/
theorem mean_eq : val_main_v3 (F := Ideal) X (ix3 b R (0 : Fin 1)) = Proj.mean (row X b R) := by
  have e1 : idx_main_v1 (ix3 b R (0 : Fin 1)) = ix2 b R :=
    funext fun a => Fin.ext (by match a with | ⟨0, _⟩ => rfl | ⟨1, _⟩ => rfl)
  rw [val_main_v3_apply, val_main_v1_apply, val_main_v2_apply, val_main_cst_0_apply, e1, sum0]
  rfl

/-- The centred entries (first copy, the one the variance squares). -/
theorem cen5_eq (l : Fin 1024) : val_main_v5 (F := Ideal) X (ix3 b R l) = Proj.cen (row X b R) l := by
  have e : idx_main_v4 (ix3 b R l) = ix3 b R (0 : Fin 1) :=
    funext fun a => Fin.ext (by match a with | ⟨0, _⟩ => rfl | ⟨1, _⟩ => rfl | ⟨2, _⟩ => rfl)
  rw [val_main_v5_apply, val_main_v4_apply, e, mean_eq]
  rfl

/-- The centred entries (second copy, the one the normalisation scales). -/
theorem cen12_eq (l : Fin 1024) : val_main_v12 (F := Ideal) X (ix3 b R l) = Proj.cen (row X b R) l := by
  have e : idx_main_v11 (ix3 b R l) = ix3 b R (0 : Fin 1) :=
    funext fun a => Fin.ext (by match a with | ⟨0, _⟩ => rfl | ⟨1, _⟩ => rfl | ⟨2, _⟩ => rfl)
  rw [val_main_v12_apply, val_main_v11_apply, e, mean_eq]
  rfl

/-- The second sum at row (b, R): the squared centred entries, from zero. -/
theorem sum7 : val_main_v7 (F := Ideal) X (ix2 b R)
    = ∑ d : Fin 1024, Proj.cen (row X b R) d * Proj.cen (row X b R) d := by
  rw [val_main_v7_apply, val_main_cst_1_apply]
  show Ideal.ofBits .f32 0x00000000#32 + _ = _
  rw [Ideal.ofBits_zero_f32, zero_add]
  refine Finset.sum_congr rfl fun d _ => ?_
  have e : idx_main_v7 (ix2 b R) d = ix3 b R d :=
    funext fun a => Fin.ext (by match a with | ⟨0, _⟩ => rfl | ⟨1, _⟩ => rfl | ⟨2, _⟩ => rfl)
  rw [e, val_main_v6_apply, cen5_eq]
  rfl

/-- The variance stage at (b, R, 0). -/
theorem var_eq : val_main_v10 (F := Ideal) X (ix3 b R (0 : Fin 1)) = Proj.var (row X b R) := by
  have e : idx_main_v8 (ix3 b R (0 : Fin 1)) = ix2 b R :=
    funext fun a => Fin.ext (by match a with | ⟨0, _⟩ => rfl | ⟨1, _⟩ => rfl)
  rw [val_main_v10_apply, val_main_v8_apply, val_main_v9_apply, val_main_cst_2_apply, e, sum7]
  rfl

/-- The reciprocal square root stage at (b, R, 0). -/
theorem rstd_eq : val_main_v15 (F := Ideal) X (ix3 b R (0 : Fin 1)) = Proj.rstd (row X b R) := by
  rw [val_main_v15_apply, val_main_v14_apply, val_main_v13_apply, val_main_cst_3_apply, var_eq]
  rfl

/-- The normalised, scaled and shifted row. -/
theorem normed_eq (l : Fin 1024) :
    val_main_v23 (F := Ideal) X g bb (ix3 b R l) = Proj.normed (row X b R) g bb l := by
  have e16 : idx_main_v16 (ix3 b R l) = ix3 b R (0 : Fin 1) :=
    funext fun a => Fin.ext (by match a with | ⟨0, _⟩ => rfl | ⟨1, _⟩ => rfl | ⟨2, _⟩ => rfl)
  have e19 : idx_main_v18 (idx_main_v19 (ix3 b R l)) = ix1 l :=
    funext fun a => Fin.ext (by match a with | ⟨0, _⟩ => rfl)
  have e22 : idx_main_v21 (idx_main_v22 (ix3 b R l)) = ix1 l :=
    funext fun a => Fin.ext (by match a with | ⟨0, _⟩ => rfl)
  rw [val_main_v23_apply, val_main_v20_apply, val_main_v17_apply, cen12_eq, val_main_v16_apply, e16, rstd_eq,
    val_main_v19_apply, val_main_v18_apply, e19, val_main_v22_apply, val_main_v21_apply, e22]
  rfl

/-- The product with W plus the bias, at (b, R, f). -/
theorem pre_eq (f : Fin 4224) :
    val_main_v27 (F := Ideal) X g bb W bin (ix3 b R f) = Proj.pre (row X b R) g bb W bin f := by
  have e26 : idx_main_v25 (idx_main_v26 (ix3 b R f)) = ix1 f :=
    funext fun a => Fin.ext (by match a with | ⟨0, _⟩ => rfl)
  rw [val_main_v27_apply, val_main_v24_apply, val_main_v26_apply, val_main_v25_apply, e26, Ideal.addf_def]
  unfold Proj.pre
  refine congrArg (· + bin (ix1 f)) (Finset.sum_congr rfl fun l _ => ?_)
  have el : lidx_main_v24 (ix3 b R f) l = ix3 b R l :=
    funext fun a => Fin.ext (by match a with | ⟨0, _⟩ => rfl | ⟨1, _⟩ => rfl | ⟨2, _⟩ => rfl)
  have er : ridx_main_v24 (ix3 b R f) l = ix2 l f :=
    funext fun a => Fin.ext (by match a with | ⟨0, _⟩ => rfl | ⟨1, _⟩ => rfl)
  rw [el, er, normed_eq]

/-- z * (1 / (1 + exp (-z))) at (b, R, f) is the row function. -/
theorem act_eq (f : Fin 4224) :
    val_main_v28 (F := Ideal) X g bb W bin (ix3 b R f) = Proj.act (row X b R) g bb W bin f := by
  rw [val_main_v28_apply, val_main_call0_v5_apply, val_main_call0_v4_apply, val_main_call0_cst_0_apply,
    val_main_call0_v3_apply, val_main_call0_v2_apply, val_main_call0_cst_apply, val_main_call0_v1_apply,
    val_main_call0_v0_apply, pre_eq]
  show _ * Ideal.div (Ideal.ofBits .f32 0x3F800000#32) (Ideal.ofBits .f32 0x3F800000#32 + Ideal.exp (-_)) = _
  rw [Cert.LibRecipDiv.ofBits_one_f32]
  rfl

/-! ## The four results -/

/-- u: columns 0 .. 2047. -/
theorem u_eq (e : Fin 2048) (f : Fin 4224) (hf : f.val = e.val) :
    val_main_v29 (F := Ideal) X g bb W bin (ix3 b R e) = Proj.act (row X b R) g bb W bin f := by
  have ei : idx_main_v29 (ix3 b R e) = ix3 b R f :=
    funext fun a => Fin.ext (by match a with | ⟨0, _⟩ => rfl | ⟨1, _⟩ => rfl | ⟨2, _⟩ => exact hf.symm)
  rw [val_main_v29_apply, ei, act_eq]

/-- v: columns 2048 .. 4095. -/
theorem v_eq (e : Fin 2048) (f : Fin 4224) (hf : f.val = 2048 + e.val) :
    val_main_v30 (F := Ideal) X g bb W bin (ix3 b R e) = Proj.act (row X b R) g bb W bin f := by
  have ei : idx_main_v30 (ix3 b R e) = ix3 b R f :=
    funext fun a => Fin.ext (by match a with | ⟨0, _⟩ => rfl | ⟨1, _⟩ => rfl | ⟨2, _⟩ => exact hf.symm)
  rw [val_main_v30_apply, ei, act_eq]

/-- z: columns 4096 .. 4223. -/
theorem z_eq (s : Fin 128) (f : Fin 4224) (hf : f.val = 4096 + s.val) :
    val_main_v31 (F := Ideal) X g bb W bin (ix3 b R s) = Proj.act (row X b R) g bb W bin f := by
  have ei : idx_main_v31 (ix3 b R s) = ix3 b R f :=
    funext fun a => Fin.ext (by match a with | ⟨0, _⟩ => rfl | ⟨1, _⟩ => rfl | ⟨2, _⟩ => exact hf.symm)
  rw [val_main_v31_apply, ei, act_eq]

variable (γq βq γk βk : (⟨S128, .f32⟩ : BufTy).Contents (Elt Ideal))

/-- q = z * γq + βq. -/
theorem q_eq (s : Fin 128) (f : Fin 4224) (hf : f.val = 4096 + s.val) :
    val_main_v37 (F := Ideal) X g bb W bin γq βq (ix3 b R s)
      = Proj.act (row X b R) g bb W bin f * γq (ix1 s) + βq (ix1 s) := by
  have e33 : idx_main_v32 (idx_main_v33 (ix3 b R s)) = ix1 s :=
    funext fun a => Fin.ext (by match a with | ⟨0, _⟩ => rfl)
  have e36 : idx_main_v35 (idx_main_v36 (ix3 b R s)) = ix1 s :=
    funext fun a => Fin.ext (by match a with | ⟨0, _⟩ => rfl)
  rw [val_main_v37_apply, val_main_v34_apply, z_eq X g bb W bin b R s f hf, val_main_v33_apply, val_main_v32_apply, e33,
    val_main_v36_apply, val_main_v35_apply, e36]
  rfl

/-- k = z * γk + βk. -/
theorem k_eq (s : Fin 128) (f : Fin 4224) (hf : f.val = 4096 + s.val) :
    val_main_v43 (F := Ideal) X g bb W bin γk βk (ix3 b R s)
      = Proj.act (row X b R) g bb W bin f * γk (ix1 s) + βk (ix1 s) := by
  have e39 : idx_main_v38 (idx_main_v39 (ix3 b R s)) = ix1 s :=
    funext fun a => Fin.ext (by match a with | ⟨0, _⟩ => rfl)
  have e42 : idx_main_v41 (idx_main_v42 (ix3 b R s)) = ix1 s :=
    funext fun a => Fin.ext (by match a with | ⟨0, _⟩ => rfl)
  rw [val_main_v43_apply, val_main_v40_apply, z_eq X g bb W bin b R s f hf, val_main_v39_apply, val_main_v38_apply, e39,
    val_main_v42_apply, val_main_v41_apply, e42]
  rfl

end Cert.KernelIdeal.Hand.ProjRef

end
-- ==== Proof.KI.ProjValue.lean ====
/-
  The first kernel's arithmetic is the reference's.

  On a 256-row tile (batch element b, row tile lt) whose rows are rows 256 * lt + r of the whole array, and with the
  same matrix, the four values the first kernel stores at (r, ·) are the reference's u, v, q and k at
  (b, 256 * lt + r, ·): both are the same row function of the same row.  There is no re-tiling on this side: the
  kernel contracts the whole 1024 axis at once and both sides' sums start from zero.
-/
import proofs.«152703_j41326175322889_2_alg».proof.Proof.KI.ProjKer
import proofs.«152703_j41326175322889_2_alg».proof.Proof.KI.ProjRef

noncomputable section

namespace Cert.KernelIdeal.Hand

open Idealize.ShloMosaic Idealize.ShloMosaic.ValueIdx
open Cert.KernelIdeal Cert.KernelIdeal.Gen

/-- Row r of row tile lt, as a row of the whole array. -/
abbrev tileRow (lt : Fin 8) (r : Fin 256) : Fin 2048 :=
  ⟨256 * lt.val + r.val, by have := lt.isLt; have := r.isLt; omega⟩

section ProjValue
variable (X : (⟨S4x2048x1024, .f32⟩ : BufTy).Contents (Elt Ideal)) (g bb : (⟨S1024, .f32⟩ : BufTy).Contents (Elt Ideal))
  (W : (⟨S1024x4224, .f32⟩ : BufTy).Contents (Elt Ideal)) (bin : (⟨S4224, .f32⟩ : BufTy).Contents (Elt Ideal))
  (γq βq γk βk : (⟨S128, .f32⟩ : BufTy).Contents (Elt Ideal))
  (b : Fin 4) (lt : Fin 8)
  (x0 : Vec Ideal S1x256x1024 .f32) (x3 : Vec Ideal S1024x4224 .bf16)
  (hx : ∀ (r : Fin 256) (d : Fin 1024), x0 (ix3 (0 : Fin 1) r d) = X (ix3 b (tileRow lt r) d))
  (hW : ∀ i, x3 i = W i)

include hx hW

/-- u: the kernel's first stored value at (0, r, e) is the reference's u at (b, 256 * lt + r, e). -/
theorem proj_u (r : Fin 256) (e : Fin 2048) :
    k0_pay1 (F := Ideal) (k0_pay6 x0 g bb x3 bin) (ix3 (0 : Fin 1) r e)
      = Cert.ReferenceIdeal.Read.val_main_v29 (F := Ideal) X g bb W bin (ix3 b (tileRow lt r) e) :=
  (ProjKer.ker_u x0 g bb x3 bin 0 r e ⟨e.val, by have := e.isLt; omega⟩ rfl).trans
    ((Proj.act_congr g bb bin (hx r) hW _).trans
      (ProjRef.u_eq X g bb W bin b (tileRow lt r) e ⟨e.val, by have := e.isLt; omega⟩ rfl).symm)

/-- v: the second stored value at (0, r, e) is the reference's v at (b, 256 * lt + r, e). -/
theorem proj_v (r : Fin 256) (e : Fin 2048) :
    k0_pay2 (F := Ideal) (k0_pay7 x0 g bb x3 bin) (ix3 (0 : Fin 1) r e)
      = Cert.ReferenceIdeal.Read.val_main_v30 (F := Ideal) X g bb W bin (ix3 b (tileRow lt r) e) :=
  (ProjKer.ker_v x0 g bb x3 bin 0 r e ⟨2048 + e.val, by have := e.isLt; omega⟩ rfl).trans
    ((Proj.act_congr g bb bin (hx r) hW _).trans
      (ProjRef.v_eq X g bb W bin b (tileRow lt r) e ⟨2048 + e.val, by have := e.isLt; omega⟩ rfl).symm)

/-- q: the third stored value at (0, r, s) is the reference's q at (b, 256 * lt + r, s). -/
theorem proj_q (r : Fin 256) (s : Fin 128) :
    k0_pay3 (F := Ideal) (k0_pay9 x0 g bb x3 bin γq) βq (ix3 (0 : Fin 1) r s)
      = Cert.ReferenceIdeal.Read.val_main_v37 (F := Ideal) X g bb W bin γq βq (ix3 b (tileRow lt r) s) :=
  (ProjKer.ker_q x0 g bb x3 bin γq βq 0 r s ⟨4096 + s.val, by have := s.isLt; omega⟩ rfl).trans
    ((congrArg (· * γq (ix1 s) + βq (ix1 s)) (Proj.act_congr g bb bin (hx r) hW _)).trans
      (ProjRef.q_eq X g bb W bin b (tileRow lt r) γq βq s ⟨4096 + s.val, by have := s.isLt; omega⟩ rfl).symm)

/-- k: the fourth stored value at (0, r, s) is the reference's k at (b, 256 * lt + r, s). -/
theorem proj_k (r : Fin 256) (s : Fin 128) :
    k0_pay4 (F := Ideal) (k0_pay8 x0 g bb x3 bin) γk βk (ix3 (0 : Fin 1) r s)
      = Cert.ReferenceIdeal.Read.val_main_v43 (F := Ideal) X g bb W bin γk βk (ix3 b (tileRow lt r) s) :=
  (ProjKer.ker_k x0 g bb x3 bin γk βk 0 r s ⟨4096 + s.val, by have := s.isLt; omega⟩ rfl).trans
    ((congrArg (· * γk (ix1 s) + βk (ix1 s)) (Proj.act_congr g bb bin (hx r) hW _)).trans
      (ProjRef.k_eq X g bb W bin b (tileRow lt r) γk βk s ⟨4096 + s.val, by have := s.isLt; omega⟩ rfl).symm)

end ProjValue

end Cert.KernelIdeal.Hand

end
-- ==== Proof.KI.ProjArrays.lean ====
/-
  What the projection kernel leaves in its four result arrays.

  Grid point t of the 32 handles batch element t / 8 and row tile t mod 8: its activation block is rows
  256 (t mod 8) .. 256 (t mod 8) + 255 of batch element t / 8, every parameter block is the whole parameter array, and
  each of its four result blocks is written back to the same rows of the same batch element of its array.  Row by row
  the block's values are the reference's projection stages at that row, so each write-back is a block of ONE
  whole-array function: the reference's stage.  The 32 blocks tile every result array (row R of batch element n lies
  in the block of the point with t / 8 = n and t mod 8 = R / 256), hence after the last point each result array IS the
  reference's stage of the arrays the kernel call found on entry.
-/
import proofs.«152703_j41326175322889_2_alg».proof.Proof.KI.Reg0
import proofs.«152703_j41326175322889_2_alg».proof.Proof.KI.ProjIdx
import proofs.«152703_j41326175322889_2_alg».proof.Proof.KI.ProjValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## One block against one row tile, over plain vectors -/

section Point
variable (X : (⟨S4x2048x1024, .f32⟩ : BufTy).Contents (Elt Ideal)) (g bb : (⟨S1024, .f32⟩ : BufTy).Contents (Elt Ideal))
  (W : (⟨S1024x4224, .f32⟩ : BufTy).Contents (Elt Ideal)) (bin : (⟨S4224, .f32⟩ : BufTy).Contents (Elt Ideal)) (γ β : (⟨S128, .f32⟩ : BufTy).Contents (Elt Ideal))
  (b : Fin 4) (lt : Fin 8)
  (x0 : Vec Ideal S1x256x1024 .f32) (x1 x2 : Vec Ideal S1024 .f32) (x3 : Vec Ideal S1024x4224 .bf16) (x4 : Vec Ideal S4224 .f32)
  (x5 x6 : Vec Ideal S128 .f32)
  (hx : ∀ (r : Fin 256) (d : Fin 1024), x0 (ix3 (0 : Fin 1) r d) = X (ix3 b (tileRow lt r) d))
  (h1 : x1 = g) (h2 : x2 = bb) (hW : ∀ i, x3 i = W i) (h4 : x4 = bin) (h5 : x5 = γ) (h6 : x6 = β)

include hx h1 h2 hW h4 in
/-- Entry j of the block of result 9 is the reference's stage at the entry of the array it is written back to:
    same batch element, row 256 lt + (the row inside the block), same column. -/
theorem point_u (j : S1x256x2048.Idx) (i : S4x2048x2048.Idx)
    (hi0 : (i 0).val = b.val) (hi1 : (i 1).val = 256 * lt.val + (j 1).val) (hi2 : (i 2).val = (j 2).val) :
    k0_pay1 (k0_pay6 x0 x1 x2 x3 x4) j = Cert.ReferenceIdeal.Read.val_main_v29 (F := Ideal) X g bb W bin i := by
  rw [h1, h2, h4]
  have hj0 : (j 0).val < 1 := (j 0).isLt
  have hj1 : (j 1).val < 256 := (j 1).isLt
  have hj2 : (j 2).val < 2048 := (j 2).isLt
  obtain ⟨r, e, rfl⟩ : ∃ (r : Fin 256) (e : Fin 2048), j = ix3 (0 : Fin 1) r e :=
    ⟨⟨(j 1).val, hj1⟩, ⟨(j 2).val, hj2⟩, funext fun a => by
      match a with
      | ⟨0, _⟩ => exact Fin.ext (by show (j 0).val = 0; omega)
      | ⟨1, _⟩ => rfl
      | ⟨2, _⟩ => rfl⟩
  obtain rfl : i = ix3 b (tileRow lt r) e := funext fun a => by
    match a with
    | ⟨0, _⟩ => exact Fin.ext hi0
    | ⟨1, _⟩ => exact Fin.ext hi1
    | ⟨2, _⟩ => exact Fin.ext hi2
  exact proj_u X g bb W bin b lt x0 x3 hx hW r e

include hx h1 h2 hW h4 in
/-- Entry j of the block of result 10 is the reference's stage at the entry of the array it is written back to:
    same batch element, row 256 lt + (the row inside the block), same column. -/
theorem point_v (j : S1x256x2048.Idx) (i : S4x2048x2048.Idx)
    (hi0 : (i 0).val = b.val) (hi1 : (i 1).val = 256 * lt.val + (j 1).val) (hi2 : (i 2).val = (j 2).val) :
    k0_pay2 (k0_pay7 x0 x1 x2 x3 x4) j = Cert.ReferenceIdeal.Read.val_main_v30 (F := Ideal) X g bb W bin i := by
  rw [h1, h2, h4]
  have hj0 : (j 0).val < 1 := (j 0).isLt
  have hj1 : (j 1).val < 256 := (j 1).isLt
  have hj2 : (j 2).val < 2048 := (j 2).isLt
  obtain ⟨r, e, rfl⟩ : ∃ (r : Fin 256) (e : Fin 2048), j = ix3 (0 : Fin 1) r e :=
    ⟨⟨(j 1).val, hj1⟩, ⟨(j 2).val, hj2⟩, funext fun a => by
      match a with
      | ⟨0, _⟩ => exact Fin.ext (by show (j 0).val = 0; omega)
      | ⟨1, _⟩ => rfl
      | ⟨2, _⟩ => rfl⟩
  obtain rfl : i = ix3 b (tileRow lt r) e := funext fun a => by
    match a with
    | ⟨0, _⟩ => exact Fin.ext hi0
    | ⟨1, _⟩ => exact Fin.ext hi1
    | ⟨2, _⟩ => exact Fin.ext hi2
  exact proj_v X g bb W bin b lt x0 x3 hx hW r e

include hx h1 h2 hW h4 h5 h6 in
/-- Entry j of the block of result 11 is the reference's stage at the entry of the array it is written back to:
    same batch element, row 256 lt + (the row inside the block), same column. -/
theorem point_q (j : S1x256x128.Idx) (i : S4x2048x128.Idx)
    (hi0 : (i 0).val = b.val) (hi1 : (i 1).val = 256 * lt.val + (j 1).val) (hi2 : (i 2).val = (j 2).val) :
    k0_pay3 (k0_pay9 x0 x1 x2 x3 x4 x5) x6 j = Cert.ReferenceIdeal.Read.val_main_v37 (F := Ideal) X g bb W bin γ β i := by
  rw [h1, h2, h4, h5, h6]
  have hj0 : (j 0).val < 1 := (j 0).isLt
  have hj1 : (j 1).val < 256 := (j 1).isLt
  have hj2 : (j 2).val < 128 := (j 2).isLt
  obtain ⟨r, e, rfl⟩ : ∃ (r : Fin 256) (e : Fin 128), j = ix3 (0 : Fin 1) r e :=
    ⟨⟨(j 1).val, hj1⟩, ⟨(j 2).val, hj2⟩, funext fun a => by
      match a with
      | ⟨0, _⟩ => exact Fin.ext (by show (j 0).val = 0; omega)
      | ⟨1, _⟩ => rfl
      | ⟨2, _⟩ => rfl⟩
  obtain rfl : i = ix3 b (tileRow lt r) e := funext fun a => by
    match a with
    | ⟨0, _⟩ => exact Fin.ext hi0
    | ⟨1, _⟩ => exact Fin.ext hi1
    | ⟨2, _⟩ => exact Fin.ext hi2
  exact proj_q X g bb W bin γ β b lt x0 x3 hx hW r e

include hx h1 h2 hW h4 h5 h6 in
/-- Entry j of the block of result 12 is the reference's stage at the entry of the array it is written back to:
    same batch element, row 256 lt + (the row inside the block), same column. -/
theorem point_k (j : S1x256x128.Idx) (i : S4x2048x128.Idx)
    (hi0 : (i 0).val = b.val) (hi1 : (i 1).val = 256 * lt.val + (j 1).val) (hi2 : (i 2).val = (j 2).val) :
    k0_pay4 (k0_pay8 x0 x1 x2 x3 x4) x5 x6 j = Cert.ReferenceIdeal.Read.val_main_v43 (F := Ideal) X g bb W bin γ β i := by
  rw [h1, h2, h4, h5, h6]
  have hj0 : (j 0).val < 1 := (j 0).isLt
  have hj1 : (j 1).val < 256 := (j 1).isLt
  have hj2 : (j 2).val < 128 := (j 2).isLt
  obtain ⟨r, e, rfl⟩ : ∃ (r : Fin 256) (e : Fin 128), j = ix3 (0 : Fin 1) r e :=
    ⟨⟨(j 1).val, hj1⟩, ⟨(j 2).val, hj2⟩, funext fun a => by
      match a with
      | ⟨0, _⟩ => exact Fin.ext (by show (j 0).val = 0; omega)
      | ⟨1, _⟩ => rfl
      | ⟨2, _⟩ => rfl⟩
  obtain rfl : i = ix3 b (tileRow lt r) e := funext fun a => by
    match a with
    | ⟨0, _⟩ => exact Fin.ext hi0
    | ⟨1, _⟩ => exact Fin.ext hi1
    | ⟨2, _⟩ => exact Fin.ext hi2
  exact proj_k X g bb W bin γ β b lt x0 x3 hx hW r e

end Point

/-! ## The blocks of the arrays the kernel call finds -/

-- the TensorCore's buffer contents when the kernel call is entered
variable (V : (c : Dev nD) → (b : Ref sig .tc) → Buf (Elt Ideal) ((c : Thread nD τ).loc b))

/-- The facts about where the windows sit, one name each. -/
theorem idx_x (t : Fin cfg0.N) : win0_0.index t (0 : Fin 3) = t.val / 8 ∧ win0_0.index t (1 : Fin 3) = t.val % 8 ∧ win0_0.index t (2 : Fin 3) = 0 := (proj_idx t).1
theorem idx_1 (t : Fin cfg0.N) : win0_1.index t (0 : Fin 1) = 0 := (proj_idx t).2.1
theorem idx_2 (t : Fin cfg0.N) : win0_2.index t (0 : Fin 1) = 0 := (proj_idx t).2.2.1
theorem idx_3 (t : Fin cfg0.N) : win0_3.index t (0 : Fin 2) = 0 ∧ win0_3.index t (1 : Fin 2) = 0 := (proj_idx t).2.2.2.1
theorem idx_4 (t : Fin cfg0.N) : win0_4.index t (0 : Fin 1) = 0 := (proj_idx t).2.2.2.2.1
theorem idx_5 (t : Fin cfg0.N) : win0_5.index t (0 : Fin 1) = 0 := (proj_idx t).2.2.2.2.2.1
theorem idx_6 (t : Fin cfg0.N) : win0_6.index t (0 : Fin 1) = 0 := (proj_idx t).2.2.2.2.2.2.1
theorem idx_7 (t : Fin cfg0.N) : win0_7.index t (0 : Fin 1) = 0 := (proj_idx t).2.2.2.2.2.2.2.1
theorem idx_8 (t : Fin cfg0.N) : win0_8.index t (0 : Fin 1) = 0 := (proj_idx t).2.2.2.2.2.2.2.2.1
theorem idx_9 (t : Fin cfg0.N) : win0_9.index t (0 : Fin 3) = t.val / 8 ∧ win0_9.index t (1 : Fin 3) = t.val % 8 ∧ win0_9.index t (2 : Fin 3) = 0 := (proj_idx t).2.2.2.2.2.2.2.2.2.1
theorem idx_10 (t : Fin cfg0.N) : win0_10.index t (0 : Fin 3) = t.val / 8 ∧ win0_10.index t (1 : Fin 3) = t.val % 8 ∧ win0_10.index t (2 : Fin 3) = 0 := (proj_idx t).2.2.2.2.2.2.2.2.2.2.1
theorem idx_11 (t : Fin cfg0.N) : win0_11.index t (0 : Fin 3) = t.val / 8 ∧ win0_11.index t (1 : Fin 3) = t.val % 8 ∧ win0_11.index t (2 : Fin 3) = 0 := (proj_idx t).2.2.2.2.2.2.2.2.2.2.2.1
theorem idx_12 (t : Fin cfg0.N) : win0_12.index t (0 : Fin 3) = t.val / 8 ∧ win0_12.index t (1 : Fin 3) = t.val % 8 ∧ win0_12.index t (2 : Fin 3) = 0 := (proj_idx t).2.2.2.2.2.2.2.2.2.2.2.2

/-- The grid has 32 points. -/
theorem lt32 (t : Fin cfg0.N) : t.val < 32 := Nat.lt_of_lt_of_eq t.isLt (show cfg0.N = 32 from N_0)

/-- Parameter window 1's block is the whole array at every point (its block index is 0). -/
theorem iblk0_1_eq (c : Dev nD) (t : Fin cfg0.N) :
    (iblk0 V c 1 t : Vec Ideal S1024 .f32) = (V c main_arg1 : S1024.Idx → Elt Ideal .f32) := by
  have e := idx_1 t
  funext y
  unfold iblk0
  rw [View.read_apply]
  show V c main_arg1 _ = V c main_arg1 y
  congr 1
  funext a
  apply Fin.ext
  match a with
  | ⟨0, _⟩ => show win0_1.index t (0 : Fin 1) * 1024 + 1 * (y 0).val = (y 0).val; omega

/-- Parameter window 2's block is the whole array at every point (its block index is 0). -/
theorem iblk0_2_eq (c : Dev nD) (t : Fin cfg0.N) :
    (iblk0 V c 2 t : Vec Ideal S1024 .f32) = (V c main_arg2 : S1024.Idx → Elt Ideal .f32) := by
  have e := idx_2 t
  funext y
  unfold iblk0
  rw [View.read_apply]
  show V c main_arg2 _ = V c main_arg2 y
  congr 1
  funext a
  apply Fin.ext
  match a with
  | ⟨0, _⟩ => show win0_2.index t (0 : Fin 1) * 1024 + 1 * (y 0).val = (y 0).val; omega

/-- Parameter window 4's block is the whole array at every point (its block index is 0). -/
theorem iblk0_4_eq (c : Dev nD) (t : Fin cfg0.N) :
    (iblk0 V c 4 t : Vec Ideal S4224 .f32) = (V c main_arg4 : S4224.Idx → Elt Ideal .f32) := by
  have e := idx_4 t
  funext y
  unfold iblk0
  rw [View.read_apply]
  show V c main_arg4 _ = V c main_arg4 y
  congr 1
  funext a
  apply Fin.ext
  match a with
  | ⟨0, _⟩ => show win0_4.index t (0 : Fin 1) * 4224 + 1 * (y 0).val = (y 0).val; omega

/-- Parameter window 5's block is the whole array at every point (its block index is 0). -/
theorem iblk0_5_eq (c : Dev nD) (t : Fin cfg0.N) :
    (iblk0 V c 5 t : Vec Ideal S128 .f32) = (V c main_arg7 : S128.Idx → Elt Ideal .f32) := by
  have e := idx_5 t
  funext y
  unfold iblk0
  rw [View.read_apply]
  show V c main_arg7 _ = V c main_arg7 y
  congr 1
  funext a
  apply Fin.ext
  match a with
  | ⟨0, _⟩ => show win0_5.index t (0 : Fin 1) * 128 + 1 * (y 0).val = (y 0).val; omega

/-- Parameter window 6's block is the whole array at every point (its block index is 0). -/
theorem iblk0_6_eq (c : Dev nD) (t : Fin cfg0.N) :
    (iblk0 V c 6 t : Vec Ideal S128 .f32) = (V c main_arg8 : S128.Idx → Elt Ideal .f32) := by
  have e := idx_6 t
  funext y
  unfold iblk0
  rw [View.read_apply]
  show V c main_arg8 _ = V c main_arg8 y
  congr 1
  funext a
  apply Fin.ext
  match a with
  | ⟨0, _⟩ => show win0_6.index t (0 : Fin 1) * 128 + 1 * (y 0).val = (y 0).val; omega

/-- Parameter window 7's block is the whole array at every point (its block index is 0). -/
theorem iblk0_7_eq (c : Dev nD) (t : Fin cfg0.N) :
    (iblk0 V c 7 t : Vec Ideal S128 .f32) = (V c main_arg9 : S128.Idx → Elt Ideal .f32) := by
  have e := idx_7 t
  funext y
  unfold iblk0
  rw [View.read_apply]
  show V c main_arg9 _ = V c main_arg9 y
  congr 1
  funext a
  apply Fin.ext
  match a with
  | ⟨0, _⟩ => show win0_7.index t (0 : Fin 1) * 128 + 1 * (y 0).val = (y 0).val; omega

/-- Parameter window 8's block is the whole array at every point (its block index is 0). -/
theorem iblk0_8_eq (c : Dev nD) (t : Fin cfg0.N) :
    (iblk0 V c 8 t : Vec Ideal S128 .f32) = (V c main_arg10 : S128.Idx → Elt Ideal .f32) := by
  have e := idx_8 t
  funext y
  unfold iblk0
  rw [View.read_apply]
  show V c main_arg10 _ = V c main_arg10 y
  congr 1
  funext a
  apply Fin.ext
  match a with
  | ⟨0, _⟩ => show win0_8.index t (0 : Fin 1) * 128 + 1 * (y 0).val = (y 0).val; omega

/-- The weight matrix's block is the whole matrix at every point. -/
theorem iblk0_3_apply (c : Dev nD) (t : Fin cfg0.N) (y : S1024x4224.Idx) :
    (iblk0 V c 3 t : Vec Ideal S1024x4224 .bf16) y = (V c main_v0 : S1024x4224.Idx → Elt Ideal .bf16) y := by
  obtain ⟨e0, e1⟩ := idx_3 t
  unfold iblk0
  rw [View.read_apply]
  show V c main_v0 _ = V c main_v0 y
  congr 1
  funext a
  apply Fin.ext
  match a with
  | ⟨0, _⟩ => show win0_3.index t (0 : Fin 2) * 1024 + 1 * (y 0).val = (y 0).val; omega
  | ⟨1, _⟩ => show win0_3.index t (1 : Fin 2) * 4224 + 1 * (y 1).val = (y 1).val; omega

/-- The activation block at point t is rows 256 (t mod 8) .. of batch element t / 8. -/
theorem iblk0_0_apply (c : Dev nD) (t : Fin cfg0.N) (b : Fin 4) (lt : Fin 8) (hb : b.val = t.val / 8) (hl : lt.val = t.val % 8)
    (r : Fin 256) (d : Fin 1024) :
    (iblk0 V c 0 t : Vec Ideal S1x256x1024 .f32) (ix3 (0 : Fin 1) r d)
      = (V c main_arg0 : S4x2048x1024.Idx → Elt Ideal .f32) (ix3 b (tileRow lt r) d) := by
  obtain ⟨e0, e1, e2⟩ := idx_x t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 256 + 1 * r.val = 256 * lt.val + r.val; omega
  | ⟨2, _⟩ => show win0_0.index t (2 : Fin 3) * 1024 + 1 * d.val = d.val; omega

/-! ## Result 9 -/

/-- The whole-array function result 9 ends holding: the reference's stage of the entry arrays. -/
abbrev G_u (c : Dev nD) : S4x2048x2048.Idx → Elt Ideal .bf16 :=
  fun i => Cert.ReferenceIdeal.Read.val_main_v29 (F := Ideal) (V c main_arg0) (V c main_arg1) (V c main_arg2) (V c main_v0) (V c main_arg4) i

/-- What point t writes back is block t of that function. -/
theorem flushed_u (c : Dev nD) (t : Fin cfg0.N) :
    (dat0 V c).flushed 9 t = ((cfg0.win 9).blk t).view.read (Elt Ideal) (G_u V c) := by
  have ht := lt32 t
  obtain ⟨o0, o1, o2⟩ := idx_9 t
  show (cfg0.win 9).cut (grid0.coords t) ((dat0 V c).after 9 t) = _
  rw [after0_9, out0_9_eq]
  funext j
  rw [View.read_apply]
  show k0_pay1 (k0_pay6 (iblk0 V c 0 t) (iblk0 V c 1 t) (iblk0 V c 2 t) (iblk0 V c 3 t) (iblk0 V c 4 t)) j = G_u V c (((cfg0.win 9).blk t).view.emb j)
  have hj0 : (j 0).val < 1 := (j 0).isLt
  refine point_u (V c main_arg0) (V c main_arg1) (V c main_arg2) (V c main_v0) (V c main_arg4) ⟨t.val / 8, by omega⟩ ⟨t.val % 8, by omega⟩
    (iblk0 V c 0 t) (iblk0 V c 1 t) (iblk0 V c 2 t) (iblk0 V c 3 t) (iblk0 V c 4 t)
    (fun r d => iblk0_0_apply V c t _ _ rfl rfl r d) (iblk0_1_eq V c t) (iblk0_2_eq V c t) (fun y => iblk0_3_apply V c t y) (iblk0_4_eq V c t)
    j (((cfg0.win 9).blk t).view.emb j) ?_ ?_ ?_
  · show win0_9.index t (0 : Fin 3) * 1 + 1 * (j 0).val = t.val / 8; omega
  · show win0_9.index t (1 : Fin 3) * 256 + 1 * (j 1).val = 256 * (t.val % 8) + (j 1).val; omega
  · show win0_9.index t (2 : Fin 3) * 2048 + 1 * (j 2).val = (j 2).val; omega

/-- An index of the array is in point t's block iff each coordinate is in the block's range on its axis. -/
theorem mem_blk_u (t : Fin cfg0.N) (i : S4x2048x2048.Idx) :
    i ∈ ((cfg0.win 9).blk t).view.set ↔ ∀ a : Fin 3, win0_9.index t a * S1x256x2048.size a ≤ (i a).val ∧ (i a).val < win0_9.index t a * S1x256x2048.size a + S1x256x2048.size a := by
  show i ∈ ((View.whole main_v2_0).slice (win0_9.rect t)).set ↔ _
  rw [View.set_slice_whole, Rect.mem_set_unit]
  exact Iff.rfl

/-- Every entry of the array is in some point's block: row R of batch element n in the block of the point with
    t / 8 = n and t mod 8 = R / 256. -/
theorem cover_u (i : S4x2048x2048.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 2048 := (i 2).isLt
  obtain ⟨t, hb, hl⟩ := proj_onto ⟨(i 0).val, hi0⟩ ⟨(i 1).val / 256, by omega⟩
  have hb' : t.val / 8 = (i 0).val := hb
  have hl' : t.val % 8 = (i 1).val / 256 := hl
  obtain ⟨o0, o1, o2⟩ := idx_9 t
  refine ⟨t, flush0_9 t, ?_⟩
  rw [mem_blk_u]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 2048 ≤ (i 2).val ∧ (i 2).val < win0_9.index t (2 : Fin 3) * 2048 + 2048; omega

/-- After the last point result 9 is the reference's stage of the entry arrays. -/
theorem proj_final_u (c : Dev nD) :
    (dat0 V c).arrAt 9 cfg0.N = Cert.ReferenceIdeal.Read.val_main_v29 (F := Ideal) (V c main_arg0) (V c main_arg1) (V c main_arg2) (V c main_v0) (V c main_arg4) :=
  (dat0 V c).arrAt_eq_of_cover 9 (G_u V c) (fun t _ => flushed_u V c t) (cover_u)

/-! ## Result 10 -/

/-- The whole-array function result 10 ends holding: the reference's stage of the entry arrays. -/
abbrev G_v (c : Dev nD) : S4x2048x2048.Idx → Elt Ideal .bf16 :=
  fun i => Cert.ReferenceIdeal.Read.val_main_v30 (F := Ideal) (V c main_arg0) (V c main_arg1) (V c main_arg2) (V c main_v0) (V c main_arg4) i

/-- What point t writes back is block t of that function. -/
theorem flushed_v (c : Dev nD) (t : Fin cfg0.N) :
    (dat0 V c).flushed 10 t = ((cfg0.win 10).blk t).view.read (Elt Ideal) (G_v V c) := by
  have ht := lt32 t
  obtain ⟨o0, o1, o2⟩ := idx_10 t
  show (cfg0.win 10).cut (grid0.coords t) ((dat0 V c).after 10 t) = _
  rw [after0_10, out0_10_eq]
  funext j
  rw [View.read_apply]
  show k0_pay2 (k0_pay7 (iblk0 V c 0 t) (iblk0 V c 1 t) (iblk0 V c 2 t) (iblk0 V c 3 t) (iblk0 V c 4 t)) j = G_v V c (((cfg0.win 10).blk t).view.emb j)
  have hj0 : (j 0).val < 1 := (j 0).isLt
  refine point_v (V c main_arg0) (V c main_arg1) (V c main_arg2) (V c main_v0) (V c main_arg4) ⟨t.val / 8, by omega⟩ ⟨t.val % 8, by omega⟩
    (iblk0 V c 0 t) (iblk0 V c 1 t) (iblk0 V c 2 t) (iblk0 V c 3 t) (iblk0 V c 4 t)
    (fun r d => iblk0_0_apply V c t _ _ rfl rfl r d) (iblk0_1_eq V c t) (iblk0_2_eq V c t) (fun y => iblk0_3_apply V c t y) (iblk0_4_eq V c t)
    j (((cfg0.win 10).blk t).view.emb j) ?_ ?_ ?_
  · show win0_10.index t (0 : Fin 3) * 1 + 1 * (j 0).val = t.val / 8; omega
  · show win0_10.index t (1 : Fin 3) * 256 + 1 * (j 1).val = 256 * (t.val % 8) + (j 1).val; omega
  · show win0_10.index t (2 : Fin 3) * 2048 + 1 * (j 2).val = (j 2).val; omega

/-- An index of the array is in point t's block iff each coordinate is in the block's range on its axis. -/
theorem mem_blk_v (t : Fin cfg0.N) (i : S4x2048x2048.Idx) :
    i ∈ ((cfg0.win 10).blk t).view.set ↔ ∀ a : Fin 3, win0_10.index t a * S1x256x2048.size a ≤ (i a).val ∧ (i a).val < win0_10.index t a * S1x256x2048.size a + S1x256x2048.size a := by
  show i ∈ ((View.whole main_v2_1).slice (win0_10.rect t)).set ↔ _
  rw [View.set_slice_whole, Rect.mem_set_unit]
  exact Iff.rfl

/-- Every entry of the array is in some point's block: row R of batch element n in the block of the point with
    t / 8 = n and t mod 8 = R / 256. -/
theorem cover_v (i : S4x2048x2048.Idx) :
    ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 2048 := (i 2).isLt
  obtain ⟨t, hb, hl⟩ := proj_onto ⟨(i 0).val, hi0⟩ ⟨(i 1).val / 256, by omega⟩
  have hb' : t.val / 8 = (i 0).val := hb
  have hl' : t.val % 8 = (i 1).val / 256 := hl
  obtain ⟨o0, o1, o2⟩ := idx_10 t
  refine ⟨t, flush0_10 t, ?_⟩
  rw [mem_blk_v]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 2048 ≤ (i 2).val ∧ (i 2).val < win0_10.index t (2 : Fin 3) * 2048 + 2048; omega

/-- After the last point result 10 is the reference's stage of the entry arrays. -/
theorem proj_final_v (c : Dev nD) :
    (dat0 V c).arrAt 10 cfg0.N = Cert.ReferenceIdeal.Read.val_main_v30 (F := Ideal) (V c main_arg0) (V c main_arg1) (V c main_arg2) (V c main_v0) (V c main_arg4) :=
  (dat0 V c).arrAt_eq_of_cover 10 (G_v V c) (fun t _ => flushed_v V c t) (cover_v)

/-! ## Result 11 -/

/-- The whole-array function result 11 ends holding: the reference's stage of the entry arrays. -/
abbrev G_q (c : Dev nD) : S4x2048x128.Idx → Elt Ideal .bf16 :=
  fun i => Cert.ReferenceIdeal.Read.val_main_v37 (F := Ideal) (V c main_arg0) (V c main_arg1) (V c main_arg2) (V c main_v0) (V c main_arg4) (V c main_arg7) (V c main_arg8) i

/-- What point t writes back is block t of that function. -/
theorem flushed_q (c : Dev nD) (t : Fin cfg0.N) :
    (dat0 V c).flushed 11 t = ((cfg0.win 11).blk t).view.read (Elt Ideal) (G_q V c) := by
  have ht := lt32 t
  obtain ⟨o0, o1, o2⟩ := idx_11 t
  show (cfg0.win 11).cut (grid0.coords t) ((dat0 V c).after 11 t) = _
  rw [after0_11, out0_11_eq]
  funext j
  rw [View.read_apply]
  show k0_pay3 (k0_pay9 (iblk0 V c 0 t) (iblk0 V c 1 t) (iblk0 V c 2 t) (iblk0 V c 3 t) (iblk0 V c 4 t) (iblk0 V c 5 t)) (iblk0 V c 6 t) j = G_q V c (((cfg0.win 11).blk t).view.emb j)
  have hj0 : (j 0).val < 1 := (j 0).isLt
  refine point_q (V c main_arg0) (V c main_arg1) (V c main_arg2) (V c main_v0) (V c main_arg4) (V c main_arg7) (V c main_arg8) ⟨t.val / 8, by omega⟩ ⟨t.val % 8, by omega⟩
    (iblk0 V c 0 t) (iblk0 V c 1 t) (iblk0 V c 2 t) (iblk0 V c 3 t) (iblk0 V c 4 t) (iblk0 V c 5 t) (iblk0 V c 6 t)
    (fun r d => iblk0_0_apply V c t _ _ rfl rfl r d) (iblk0_1_eq V c t) (iblk0_2_eq V c t) (fun y => iblk0_3_apply V c t y) (iblk0_4_eq V c t) (iblk0_5_eq V c t) (iblk0_6_eq V c t)
    j (((cfg0.win 11).blk t).view.emb j) ?_ ?_ ?_
  · show win0_11.index t (0 : Fin 3) * 1 + 1 * (j 0).val = t.val / 8; omega
  · show win0_11.index t (1 : Fin 3) * 256 + 1 * (j 1).val = 256 * (t.val % 8) + (j 1).val; omega
  · show win0_11.index t (2 : Fin 3) * 128 + 1 * (j 2).val = (j 2).val; omega

/-- An index of the array is in point t's block iff each coordinate is in the block's range on its axis. -/
theorem mem_blk_q (t : Fin cfg0.N) (i : S4x2048x128.Idx) :
    i ∈ ((cfg0.win 11).blk t).view.set ↔ ∀ a : Fin 3, win0_11.index t a * S1x256x128.size a ≤ (i a).val ∧ (i a).val < win0_11.index t a * S1x256x128.size a + S1x256x128.size a := by
  show i ∈ ((View.whole main_v2_2).slice (win0_11.rect t)).set ↔ _
  rw [View.set_slice_whole, Rect.mem_set_unit]
  exact Iff.rfl

/-- Every entry of the array is in some point's block: row R of batch element n in the block of the point with
    t / 8 = n and t mod 8 = R / 256. -/
theorem cover_q (i : S4x2048x128.Idx) :
    ∃ t : Fin cfg0.N, (cfg0.win 11).flush t = true ∧ i ∈ ((cfg0.win 11).blk t).view.set := by
  have hi0 : (i 0).val < 4 := (i 0).isLt
  have hi1 : (i 1).val < 2048 := (i 1).isLt
  have hi2 : (i 2).val < 128 := (i 2).isLt
  obtain ⟨t, hb, hl⟩ := proj_onto ⟨(i 0).val, hi0⟩ ⟨(i 1).val / 256, by omega⟩
  have hb' : t.val / 8 = (i 0).val := hb
  have hl' : t.val % 8 = (i 1).val / 256 := hl
  obtain ⟨o0, o1, o2⟩ := idx_11 t
  refine ⟨t, flush0_11 t, ?_⟩
  rw [mem_blk_q]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 128 ≤ (i 2).val ∧ (i 2).val < win0_11.index t (2 : Fin 3) * 128 + 128; omega

/-- After the last point result 11 is the reference's stage of the entry arrays. -/
theorem proj_final_q (c : Dev nD) :
    (dat0 V c).arrAt 11 cfg0.N = Cert.ReferenceIdeal.Read.val_main_v37 (F := Ideal) (V c main_arg0) (V c main_arg1) (V c main_arg2) (V c main_v0) (V c main_arg4) (V c main_arg7) (V c main_arg8) :=
  (dat0 V c).arrAt_eq_of_cover 11 (G_q V c) (fun t _ => flushed_q V c t) (cover_q)

/-! ## Result 12 -/

/-- The whole-array function result 12 ends holding: the reference's stage of the entry arrays. -/
abbrev G_k (c : Dev nD) : S4x2048x128.Idx → Elt Ideal .bf16 :=
  fun i => Cert.ReferenceIdeal.Read.val_main_v43 (F := Ideal) (V c main_arg0) (V c main_arg1) (V c main_arg2) (V c main_v0) (V c main_arg4) (V c main_arg9) (V c main_arg10) i

/-- What point t writes back is block t of that function. -/
theorem flushed_k (c : Dev nD) (t : Fin cfg0.N) :
    (dat0 V c).flushed 12 t = ((cfg0.win 12).blk t).view.read (Elt Ideal) (G_k V c) := by
  have ht := lt32 t
  obtain ⟨o0, o1, o2⟩ := idx_12 t
  show (cfg0.win 12).cut (grid0.coords t) ((dat0 V c).after 12 t) = _
  rw [after0_12, out0_12_eq]
  funext j
  rw [View.read_apply]
  show k0_pay4 (k0_pay8 (iblk0 V c 0 t) (iblk0 V c 1 t) (iblk0 V c 2 t) (iblk0 V c 3 t) (iblk0 V c 4 t)) (iblk0 V c 7 t) (iblk0 V c 8 t) j = G_k V c (((cfg0.win 12).blk t).view.emb j)
  have hj0 : (j 0).val < 1 := (j 0).isLt
  refine point_k (V c main_arg0) (V c main_arg1) (V c main_arg2) (V c main_v0) (V c main_arg4) (V c main_arg9) (V c main_arg10) ⟨t.val / 8, by omega⟩ ⟨t.val % 8, by omega⟩
    (iblk0 V c 0 t) (iblk0 V c 1 t) (iblk0 V c 2 t) (iblk0 V c 3 t) (iblk0 V c 4 t) (iblk0 V c 7 t) (iblk0 V c 8 t)
    (fun r d => iblk0_0_apply V c t _ _ rfl rfl r d) (iblk0_1_eq V c t) (iblk0_2_eq V c t) (fun y => iblk0_3_apply V c t y) (iblk0_4_eq V c t) (iblk0_7_eq V c t) (iblk0_8_eq V c t)
    j (((cfg0.win 12).blk t).view.emb j) ?_ ?_ ?_
  · show win0_12.index t (0 : Fin 3) * 1 + 1 * (j 0).val = t.val / 8; omega
  · show win0_12.index t (1 : Fin 3) * 256 + 1 * (j 1).val = 256 * (t.val % 8) + (j 1).val; omega
  · show win0_12.index t (2 : Fin 3) * 128 + 1 * (j 2).val = (j 2).val; omega

/-- An index of the array is in point t's block iff each coordinate is in the block's range on its axis. -/
theorem mem_blk_k (t : Fin cfg0.N) (i : S4x2048x128.Idx) :
    i ∈ ((cfg0.win 12).blk t).view.set ↔ ∀ a : Fin 3, win0_12.index t a * S1x256x128.size a ≤ (i a).val ∧ (i a).val < win0_12.index t a * S1x256x128.size a + S1x256x128.size a := by
  show i ∈ ((View.whole main_v2_3).slice (win0_12.rect t)).set ↔ _
  rw [View.set_slice_whole, Rect.mem_set_unit]
  exact Iff.rfl

/-- Every entry of the array is in some point's block: row R of batch element n in the block of the point with
    t / 8 = n and t mod 8 = R / 256. -/
theorem cover_k (i : S4x2048x128.Idx) :
    ∃ t : Fin cfg0.N, (cfg0.win 12).flush t = true ∧ i ∈ ((cfg0.win 12).blk t).view.set := by
  have hi0 : (i 0).val < 4 := (i 0).isLt
  have hi1 : (i 1).val < 2048 := (i 1).isLt
  have hi2 : (i 2).val < 128 := (i 2).isLt
  obtain ⟨t, hb, hl⟩ := proj_onto ⟨(i 0).val, hi0⟩ ⟨(i 1).val / 256, by omega⟩
  have hb' : t.val / 8 = (i 0).val := hb
  have hl' : t.val % 8 = (i 1).val / 256 := hl
  obtain ⟨o0, o1, o2⟩ := idx_12 t
  refine ⟨t, flush0_12 t, ?_⟩
  rw [mem_blk_k]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 256 ≤ (i 1).val ∧ (i 1).val < win0_12.index t (1 : Fin 3) * 256 + 256; omega
  | ⟨2, _⟩ => show win0_12.index t (2 : Fin 3) * 128 ≤ (i 2).val ∧ (i 2).val < win0_12.index t (2 : Fin 3) * 128 + 128; omega

/-- After the last point result 12 is the reference's stage of the entry arrays. -/
theorem proj_final_k (c : Dev nD) :
    (dat0 V c).arrAt 12 cfg0.N = Cert.ReferenceIdeal.Read.val_main_v43 (F := Ideal) (V c main_arg0) (V c main_arg1) (V c main_arg2) (V c main_v0) (V c main_arg4) (V c main_arg9) (V c main_arg10) :=
  (dat0 V c).arrAt_eq_of_cover 12 (G_k V c) (fun t _ => flushed_k V c t) (cover_k)

end Cert.KernelIdeal.Hand

end
-- ==== Proof.KI.HostCasts.lean ====
/-
  The two host casts before the first launch.

  @main first rounds the two weight matrices (arguments 3 and 5) to bf16 into two fresh buffers.  On the extended reals
  a change of float format is the identity, so after the two casts each fresh buffer holds, entry by entry, the
  argument it was cast from.
-/
import proofs.«152703_j41326175322889_2_alg».proof.Proof.KI.Run
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- After the casts the first fresh buffer holds the 1024 x 4224 weight matrix, entry by entry. -/
theorem Whost_main_v0 (i : S1024x4224.Idx) :
    (Whost m c (Proc.devRef .tc main_v0) i : EReal) = (m ((c : Thread nD τ).loc main_arg3) i : EReal) := by
  have e : (Whost m c (Proc.devRef .tc main_v0) : S1024x4224.Idx → EReal)
      = (m ((c : Thread nD τ).loc main_arg3) : S1024x4224.Idx → EReal) := by
    dsimp only [Whost, Win, hostOps0]
    after_results
    rfl
  exact congrFun e i

/-- After the casts the second fresh buffer holds the 2048 x 1024 weight matrix, entry by entry. -/
theorem Whost_main_v1 (i : S2048x1024.Idx) :
    (Whost m c (Proc.devRef .tc main_v1) i : EReal) = (m ((c : Thread nD τ).loc main_arg5) i : EReal) := by
  have e : (Whost m c (Proc.devRef .tc main_v1) : S2048x1024.Idx → EReal)
      = (m ((c : Thread nD τ).loc main_arg5) : S2048x1024.Idx → EReal) := by
    dsimp only [Whost, Win, hostOps0]
    after_results
    rfl
  exact congrFun e i

end Cert.KernelIdeal.Hand

end
-- ==== Proof.KI.KernelValue.lean ====
/-
  The kernel's result is the reference's. The attention region leaves the attention tail of the arrays it is entered with;
  four of those are the projection region's outputs, which are the reference's stages u, v, q, k of the arrays that region is
  entered with; those are the launch arguments, the two weight matrices through their host casts, which keep every entry at
  the exact reading. And the reference's result is the same tail of the same stages.
-/
import proofs.«152703_j41326175322889_2_alg».proof.Proof.KI.Run
import proofs.«152703_j41326175322889_2_alg».proof.Proof.KI.AttnArrays
import proofs.«152703_j41326175322889_2_alg».proof.Proof.KI.ProjArrays
import proofs.«152703_j41326175322889_2_alg».proof.Proof.KI.HostCasts
import proofs.«152703_j41326175322889_2_alg».proof.Proof.RefTail

set_option maxRecDepth 16384

noncomputable section

namespace Cert.KernelIdeal.Hand

open Cert.AttnTail Cert.ReferenceIdeal.Read
open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-! ## The projection region is entered with the launch arguments -/

theorem Vhost_arg0 : Vhost m c main_arg0 = m ((c : Thread nD τ).loc main_arg0) := Whost_of m c main_arg0 (by decide)
theorem Vhost_arg1 : Vhost m c main_arg1 = m ((c : Thread nD τ).loc main_arg1) := Whost_of m c main_arg1 (by decide)
theorem Vhost_arg2 : Vhost m c main_arg2 = m ((c : Thread nD τ).loc main_arg2) := Whost_of m c main_arg2 (by decide)
theorem Vhost_arg4 : Vhost m c main_arg4 = m ((c : Thread nD τ).loc main_arg4) := Whost_of m c main_arg4 (by decide)
theorem Vhost_arg7 : Vhost m c main_arg7 = m ((c : Thread nD τ).loc main_arg7) := Whost_of m c main_arg7 (by decide)
theorem Vhost_arg8 : Vhost m c main_arg8 = m ((c : Thread nD τ).loc main_arg8) := Whost_of m c main_arg8 (by decide)
theorem Vhost_arg9 : Vhost m c main_arg9 = m ((c : Thread nD τ).loc main_arg9) := Whost_of m c main_arg9 (by decide)
theorem Vhost_arg10 : Vhost m c main_arg10 = m ((c : Thread nD τ).loc main_arg10) := Whost_of m c main_arg10 (by decide)

/-- The cast input weights hold the argument's entries. -/
theorem Vhost_v0 : (fun i => (Vhost m c main_v0 i : EReal) : S1024x4224.Idx → EReal) = fun i => (m ((c : Thread nD τ).loc main_arg3) i : EReal) :=
  funext (Whost_main_v0 m c)

/-! ## The attention region is entered with the reference's stages -/

theorem entry_u : (Vproj m c main_v2_0 : S4x2048x2048.Idx → EReal) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((Wproj_arr m c 9).trans (proj_final_u (Vhost m) c)).trans ?_
  rw [Vhost_arg0, Vhost_arg1, Vhost_arg2, Vhost_arg4]
  exact congrArg (fun w => val_main_v29 (F := Ideal) (m ((c : Thread nD τ).loc main_arg0)) (m ((c : Thread nD τ).loc main_arg1)) (m ((c : Thread nD τ).loc main_arg2)) w (m ((c : Thread nD τ).loc main_arg4))) (Vhost_v0 m c)
theorem entry_v : (Vproj m c main_v2_1 : S4x2048x2048.Idx → EReal) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((Wproj_arr m c 10).trans (proj_final_v (Vhost m) c)).trans ?_
  rw [Vhost_arg0, Vhost_arg1, Vhost_arg2, Vhost_arg4]
  exact congrArg (fun w => val_main_v30 (F := Ideal) (m ((c : Thread nD τ).loc main_arg0)) (m ((c : Thread nD τ).loc main_arg1)) (m ((c : Thread nD τ).loc main_arg2)) w (m ((c : Thread nD τ).loc main_arg4))) (Vhost_v0 m c)
theorem entry_q : (Vproj m c main_v2_2 : S4x2048x128.Idx → EReal) = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine ((Wproj_arr m c 11).trans (proj_final_q (Vhost m) c)).trans ?_
  rw [Vhost_arg0, Vhost_arg1, Vhost_arg2, Vhost_arg4, Vhost_arg7, Vhost_arg8]
  exact congrArg (fun w => val_main_v37 (F := Ideal) (m ((c : Thread nD τ).loc main_arg0)) (m ((c : Thread nD τ).loc main_arg1)) (m ((c : Thread nD τ).loc main_arg2)) w (m ((c : Thread nD τ).loc main_arg4)) (m ((c : Thread nD τ).loc main_arg7)) (m ((c : Thread nD τ).loc main_arg8))) (Vhost_v0 m c)
theorem entry_k : (Vproj m c main_v2_3 : S4x2048x128.Idx → EReal) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) := by
  refine ((Wproj_arr m c 12).trans (proj_final_k (Vhost m) c)).trans ?_
  rw [Vhost_arg0, Vhost_arg1, Vhost_arg2, Vhost_arg4, Vhost_arg9, Vhost_arg10]
  exact congrArg (fun w => val_main_v43 (F := Ideal) (m ((c : Thread nD τ).loc main_arg0)) (m ((c : Thread nD τ).loc main_arg1)) (m ((c : Thread nD τ).loc main_arg2)) w (m ((c : Thread nD τ).loc main_arg4)) (m ((c : Thread nD τ).loc main_arg9)) (m ((c : Thread nD τ).loc main_arg10))) (Vhost_v0 m c)

theorem entry_x : Vproj m c main_arg0 = m ((c : Thread nD τ).loc main_arg0) :=
  ((Wproj_arr m c 0).trans (((dat0 (Vhost m) c).arrAt_in 0 rfl _).trans (A_eq0 (Vhost m) c 0))).trans (Vhost_arg0 m c)
theorem entry_b : Vproj m c main_arg6 = m ((c : Thread nD τ).loc main_arg6) :=
  (Wproj_of_ne m c main_arg6 (by decide)).trans (Whost_of m c main_arg6 (by decide))
/-- The cast output weights hold the argument's entries. -/
theorem entry_w : (fun i => (Vproj m c main_v1 i : EReal) : S2048x1024.Idx → EReal) = fun i => (m ((c : Thread nD τ).loc main_arg5) i : EReal) :=
  funext fun i => (congrFun (Wproj_of_ne m c main_v1 (by decide)) i).trans (Whost_main_v1 m c i)

/-- THE KERNEL'S RESULT after the run is the reference's result stage of the launch arguments. -/
theorem kernel_value :
    ((dat1 (Vproj m) c).arrAt 7 cfg1.N : S4x2048x1024.Idx → EReal)
      = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [attn_final (Vproj m) c, ref_is_tail, entry_q, entry_k, entry_v, entry_u, entry_x, entry_b]
  exact congrArg (fun w => attnOut (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)))
    (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg0)) w (m ((c : Thread nD τ).loc main_arg6))) (entry_w m c)

end Cert.KernelIdeal.Hand

end
-- ==== Proof.lean ====
/-
  The kernel is a gated attention unit in two launches. The first, on each 256-row tile of each batch element,
  normalises the rows of x (mean and variance over the 1024 features, ε inside the reciprocal square root, gain and bias),
  multiplies by the whole input weight matrix, adds its bias, applies z ↦ z · logistic z and cuts the 4224 columns into
  u | v | z, with q = z·γq + βq and k = z·γk + βk. The second, for each 512-row query tile, walks the four 512-row key
  tiles, adding max((q·kᵀ) · 2⁻¹¹, 0)² · v to an accumulator it keeps between the four steps, and at the last step
  writes x + (u ⊙ acc)·W_out + b_out, the product taken in two halves of the 2048 features.

  The reference computes the same with whole arrays, dividing the scores by 2048. At the exact reading of the floats the
  two agree entry by entry: the first launch's arithmetic is the reference's own (the logistic function is its
  expansion 1 / (1 + e^{-z}); every sum runs over the same whole axis from the same zero), and in the second only the
  grouping of two sums differs (four key tiles; two feature halves), together with x · 2⁻¹¹ = x / 2048, which holds for
  every extended real. No finiteness of the inputs is used.

  The frames: the reference's is its run with the result dropped; each kernel program's is the run of its three items
  (the host casts, the two launches) with every unscoped buffer followed from the launch to the return.
-/
import proofs.«152703_j41326175322889_2_alg».proof.Defs
import proofs.«152703_j41326175322889_2_alg».proof.Proof.Gen.Kernel
import proofs.«152703_j41326175322889_2_alg».proof.Proof.Gen.KernelIdeal
import proofs.«152703_j41326175322889_2_alg».proof.Proof.Gen.ReferenceIdeal
import proofs.«152703_j41326175322889_2_alg».proof.Proof.Gen.Pre_finite_inputs
import proofs.«152703_j41326175322889_2_alg».proof.Proof.Gen.ReferenceIdeal.Run
import proofs.«152703_j41326175322889_2_alg».proof.Proof.Gen.ReferenceIdeal.Read
import proofs.«152703_j41326175322889_2_alg».proof.Proof.KI.Run
import proofs.«152703_j41326175322889_2_alg».proof.Proof.K.Run
import proofs.«152703_j41326175322889_2_alg».proof.Proof.KI.KernelValue
import Idealize.ShloMosaic.Adequacy
import Idealize.ShloMosaic.Init

noncomputable section

namespace Cert.Proof

open Idealize.ShloMosaic Idealize.SL.Sem

/-- The kernel as printed runs to the end, faults nowhere and leaves its arguments as launched. -/
theorem frame_k : Cert.frame_Kernel := fun m ρ _ => Cert.Kernel.Hand.frame (F := Bits) m ρ

/-- The idealized kernel runs to the end, faults nowhere and leaves its arguments as launched. -/
theorem frame_ki : Cert.frame_KernelIdeal := fun m ρ _ => Cert.KernelIdeal.Hand.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized program differs from the kernel in nothing: it is the kernel's own text read at the exact instance. -/
theorem preserves : Cert.preserves_Kernel_KernelIdeal := trivial

/-- At the exact reading both programs run to the end from memories agreeing on the arguments, and end with the same
    result: the kernel's result buffer holds the attention region's output array after its write-backs, which is the
    reference's result stage of the launch arguments; the reference's run ends at that stage of its own arguments. -/
theorem algebraic : Cert.algebraic_KernelIdeal_ReferenceIdeal := by
  intro m ρ m' ρ' _ hagree
  refine ⟨fun c => (Cert.KernelIdeal.Hand.dat1 (Cert.KernelIdeal.Hand.Vproj m) c).arrAt 7 Cert.KernelIdeal.cfg1.N,
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v55_eq, a0, a1, a2, a3, a4, a5, a6, a7, a8, a9, a10]
  exact (Cert.KernelIdeal.Hand.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
